-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2 : Shape := ⟨2, ![4096, 2]⟩
abbrev S4096 : Shape := ⟨1, ![4096]⟩
abbrev S2048x2 : Shape := ⟨2, ![2048, 2]⟩
abbrev S_ : Shape := ⟨0, ![]⟩

class Facts : Prop where
  bcast_S_S4096x2 : S_.BroadcastsInDim S4096x2 (![] : Fin 0 → Fin S4096x2.rank)
  reducesTo_S4096x2_S_d0_1 : S4096x2.ReducesTo [0, 1] S_
  h_S_ : 0 < S_.numel
  bcast_S_S4096 : S_.BroadcastsInDim S4096 (![] : Fin 0 → Fin S4096.rank)
  reducesTo_S4096_S_d0 : S4096.ReducesTo [0] S_
  bcast_S_S2048x2 : S_.BroadcastsInDim S2048x2 (![] : Fin 0 → Fin S2048x2.rank)
  reducesTo_S2048x2_S_d0_1 : S2048x2.ReducesTo [0, 1] S_

variable [Facts]

def fn_part1 {F : FTy → Type} [FloatOps F] (main_v13 : IVec S_ 1) (main_v16 : IVec S2048x2 1) : IVec S_ 1 :=
  let main_c_5 : IVec S_ 1 := constantI S_ 1 1#1
  let main_v17 : IVec S_ 1 := (fun x v => Host.reduce IntOp.andi x v reducesTo_S2048x2_S_d0_1 h_S_) main_v16 main_c_5
  let main_v18 : IVec S_ 1 := andi main_v13 main_v17
  main_v18

def fn {F : FTy → Type} [FloatOps F] (main_arg0 : FVec F S4096x2 .f32) (main_arg1 : FVec F S4096 .f32) (main_arg2 : FVec F S2048x2 .f32) (main_arg3 : FVec F S2048x2 .f32) : IVec S_ 1 :=
  let main_v0 : FVec F S4096x2 .f32 := Host.absf main_arg0
  let main_cst : FVec F S_ .f32 := constant S_ .f32 0x7F800000#32
  let main_v1 : FVec F S4096x2 .f32 := broadcastInDim S4096x2 ![] bcast_S_S4096x2 main_cst
  let main_v2 : IVec S4096x2 1 := cmpf .olt main_v0 main_v1
  let main_c : IVec S_ 1 := constantI S_ 1 1#1
  let main_v3 : IVec S_ 1 := (fun x v => Host.reduce IntOp.andi x v reducesTo_S4096x2_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S2048x2 .f32 := Host.absf main_arg2
  let main_cst_2 : FVec F S_ .f32 := constant S_ .f32 0x7F800000#32
  let main_v10 : FVec F S2048x2 .f32 := broadcastInDim S2048x2 ![] bcast_S_S2048x2 main_cst_2
  let main_v11 : IVec S2048x2 1 := cmpf .olt main_v9 main_v10
  let main_c_3 : IVec S_ 1 := constantI S_ 1 1#1
  let main_v12 : IVec S_ 1 := (fun x v => Host.reduce IntOp.andi x v reducesTo_S2048x2_S_d0_1 h_S_) main_v11 main_c_3
  let main_v13 : IVec S_ 1 := andi main_v8 main_v12
  let main_v14 : FVec F S2048x2 .f32 := Host.absf main_arg3
  let main_cst_4 : FVec F S_ .f32 := constant S_ .f32 0x7F800000#32
  let main_v15 : FVec F S2048x2 .f32 := broadcastInDim S2048x2 ![] bcast_S_S2048x2 main_cst_4
  let main_v16 : IVec S2048x2 1 := cmpf .olt main_v14 main_v15
  fn_part1 (F := F) main_v13 main_v16
-- ==== Kernel.lean ====
abbrev S4096x2 : Shape := ⟨2, ![4096, 2]⟩
abbrev S4096 : Shape := ⟨1, ![4096]⟩
abbrev S2048x2 : Shape := ⟨2, ![2048, 2]⟩
abbrev S4096x1 : Shape := ⟨2, ![4096, 1]⟩
abbrev S1x4096 : Shape := ⟨2, ![1, 4096]⟩
abbrev S128x1 : Shape := ⟨2, ![128, 1]⟩
abbrev S128x2 : Shape := ⟨2, ![128, 2]⟩
abbrev S128x4096 : Shape := ⟨2, ![128, 4096]⟩
abbrev S128 : Shape := ⟨1, ![128]⟩
abbrev S2048x1 : Shape := ⟨2, ![2048, 1]⟩
abbrev S2048 : Shape := ⟨1, ![2048]⟩
abbrev S1x2048 : Shape := ⟨2, ![1, 2048]⟩
abbrev S128x2048 : Shape := ⟨2, ![128, 2048]⟩
abbrev S32x2x2048 : Shape := ⟨3, ![32, 2, 2048]⟩
abbrev S1x2x2048 : Shape := ⟨3, ![1, 2, 2048]⟩
abbrev S2x2048 : Shape := ⟨2, ![2, 2048]⟩
abbrev S_ : Shape := ⟨0, ![]⟩
abbrev S6144x2 : Shape := ⟨2, ![6144, 2]⟩

abbrev nBuf : Space → Nat
  | .hbm => 61
  | .vmem => 39
  | .smem => 0
  | _ => 0

abbrev bufTy : (tb : Table) → Fin (tcTables nBuf tb) → BufTy
  | .hbm, ⟨0, _⟩ => ⟨S4096x2, .f32⟩
  | .hbm, ⟨1, _⟩ => ⟨S4096, .f32⟩
  | .hbm, ⟨2, _⟩ => ⟨S2048x2, .f32⟩
  | .hbm, ⟨3, _⟩ => ⟨S2048x2, .f32⟩
  | .hbm, ⟨4, _⟩ => ⟨S4096x1, .f32⟩
  | .hbm, ⟨5, _⟩ => ⟨S4096, .f32⟩
  | .hbm, ⟨6, _⟩ => ⟨S4096x1, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S4096x1, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S4096x2, .f32⟩
  | .hbm, ⟨15, _⟩ => ⟨S2048x1, .f32⟩
  | .hbm, ⟨16, _⟩ => ⟨S2048, .f32⟩
  | .hbm, ⟨17, _⟩ => ⟨S2048x1, .f32⟩
  | .hbm, ⟨18, _⟩ => ⟨S2048, .f32⟩
  | .hbm, ⟨19, _⟩ => ⟨S2048x1, .f32⟩
  | .hbm, ⟨20, _⟩ => ⟨S2048, .f32⟩
  | .hbm, ⟨21, _⟩ => ⟨S2048x1, .f32⟩
  | .hbm, ⟨22, _⟩ => ⟨S2048, .f32⟩
  | .hbm, ⟨23, _⟩ => ⟨S2048x1, .f32⟩
  | .hbm, ⟨24, _⟩ => ⟨S2048x1, .f32⟩
  | .hbm, ⟨25, _⟩ => ⟨S2048x1, .f32⟩
  | .hbm, ⟨26, _⟩ => ⟨S2048x1, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S2048x2, .f32⟩
  | .hbm, ⟨32, _⟩ => ⟨S4096x1, .f32⟩
  | .hbm, ⟨33, _⟩ => ⟨S4096, .f32⟩
  | .hbm, ⟨34, _⟩ => ⟨S4096x1, .f32⟩
  | .hbm, ⟨35, _⟩ => ⟨S4096, .f32⟩
  | .hbm, ⟨36, _⟩ => ⟨S2048x1, .f32⟩
  | .hbm, ⟨37, _⟩ => ⟨S2048, .f32⟩
  | .hbm, ⟨38, _⟩ => ⟨S2048x1, .f32⟩
  | .hbm, ⟨39, _⟩ => ⟨S2048, .f32⟩
  | .hbm, ⟨40, _⟩ => ⟨S2048x1, .f32⟩
  | .hbm, ⟨41, _⟩ => ⟨S2048, .f32⟩
  | .hbm, ⟨42, _⟩ => ⟨S2048x1, .f32⟩
  | .hbm, ⟨43, _⟩ => ⟨S2048, .f32⟩
  | .hbm, ⟨44, _⟩ => ⟨S4096x1, .f32⟩
  | .hbm, ⟨45, _⟩ => ⟨S4096x1, .f32⟩
  | .hbm, ⟨46, _⟩ => ⟨S4096x1, .f32⟩
  | .hbm, ⟨47, _⟩ => ⟨S1x2048, .f32⟩
  | .hbm, ⟨48, _⟩ => ⟨S1x2048, .f32⟩
  | .hbm, ⟨49, _⟩ => ⟨S1x2048, .f32⟩
  | .hbm, ⟨50, _⟩ => ⟨S1x2048, .f32⟩
  | .hbm, ⟨51, _⟩ => ⟨S4096x2, .f32⟩
  | .hbm, ⟨52, _⟩ => ⟨S32x2x2048, .f32⟩
  | .hbm, ⟨53, _⟩ => ⟨S_, .f32⟩
  | .hbm, ⟨54, _⟩ => ⟨S2x2048, .f32⟩
  | .hbm, ⟨55, _⟩ => ⟨S2048x2, .f32⟩
  | .hbm, ⟨56, _⟩ => ⟨S4096x2, .f32⟩
  | .hbm, ⟨57, _⟩ => ⟨S4096x2, .f32⟩
  | .hbm, ⟨58, _⟩ => ⟨S2048x2, .f32⟩
  | .hbm, ⟨59, _⟩ => ⟨S2048x2, .f32⟩
  | .hbm, ⟨60, _⟩ => ⟨S6144x2, .f32⟩
  | .local _ .vmem, ⟨0, _⟩ => ⟨S128x1, .f32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x1, .f32⟩
  | .local _ .vmem, ⟨5, _⟩ => ⟨S128x1, .f32⟩
  | .local _ .vmem, ⟨6, _⟩ => ⟨S1x4096, .f32⟩
  | .local _ .vmem, ⟨7, _⟩ => ⟨S1x4096, .f32⟩
  | .local _ .vmem, ⟨8, _⟩ => ⟨S1x4096, .f32⟩
  | .local _ .vmem, ⟨9, _⟩ => ⟨S128x2, .f32⟩
  | .local _ .vmem, ⟨10, _⟩ => ⟨S128x2, .f32⟩
  | .local _ .vmem, ⟨11, _⟩ => ⟨S128x1, .f32⟩
  | .local _ .vmem, ⟨12, _⟩ => ⟨S128x1, .f32⟩
  | .local _ .vmem, ⟨13, _⟩ => ⟨S128x1, .f32⟩
  | .local _ .vmem, ⟨14, _⟩ => ⟨S128x1, .f32⟩
  | .local _ .vmem, ⟨15, _⟩ => ⟨S128x1, .f32⟩
  | .local _ .vmem, ⟨16, _⟩ => ⟨S128x1, .f32⟩
  | .local _ .vmem, ⟨17, _⟩ => ⟨S128x1, .f32⟩
  | .local _ .vmem, ⟨18, _⟩ => ⟨S128x1, .f32⟩
  | .local _ .vmem, ⟨19, _⟩ => ⟨S1x2048, .f32⟩
  | .local _ .vmem, ⟨20, _⟩ => ⟨S1x2048, .f32⟩
  | .local _ .vmem, ⟨21, _⟩ => ⟨S1x2048, .f32⟩
  | .local _ .vmem, ⟨22, _⟩ => ⟨S1x2048, .f32⟩
  | .local _ .vmem, ⟨23, _⟩ => ⟨S128x2, .f32⟩
  | .local _ .vmem, ⟨24, _⟩ => ⟨S128x2, .f32⟩
  | .local _ .vmem, ⟨25, _⟩ => ⟨S128x1, .f32⟩
  | .local _ .vmem, ⟨26, _⟩ => ⟨S128x1, .f32⟩
  | .local _ .vmem, ⟨27, _⟩ => ⟨S128x1, .f32⟩
  | .local _ .vmem, ⟨28, _⟩ => ⟨S128x1, .f32⟩
  | .local _ .vmem, ⟨29, _⟩ => ⟨S128x1, .f32⟩
  | .local _ .vmem, ⟨30, _⟩ => ⟨S128x1, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S128x2, .f32⟩
  | .local _ .vmem, ⟨36, _⟩ => ⟨S128x2, .f32⟩
  | .local _ .vmem, ⟨37, _⟩ => ⟨S1x2x2048, .f32⟩
  | .local _ .vmem, ⟨38, _⟩ => ⟨S1x2x2048, .f32⟩
  | _, _ => ⟨S4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47_0 : Ref sig .tc := ⟨.hbm, 51, rfl⟩
abbrev main_v47_1 : Ref sig .tc := ⟨.hbm, 52, rfl⟩
abbrev main_cst : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc2_stg8_0 : Ref sig .tc := ⟨.vmem, 37, rfl⟩
abbrev cc2_stg8_1 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc2_sem8_0 : DmaSem sig := 37
abbrev cc2_sem8_1 : DmaSem sig := 38

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x2048 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S128x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S128x1 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S128x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S128x2 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x2x2048 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S4096x2_S4096x1_0_0 : S4096x2.Slices ![0, 0] S4096x1
  shapeCasts_S4096x1_S4096 : S4096x1.ShapeCasts S4096
  slices_S4096x2_S4096x1_0_1 : S4096x2.Slices ![0, 1] S4096x1
  shapeCasts_S4096_S4096x1 : S4096.ShapeCasts S4096x1
  shapeCasts_S4096_S1x4096 : S4096.ShapeCasts S1x4096
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S128x1_S128x4096 : S128x1.Broadcasts S128x4096
  broadcasts_S1x4096_S128x4096 : S1x4096.Broadcasts S128x4096
  iota_S128x1_d0_w32 : S128x1.Iotas .tc 32 [0]
  iota_S1x4096_d1_w32 : S1x4096.Iotas .tc 32 [1]
  reduces_S128x4096_S128 : S128x4096.Reduces [1] S128
  shapeCasts_S128_S128x1 : S128.ShapeCasts S128x1
  concatenates_S128x1_S128x1_S128x2_d1 : Shape.Concatenates [S128x1, S128x1] S128x2 1
  inb_S128x2_S128x2_0_0 : ∀ a, (![0, 0] : Fin 2 → Nat) a + S128x2.size a ≤ S128x2.size a
  h_S128x2 : 0 < S128x2.numel
  slices_S2048x2_S2048x1_0_0 : S2048x2.Slices ![0, 0] S2048x1
  shapeCasts_S2048x1_S2048 : S2048x1.ShapeCasts S2048
  slices_S2048x2_S2048x1_0_1 : S2048x2.Slices ![0, 1] S2048x1
  shapeCasts_S2048_S2048x1 : S2048.ShapeCasts S2048x1
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S128x1_S128x2048 : S128x1.Broadcasts S128x2048
  broadcasts_S1x2048_S128x2048 : S1x2048.Broadcasts S128x2048
  iota_S1x2048_d1_w32 : S1x2048.Iotas .tc 32 [1]
  reduces_S128x2048_S128 : S128x2048.Reduces [1] S128
  reduces_S128x2048_S2048 : S128x2048.Reduces [0] S2048
  concatenates_S1x2048_S1x2048_S2x2048_d0 : Shape.Concatenates [S1x2048, S1x2048] S2x2048 0
  shapeCasts_S2x2048_S1x2x2048 : S2x2048.ShapeCasts S1x2x2048
  inb_S1x2x2048_S1x2x2048_0_0_0 : ∀ a, (![0, 0, 0] : Fin 3 → Nat) a + S1x2x2048.size a ≤ S1x2x2048.size a
  h_S1x2x2048 : 0 < S1x2x2048.numel
  reducesTo_S32x2x2048_S2x2048_d0 : S32x2x2048.ReducesTo [0] S2x2048
  h_S_ : 0 < S_.numel
  transposes_S2x2048_S2048x2_1_0 : S2x2048.Transposes [1, 0] S2048x2
  concatenates_S4096x2_S2048x2_S6144x2_d0 : Shape.Concatenates [S4096x2, S2048x2] S6144x2 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1.size a ≤ S4096x1.size a
  hwx0_0 : ∀ i : grid0.Coords, EltTy.bits .f32 = 32 ∨ (Rect.block (s := S4096x1) S128x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S4096x1.size a
  hwx0_1 : ∀ i : grid0.Coords, EltTy.bits .f32 = 32 ∨ (Rect.block (s := S4096x1) S128x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S4096x1.size a
  hwx0_2 : ∀ i : grid0.Coords, EltTy.bits .f32 = 32 ∨ (Rect.block (s := S4096x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .f32 = 32 ∨ (Rect.block (s := S1x4096) S1x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x2.size a ≤ S4096x2.size a
  hwx0_6 : ∀ i : grid0.Coords, EltTy.bits .f32 = 32 ∨ (Rect.block (s := S4096x2) S128x2.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1.size a ≤ S2048x1.size a
  hwx1_0 : ∀ i : grid1.Coords, EltTy.bits .f32 = 32 ∨ (Rect.block (s := S2048x1) S128x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x1.size a ≤ S2048x1.size a
  hwx1_1 : ∀ i : grid1.Coords, EltTy.bits .f32 = 32 ∨ (Rect.block (s := S2048x1) S128x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x1.size a ≤ S2048x1.size a
  hwx1_2 : ∀ i : grid1.Coords, EltTy.bits .f32 = 32 ∨ (Rect.block (s := S2048x1) S128x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x1.size a ≤ S2048x1.size a
  hwx1_3 : ∀ i : grid1.Coords, EltTy.bits .f32 = 32 ∨ (Rect.block (s := S2048x1) S128x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x2048.size a
  hwx1_4 : ∀ i : grid1.Coords, EltTy.bits .f32 = 32 ∨ (Rect.block (s := S1x2048) S1x2048.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x2048.size a ≤ S1x2048.size a
  hwx1_6 : ∀ i : grid1.Coords, EltTy.bits .f32 = 32 ∨ (Rect.block (s := S1x2048) S1x2048.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x2048.size a ≤ S1x2048.size a
  hwx1_7 : ∀ i : grid1.Coords, EltTy.bits .f32 = 32 ∨ (Rect.block (s := S1x2048) S1x2048.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S128x2.size a ≤ S2048x2.size a
  hwx1_8 : ∀ i : grid1.Coords, EltTy.bits .f32 = 32 ∨ (Rect.block (s := S2048x2) S128x2.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S128x1.size a ≤ S4096x1.size a
  hwx2_0 : ∀ i : grid2.Coords, EltTy.bits .f32 = 32 ∨ (Rect.block (s := S4096x1) S128x1.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S128x1.size a ≤ S4096x1.size a
  hwx2_1 : ∀ i : grid2.Coords, EltTy.bits .f32 = 32 ∨ (Rect.block (s := S4096x1) S128x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S128x1.size a ≤ S4096x1.size a
  hwx2_2 : ∀ i : grid2.Coords, EltTy.bits .f32 = 32 ∨ (Rect.block (s := S4096x1) S128x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x2048.size a ≤ S1x2048.size a
  hwx2_3 : ∀ i : grid2.Coords, EltTy.bits .f32 = 32 ∨ (Rect.block (s := S1x2048) S1x2048.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S128x2.size a ≤ S4096x2.size a
  hwx2_7 : ∀ i : grid2.Coords, EltTy.bits .f32 = 32 ∨ (Rect.block (s := S4096x2) S128x2.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x2x2048.size a ≤ S32x2x2048.size a
  hwx2_8 : ∀ i : grid2.Coords, EltTy.bits .f32 = 32 ∨ (Rect.block (s := S32x2x2048) S1x2x2048.size (cc2_transform_8 i) (hinb2_8 i)).WholeWords (EltTy.packing .f32)

variable [Facts₀]

abbrev win0_0 : Pipeline.Window sig grid0 :=
  Pipeline.Window.ofSpec (Memref.whole main_v4) S128x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S128x2.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19) S128x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S128x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S128x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v22) S128x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v25) S1x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v26) S1x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v27) S128x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v40) S128x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v41) S128x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S128x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v43) S1x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v45) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v46) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v47_0) S128x2.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v47_1) S1x2x2048.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x2 : Shape := ⟨2, ![4096, 2]⟩
abbrev S4096 : Shape := ⟨1, ![4096]⟩
abbrev S2048x2 : Shape := ⟨2, ![2048, 2]⟩
abbrev S4096x1x2 : Shape := ⟨3, ![4096, 1, 2]⟩
abbrev S1x4096x2 : Shape := ⟨3, ![1, 4096, 2]⟩
abbrev S4096x4096x2 : Shape := ⟨3, ![4096, 4096, 2]⟩
abbrev S_ : Shape := ⟨0, ![]⟩
abbrev S4096x4096 : Shape := ⟨2, ![4096, 4096]⟩
abbrev S4096x1 : Shape := ⟨2, ![4096, 1]⟩
abbrev S1x4096 : Shape := ⟨2, ![1, 4096]⟩
abbrev S4096x4096x1 : Shape := ⟨3, ![4096, 4096, 1]⟩
abbrev S2048x1x2 : Shape := ⟨3, ![2048, 1, 2]⟩
abbrev S1x2048x2 : Shape := ⟨3, ![1, 2048, 2]⟩
abbrev S2048x2048x2 : Shape := ⟨3, ![2048, 2048, 2]⟩
abbrev S2048x2048 : Shape := ⟨2, ![2048, 2048]⟩
abbrev S2048x2048x1 : Shape := ⟨3, ![2048, 2048, 1]⟩
abbrev S4096x2048x2 : Shape := ⟨3, ![4096, 2048, 2]⟩
abbrev S4096x2048 : Shape := ⟨2, ![4096, 2048]⟩
abbrev S4096x2048x1 : Shape := ⟨3, ![4096, 2048, 1]⟩
abbrev S6144x2 : Shape := ⟨2, ![6144, 2]⟩

abbrev nBuf : Space → Nat
  | .hbm => 200
  | .vmem => 0
  | .smem => 0
  | _ => 0

abbrev hbmTy0_0 (i : Nat) : BufTy := match i % 128 with
  | 0 => ⟨S4096x2, .f32⟩
  | 1 => ⟨S4096, .f32⟩
  | 2 => ⟨S2048x2, .f32⟩
  | 3 => ⟨S2048x2, .f32⟩
  | 4 => ⟨S4096x1x2, .f32⟩
  | 5 => ⟨S1x4096x2, .f32⟩
  | 6 => ⟨S4096x4096x2, .f32⟩
  | 7 => ⟨S4096x4096x2, .f32⟩
  | 8 => ⟨S4096x4096x2, .f32⟩
  | 9 => ⟨S4096x4096x2, .f32⟩
  | 10 => ⟨S_, .f32⟩
  | 11 => ⟨S4096x4096, .f32⟩
  | 12 => ⟨S4096x4096, .i32⟩
  | 13 => ⟨S4096x4096, .i32⟩
  | 14 => ⟨S_, .i32⟩
  | 15 => ⟨S4096x4096, .i32⟩
  | 16 => ⟨S4096x4096, .i32⟩
  | 17 => ⟨S4096x4096, .i1⟩
  | 18 => ⟨S4096x4096, .i1⟩
  | 19 => ⟨S_, .f32⟩
  | 20 => ⟨S4096x4096, .f32⟩
  | 21 => ⟨S4096x4096, .i1⟩
  | 22 => ⟨S_, .f32⟩
  | 23 => ⟨S_, .f32⟩
  | 24 => ⟨S4096x4096, .f32⟩
  | 25 => ⟨S4096x4096, .f32⟩
  | 26 => ⟨S4096x4096, .f32⟩
  | 27 => ⟨S4096x1, .f32⟩
  | 28 => ⟨S1x4096, .f32⟩
  | 29 => ⟨S4096x4096, .f32⟩
  | 30 => ⟨S4096x4096, .f32⟩
  | 31 => ⟨S4096x4096, .f32⟩
  | 32 => ⟨S4096x4096, .f32⟩
  | 33 => ⟨S_, .f32⟩
  | 34 => ⟨S4096x4096, .f32⟩
  | 35 => ⟨S4096x4096, .i1⟩
  | 36 => ⟨S4096x4096, .i1⟩
  | 37 => ⟨S_, .f32⟩
  | 38 => ⟨S4096x4096, .f32⟩
  | 39 => ⟨S4096x4096, .i1⟩
  | 40 => ⟨S4096x4096, .i1⟩
  | 41 => ⟨S4096x4096x1, .f32⟩
  | 42 => ⟨S4096x4096x2, .f32⟩
  | 43 => ⟨S4096x4096x2, .f32⟩
  | 44 => ⟨S4096x4096x1, .i1⟩
  | 45 => ⟨S4096x4096x1, .f32⟩
  | 46 => ⟨S_, .f32⟩
  | 47 => ⟨S4096x4096x1, .f32⟩
  | 48 => ⟨S4096x4096x1, .f32⟩
  | 49 => ⟨S4096x4096x2, .f32⟩
  | 50 => ⟨S4096x4096x2, .f32⟩
  | 51 => ⟨S_, .f32⟩
  | 52 => ⟨S_, .f32⟩
  | 53 => ⟨S4096x4096x2, .i1⟩
  | 54 => ⟨S4096x4096x2, .f32⟩
  | 55 => ⟨S4096x4096x2, .f32⟩
  | 56 => ⟨S_, .f32⟩
  | 57 => ⟨S4096x2, .f32⟩
  | 58 => ⟨S2048x1x2, .f32⟩
  | 59 => ⟨S1x2048x2, .f32⟩
  | 60 => ⟨S2048x2048x2, .f32⟩
  | 61 => ⟨S2048x2048x2, .f32⟩
  | 62 => ⟨S2048x2048x2, .f32⟩
  | 63 => ⟨S2048x1x2, .f32⟩
  | 64 => ⟨S1x2048x2, .f32⟩
  | 65 => ⟨S2048x2048x2, .f32⟩
  | 66 => ⟨S2048x2048x2, .f32⟩
  | 67 => ⟨S2048x2048x2, .f32⟩
  | 68 => ⟨S2048x2048x2, .f32⟩
  | 69 => ⟨S2048x2048x2, .f32⟩
  | 70 => ⟨S2048x2048, .i32⟩
  | 71 => ⟨S2048x2048, .i32⟩
  | 72 => ⟨S_, .i32⟩
  | 73 => ⟨S2048x2048, .i32⟩
  | 74 => ⟨S2048x2048, .i32⟩
  | 75 => ⟨S2048x2048, .i1⟩
  | 76 => ⟨S2048x2048, .i1⟩
  | 77 => ⟨S2048x2048x1, .f32⟩
  | 78 => ⟨S2048x2048, .f32⟩
  | 79 => ⟨S_, .f32⟩
  | 80 => ⟨S2048x2048, .f32⟩
  | 81 => ⟨S2048x2048, .i1⟩
  | 82 => ⟨S2048x2048, .i1⟩
  | 83 => ⟨S2048x2048x1, .f32⟩
  | 84 => ⟨S2048x2048, .f32⟩
  | 85 => ⟨S_, .f32⟩
  | 86 => ⟨S2048x2048, .f32⟩
  | 87 => ⟨S2048x2048, .i1⟩
  | 88 => ⟨S2048x2048, .i1⟩
  | 89 => ⟨S_, .f32⟩
  | 90 => ⟨S2048x2048x2, .f32⟩
  | 91 => ⟨S2048x2048x2, .i1⟩
  | 92 => ⟨S_, .f32⟩
  | 93 => ⟨S_, .f32⟩
  | 94 => ⟨S2048x2048x2, .f32⟩
  | 95 => ⟨S2048x2048x2, .f32⟩
  | 96 => ⟨S2048x2048x2, .f32⟩
  | 97 => ⟨S2048x2048x1, .f32⟩
  | 98 => ⟨S2048x2048, .f32⟩
  | 99 => ⟨S2048x2048x1, .f32⟩
  | 100 => ⟨S2048x2048, .f32⟩
  | 101 => ⟨S2048x2048, .i1⟩
  | 102 => ⟨S2048x2048x1, .f32⟩
  | 103 => ⟨S2048x2048, .f32⟩
  | 104 => ⟨S_, .f32⟩
  | 105 => ⟨S2048x2048, .f32⟩
  | 106 => ⟨S2048x2048x1, .f32⟩
  | 107 => ⟨S2048x2048, .f32⟩
  | 108 => ⟨S_, .f32⟩
  | 109 => ⟨S2048x2048, .f32⟩
  | 110 => ⟨S2048x2048, .f32⟩
  | 111 => ⟨S2048x2048x1, .f32⟩
  | 112 => ⟨S2048x2048, .f32⟩
  | 113 => ⟨S2048x2048, .f32⟩
  | 114 => ⟨S2048x2048, .f32⟩
  | 115 => ⟨S2048x2048x1, .f32⟩
  | 116 => ⟨S2048x2048x1, .f32⟩
  | 117 => ⟨S2048x2048x2, .f32⟩
  | 118 => ⟨S2048x2048x1, .f32⟩
  | 119 => ⟨S2048x2048, .f32⟩
  | 120 => ⟨S_, .f32⟩
  | 121 => ⟨S2048x2048, .f32⟩
  | 122 => ⟨S2048x2048, .f32⟩
  | 123 => ⟨S2048x2048x1, .f32⟩
  | 124 => ⟨S2048x2048, .f32⟩
  | 125 => ⟨S2048x2048, .f32⟩
  | 126 => ⟨S2048x2048, .f32⟩
  | 127 => ⟨S2048x2048x1, .f32⟩
  | _ => ⟨S4096x2, .f32⟩

abbrev hbmTy0_1 (i : Nat) : BufTy := match i % 128 with
  | 0 => ⟨S2048x2048x1, .f32⟩
  | 1 => ⟨S2048x2048x2, .f32⟩
  | 2 => ⟨S2048x2048x1, .i1⟩
  | 3 => ⟨S2048x2048x2, .i1⟩
  | 4 => ⟨S2048x2048x2, .f32⟩
  | 5 => ⟨S2048x2048x1, .i1⟩
  | 6 => ⟨S_, .f32⟩
  | 7 => ⟨S_, .f32⟩
  | 8 => ⟨S2048x2048x2, .i1⟩
  | 9 => ⟨S2048x2048x2, .f32⟩
  | 10 => ⟨S2048x2048x2, .f32⟩
  | 11 => ⟨S_, .f32⟩
  | 12 => ⟨S2048x2, .f32⟩
  | 13 => ⟨S4096x1x2, .f32⟩
  | 14 => ⟨S1x2048x2, .f32⟩
  | 15 => ⟨S4096x2048x2, .f32⟩
  | 16 => ⟨S4096x2048x2, .f32⟩
  | 17 => ⟨S4096x2048x2, .f32⟩
  | 18 => ⟨S1x2048x2, .f32⟩
  | 19 => ⟨S1x2048x2, .f32⟩
  | 20 => ⟨S1x2048x2, .f32⟩
  | 21 => ⟨S4096x2048x2, .f32⟩
  | 22 => ⟨S4096x2048x2, .f32⟩
  | 23 => ⟨S4096x2048x2, .f32⟩
  | 24 => ⟨S4096x2048x2, .f32⟩
  | 25 => ⟨S4096x2048x2, .f32⟩
  | 26 => ⟨S4096x2048x2, .f32⟩
  | 27 => ⟨S_, .f32⟩
  | 28 => ⟨S4096x2048, .f32⟩
  | 29 => ⟨S_, .f32⟩
  | 30 => ⟨S4096x2048, .f32⟩
  | 31 => ⟨S4096x2048, .i1⟩
  | 32 => ⟨S_, .f32⟩
  | 33 => ⟨S_, .f32⟩
  | 34 => ⟨S4096x2048, .f32⟩
  | 35 => ⟨S4096x2048, .f32⟩
  | 36 => ⟨S4096x2048, .f32⟩
  | 37 => ⟨S4096x1, .f32⟩
  | 38 => ⟨S4096x2048, .f32⟩
  | 39 => ⟨S4096x2048, .f32⟩
  | 40 => ⟨S_, .f32⟩
  | 41 => ⟨S4096x2048, .f32⟩
  | 42 => ⟨S4096x2048, .i1⟩
  | 43 => ⟨S_, .f32⟩
  | 44 => ⟨S4096x2048, .f32⟩
  | 45 => ⟨S4096x2048, .i1⟩
  | 46 => ⟨S4096x2048, .i1⟩
  | 47 => ⟨S4096x2048x1, .f32⟩
  | 48 => ⟨S4096x2048x2, .f32⟩
  | 49 => ⟨S4096x2048x2, .f32⟩
  | 50 => ⟨S4096x2048x1, .i1⟩
  | 51 => ⟨S4096x2048x1, .f32⟩
  | 52 => ⟨S_, .f32⟩
  | 53 => ⟨S4096x2048x1, .f32⟩
  | 54 => ⟨S4096x2048x1, .f32⟩
  | 55 => ⟨S4096x2048x2, .f32⟩
  | 56 => ⟨S4096x2048x2, .f32⟩
  | 57 => ⟨S_, .f32⟩
  | 58 => ⟨S_, .f32⟩
  | 59 => ⟨S4096x2048x2, .i1⟩
  | 60 => ⟨S4096x2048x2, .f32⟩
  | 61 => ⟨S4096x2048x2, .f32⟩
  | 62 => ⟨S_, .f32⟩
  | 63 => ⟨S4096x2, .f32⟩
  | 64 => ⟨S_, .f32⟩
  | 65 => ⟨S2048x2, .f32⟩
  | 66 => ⟨S2048x2, .f32⟩
  | 67 => ⟨S4096x2, .f32⟩
  | 68 => ⟨S4096x2, .f32⟩
  | 69 => ⟨S2048x2, .f32⟩
  | 70 => ⟨S2048x2, .f32⟩
  | 71 => ⟨S6144x2, .f32⟩
  | _ => ⟨S4096x2, .f32⟩

abbrev hbmTy (i : Nat) : BufTy := match i / 128 with
  | 0 => hbmTy0_0 i
  | 1 => hbmTy0_1 i
  | _ => ⟨S4096x2, .f32⟩

abbrev bufTy : (tb : Table) → Fin (tcTables nBuf tb) → BufTy
  | .hbm, ⟨i, _⟩ => hbmTy i
  | _, _ => ⟨S4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_3 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_call1_v2 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_7 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_8 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_9 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_10 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_cst_12 : Ref sig .tc := ⟨.hbm, 93, rfl⟩
abbrev main_call2_v0 : Ref sig .tc := ⟨.hbm, 94, rfl⟩
abbrev main_call2_v1 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_13 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_cst_14 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_cst_15 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_call3_v0 : Ref sig .tc := ⟨.hbm, 131, rfl⟩
abbrev main_v102 : Ref sig .tc := ⟨.hbm, 132, rfl⟩
abbrev main_v103 : Ref sig .tc := ⟨.hbm, 133, rfl⟩
abbrev main_cst_16 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v104 : Ref sig .tc := ⟨.hbm, 138, rfl⟩
abbrev main_cst_17 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_call5_v0 : Ref sig .tc := ⟨.hbm, 149, rfl⟩
abbrev main_call5_v1 : Ref sig .tc := ⟨.hbm, 150, rfl⟩
abbrev main_call5_v2 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_18 : Ref sig .tc := ⟨.hbm, 155, rfl⟩
abbrev main_v117 : Ref sig .tc := ⟨.hbm, 156, rfl⟩
abbrev main_cst_19 : Ref sig .tc := ⟨.hbm, 157, rfl⟩
abbrev main_v118 : Ref sig .tc := ⟨.hbm, 158, rfl⟩
abbrev main_v119 : Ref sig .tc := ⟨.hbm, 159, rfl⟩
abbrev main_cst_20 : Ref sig .tc := ⟨.hbm, 160, rfl⟩
abbrev main_call6_v0 : Ref sig .tc := ⟨.hbm, 161, rfl⟩
abbrev main_call6_v1 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_cst_21 : Ref sig .tc := ⟨.hbm, 168, rfl⟩
abbrev main_v125 : Ref sig .tc := ⟨.hbm, 169, rfl⟩
abbrev main_v126 : Ref sig .tc := ⟨.hbm, 170, rfl⟩
abbrev main_cst_22 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_cst_23 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_24 : Ref sig .tc := ⟨.hbm, 185, rfl⟩
abbrev main_call7_v0 : Ref sig .tc := ⟨.hbm, 186, rfl⟩
abbrev main_call7_v1 : Ref sig .tc := ⟨.hbm, 187, rfl⟩
abbrev main_call7_v2 : Ref sig .tc := ⟨.hbm, 188, rfl⟩
abbrev main_v139 : Ref sig .tc := ⟨.hbm, 189, rfl⟩
abbrev main_cst_25 : Ref sig .tc := ⟨.hbm, 190, rfl⟩
abbrev main_v140 : Ref sig .tc := ⟨.hbm, 191, rfl⟩
abbrev main_cst_26 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩

abbrev nD : Nat := 1
abbrev τ : Topo := Topo.v7x

variable {F : FTy → Type} [FloatOps F]

class Facts₀ : Prop where
  bcast_S4096x2_S4096x1x2_0_2 : S4096x2.BroadcastsInDim S4096x1x2 (![0, 2] : Fin 2 → Fin S4096x1x2.rank)
  bcast_S4096x2_S1x4096x2_1_2 : S4096x2.BroadcastsInDim S1x4096x2 (![1, 2] : Fin 2 → Fin S1x4096x2.rank)
  bcast_S4096x1x2_S4096x4096x2_0_1_2 : S4096x1x2.BroadcastsInDim S4096x4096x2 (![0, 1, 2] : Fin 3 → Fin S4096x4096x2.rank)
  bcast_S1x4096x2_S4096x4096x2_0_1_2 : S1x4096x2.BroadcastsInDim S4096x4096x2 (![0, 1, 2] : Fin 3 → Fin S4096x4096x2.rank)
  reducesTo_S4096x4096x2_S4096x4096_d2 : S4096x4096x2.ReducesTo [2] S4096x4096
  h_S_ : 0 < S_.numel
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S4096x4096_S4096x4096x1_0_1 : S4096x4096.BroadcastsInDim S4096x4096x1 (![0, 1] : Fin 2 → Fin S4096x4096x1.rank)
  bcast_S4096x4096x1_S4096x4096x2_0_1_2 : S4096x4096x1.BroadcastsInDim S4096x4096x2 (![0, 1, 2] : Fin 3 → Fin S4096x4096x2.rank)
  bcast_S_S4096x4096x1 : S_.BroadcastsInDim S4096x4096x1 (![] : Fin 0 → Fin S4096x4096x1.rank)
  bcast_S_S4096x4096x2 : S_.BroadcastsInDim S4096x4096x2 (![] : Fin 0 → Fin S4096x4096x2.rank)
  reducesTo_S4096x4096x2_S4096x2_d1 : S4096x4096x2.ReducesTo [1] S4096x2
  bcast_S2048x2_S2048x1x2_0_2 : S2048x2.BroadcastsInDim S2048x1x2 (![0, 2] : Fin 2 → Fin S2048x1x2.rank)
  bcast_S2048x2_S1x2048x2_1_2 : S2048x2.BroadcastsInDim S1x2048x2 (![1, 2] : Fin 2 → Fin S1x2048x2.rank)
  bcast_S2048x1x2_S2048x2048x2_0_1_2 : S2048x1x2.BroadcastsInDim S2048x2048x2 (![0, 1, 2] : Fin 3 → Fin S2048x2048x2.rank)
  bcast_S1x2048x2_S2048x2048x2_0_1_2 : S1x2048x2.BroadcastsInDim S2048x2048x2 (![0, 1, 2] : Fin 3 → Fin S2048x2048x2.rank)
  bcast_S_S2048x2048 : S_.BroadcastsInDim S2048x2048 (![] : Fin 0 → Fin S2048x2048.rank)
  slices_S2048x2048x2_S2048x2048x1_0_0_0 : S2048x2048x2.Slices ![0, 0, 0] S2048x2048x1
  shapeCasts_S2048x2048x1_S2048x2048 : S2048x2048x1.ShapeCasts S2048x2048
  slices_S2048x2048x2_S2048x2048x1_0_0_1 : S2048x2048x2.Slices ![0, 0, 1] S2048x2048x1
  bcast_S_S2048x2048x2 : S_.BroadcastsInDim S2048x2048x2 (![] : Fin 0 → Fin S2048x2048x2.rank)
  bcast_S2048x2048_S2048x2048x1_0_1 : S2048x2048.BroadcastsInDim S2048x2048x1 (![0, 1] : Fin 2 → Fin S2048x2048x1.rank)
  concatenates_S2048x2048x1_S2048x2048x1_S2048x2048x2_d2 : Shape.Concatenates [S2048x2048x1, S2048x2048x1] S2048x2048x2 2
  bcast_S2048x2048x1_S2048x2048x2_0_1_2 : S2048x2048x1.BroadcastsInDim S2048x2048x2 (![0, 1, 2] : Fin 3 → Fin S2048x2048x2.rank)
  reducesTo_S2048x2048x2_S2048x2_d1 : S2048x2048x2.ReducesTo [1] S2048x2
  bcast_S4096x1x2_S4096x2048x2_0_1_2 : S4096x1x2.BroadcastsInDim S4096x2048x2 (![0, 1, 2] : Fin 3 → Fin S4096x2048x2.rank)
  bcast_S1x2048x2_S4096x2048x2_0_1_2 : S1x2048x2.BroadcastsInDim S4096x2048x2 (![0, 1, 2] : Fin 3 → Fin S4096x2048x2.rank)
  reducesTo_S4096x2048x2_S4096x2048_d2 : S4096x2048x2.ReducesTo [2] S4096x2048
  bcast_S_S4096x2048 : S_.BroadcastsInDim S4096x2048 (![] : Fin 0 → Fin S4096x2048.rank)
  bcast_S4096x1_S4096x2048_0_1 : S4096x1.BroadcastsInDim S4096x2048 (![0, 1] : Fin 2 → Fin S4096x2048.rank)
  bcast_S4096x2048_S4096x2048x1_0_1 : S4096x2048.BroadcastsInDim S4096x2048x1 (![0, 1] : Fin 2 → Fin S4096x2048x1.rank)
  bcast_S4096x2048x1_S4096x2048x2_0_1_2 : S4096x2048x1.BroadcastsInDim S4096x2048x2 (![0, 1, 2] : Fin 3 → Fin S4096x2048x2.rank)
  bcast_S_S4096x2048x1 : S_.BroadcastsInDim S4096x2048x1 (![] : Fin 0 → Fin S4096x2048x1.rank)
  bcast_S_S4096x2048x2 : S_.BroadcastsInDim S4096x2048x2 (![] : Fin 0 → Fin S4096x2048x2.rank)
  reducesTo_S4096x2048x2_S4096x2_d1 : S4096x2048x2.ReducesTo [1] S4096x2
  reducesTo_S4096x2048x2_S2048x2_d0 : S4096x2048x2.ReducesTo [0] S2048x2
  concatenates_S4096x2_S2048x2_S6144x2_d0 : Shape.Concatenates [S4096x2, S2048x2] S6144x2 0

variable [Facts₀]

class Facts : Prop extends Facts₀ where

variable [Facts]
-- ==== Proof.KernelIdealRun.lean ====
/-
  The whole run of the idealized program with its result named.

  The program is seven stretches in a row: host operations, the circle–circle pass, host operations, the box–box pass,
  host operations, the circle–box pass, and the closing host operations. Every weakly fair execution goes through them
  in order, nothing faults, and it ends with every unscoped buffer holding what the last stretch leaves; in particular
  the result array holds the closing stretch's value for it, a pure function of the launch memory, and the four argument
  arrays are as launched.
-/
import proofs.«147085_j58935541236175_2_alg».proof.Proof.KernelIdealFrame

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option backward.isDefEq.respectTransparency.types false in
/-- Every weakly fair execution of the program from a memory with zero counters terminates without a fault; the result
    array then holds the last stretch's value, and the arguments are unchanged. -/
theorem run_main : θ_run defs (onTc (τ := τ) (main (F := F))) ⟨m, fun _ => 0, ρ⟩ (fun r => ∀ c : Dev nD,
      r.2.mem ((c.tc : Thread nD τ).loc main_v54) = W7 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v54 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.GenP

end
-- ==== Proof.LibColumns.lean ====
/-
  One column of a two-column array, laid out as a column or as a row.

  Column `k` of an `[n, 2]` array is cut out as `[n, 1]`, flattened to `[n]` and then viewed either as a column `[n, 1]`
  again or as a row `[1, n]`. Read at an index, each of these is the source at `(p, k)`.
-/
import Idealize.ShloMosaic.Lib.ValueIdx
import Idealize.ShloMosaic.Lib.Pipeline.Value
import Idealize.ShloMosaic.Lib.ValueLayout

noncomputable section

namespace Cert.LibColumns

open Idealize.ShloMosaic Idealize.ShloMosaic.ValueIdx

variable {α : Type}

/-- An `[a]` vector cast to a column `[a, 1]` reads, at `(p, u)`, the vector at `p`. -/
theorem vec_as_column_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` flattened to `[a]` reads, at `p`, the column's entry of row `p`. -/
theorem column_as_vec_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- Column `k` of `X`, cut, flattened and viewed as a column: entry `(p, u)` is `X (p, k)`. -/
theorem col_as_column_apply {n : ℕ} (o : Nat) (X : (⟨2, ![n, 2]⟩ : Shape).Idx → α)
    (hs : (⟨2, ![n, 2]⟩ : Shape).Slices ![0, o] ⟨2, ![n, 1]⟩)
    (h1 : (⟨2, ![n, 1]⟩ : Shape).ShapeCasts ⟨1, ![n]⟩) (h2 : (⟨1, ![n]⟩ : Shape).ShapeCasts ⟨2, ![n, 1]⟩)
    (p : Fin n) (u : Fin 1) (k : Fin 2) (hk : k.val = o) :
    shapeCast ⟨2, ![n, 1]⟩ (shapeCast ⟨1, ![n]⟩ (extractStridedSlice ⟨2, ![n, 1]⟩ ![0, o] X hs) h1) h2 (ix2 p u)
      = X (ix2 p k) := by
  rw [vec_as_column_apply, column_as_vec_apply]
  exact slice2_axis1_apply o X hs p (0 : Fin 1) k (by rw [hk]; rfl)

/-- Column `k` of `X`, cut, flattened and viewed as a row: entry `(u, p)` is `X (p, k)`. -/
theorem col_as_row_apply {n : ℕ} (o : Nat) (X : (⟨2, ![n, 2]⟩ : Shape).Idx → α)
    (hs : (⟨2, ![n, 2]⟩ : Shape).Slices ![0, o] ⟨2, ![n, 1]⟩)
    (h1 : (⟨2, ![n, 1]⟩ : Shape).ShapeCasts ⟨1, ![n]⟩) (h2 : (⟨1, ![n]⟩ : Shape).ShapeCasts ⟨2, ![1, n]⟩)
    (p : Fin n) (u : Fin 1) (k : Fin 2) (hk : k.val = o) :
    shapeCast ⟨2, ![1, n]⟩ (shapeCast ⟨1, ![n]⟩ (extractStridedSlice ⟨2, ![n, 1]⟩ ![0, o] X hs) h1) h2 (ix2 u p)
      = X (ix2 p k) := by
  rw [shapeCast_a_1a_apply, column_as_vec_apply]
  exact slice2_axis1_apply o X hs p (0 : Fin 1) k (by rw [hk]; rfl)

end Cert.LibColumns

end
-- ==== Proof.HostIn.lean ====
/-
  What each pass's input arrays hold.

  Before each of the three passes the program cuts the columns out of the two-column argument arrays, flattens them, and
  lays each out either as a column [n, 1] or as a row [1, n]; the radii are laid out the same two ways. Entry by entry,
  each such array is the argument array it was cut from: a column array at (p, u) and a row array at (u, p) both hold
  the argument's entry of row p in the column cut. The arguments themselves are never written, so what a later pass
  cuts from is still the launch memory.
-/
import proofs.«147085_j58935541236175_2_alg».proof.Proof.KernelIdealFrame
import proofs.«147085_j58935541236175_2_alg».proof.Proof.LibColumns
import Idealize.ShloMosaic.Lib.StableHlo.Run

set_option maxRecDepth 16384

noncomputable section

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.LibColumns

variable (m : (ℓ : Loc nD τ sig) → Buf (Elt Ideal) ℓ) (ρ : Dev nD → PrngReg)

/-! ## The circle–circle pass: columns and rows of the circle centres, and the radii -/

theorem in0_v4 (c : Dev nD) (p : Fin 4096) (u : Fin 1) :
    V1 m ρ c main_v4 (ix2 p u) = m ((c : Thread nD τ).loc main_arg0) (ix2 p 0) := by
  have h : V1 m ρ c main_v4 = shapeCast _ (shapeCast _ (extractStridedSlice S4096x1 ![0, 0]
      (W0 m ρ c (Proc.devRef .tc main_arg0)) slices_S4096x2_S4096x1_0_0) shapeCasts_S4096x1_S4096)
      shapeCasts_S4096_S4096x1 := by
    show StableHlo.after hostOps0 (W0 m ρ c) (Proc.devRef .tc main_v4) = _
    after_results
    rfl
  rw [h]
  exact col_as_column_apply 0 _ _ _ _ p u 0 rfl

theorem in0_v5 (c : Dev nD) (p : Fin 4096) (u : Fin 1) :
    V1 m ρ c main_v5 (ix2 p u) = m ((c : Thread nD τ).loc main_arg0) (ix2 p 1) := by
  have h : V1 m ρ c main_v5 = shapeCast _ (shapeCast _ (extractStridedSlice S4096x1 ![0, 1]
      (W0 m ρ c (Proc.devRef .tc main_arg0)) slices_S4096x2_S4096x1_0_1) shapeCasts_S4096x1_S4096)
      shapeCasts_S4096_S4096x1 := by
    show StableHlo.after hostOps0 (W0 m ρ c) (Proc.devRef .tc main_v5) = _
    after_results
    rfl
  rw [h]
  exact col_as_column_apply 1 _ _ _ _ p u 1 rfl

theorem in0_v6 (c : Dev nD) (p : Fin 4096) (u : Fin 1) :
    V1 m ρ c main_v6 (ix2 p u) = m ((c : Thread nD τ).loc main_arg1) (ix1 p) := by
  have h : V1 m ρ c main_v6 = shapeCast _ (W0 m ρ c (Proc.devRef .tc main_arg1)) shapeCasts_S4096_S4096x1 := by
    show StableHlo.after hostOps0 (W0 m ρ c) (Proc.devRef .tc main_v6) = _
    after_results
    rfl
  rw [h]
  exact vec_as_column_apply _ _ p u

theorem in0_v7 (c : Dev nD) (p : Fin 4096) (u : Fin 1) :
    V1 m ρ c main_v7 (ix2 u p) = m ((c : Thread nD τ).loc main_arg0) (ix2 p 0) := by
  have h : V1 m ρ c main_v7 = shapeCast _ (shapeCast _ (extractStridedSlice S4096x1 ![0, 0]
      (W0 m ρ c (Proc.devRef .tc main_arg0)) slices_S4096x2_S4096x1_0_0) shapeCasts_S4096x1_S4096)
      shapeCasts_S4096_S1x4096 := by
    show StableHlo.after hostOps0 (W0 m ρ c) (Proc.devRef .tc main_v7) = _
    after_results
    rfl
  rw [h]
  exact col_as_row_apply 0 _ _ _ _ p u 0 rfl

theorem in0_v8 (c : Dev nD) (p : Fin 4096) (u : Fin 1) :
    V1 m ρ c main_v8 (ix2 u p) = m ((c : Thread nD τ).loc main_arg0) (ix2 p 1) := by
  have h : V1 m ρ c main_v8 = shapeCast _ (shapeCast _ (extractStridedSlice S4096x1 ![0, 1]
      (W0 m ρ c (Proc.devRef .tc main_arg0)) slices_S4096x2_S4096x1_0_1) shapeCasts_S4096x1_S4096)
      shapeCasts_S4096_S1x4096 := by
    show StableHlo.after hostOps0 (W0 m ρ c) (Proc.devRef .tc main_v8) = _
    after_results
    rfl
  rw [h]
  exact col_as_row_apply 1 _ _ _ _ p u 1 rfl

theorem in0_v9 (c : Dev nD) (p : Fin 4096) (u : Fin 1) :
    V1 m ρ c main_v9 (ix2 u p) = m ((c : Thread nD τ).loc main_arg1) (ix1 p) := by
  have h : V1 m ρ c main_v9 = shapeCast _ (W0 m ρ c (Proc.devRef .tc main_arg1)) shapeCasts_S4096_S1x4096 := by
    show StableHlo.after hostOps0 (W0 m ρ c) (Proc.devRef .tc main_v9) = _
    after_results
    rfl
  rw [h]
  exact shapeCast_a_1a_apply _ _ u p

/-! ## The arguments are as launched when the second and the third pass cut from them -/

theorem W2_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W2_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W2_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W2_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W2_arg0 m ρ c

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := W2_arg1 m ρ c

theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W2_arg2 m ρ c

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := W2_arg3 m ρ c

/-! ## The box–box pass: columns and rows of the box centres and of the half-extents -/

theorem in1_v19 (c : Dev nD) (p : Fin 2048) (u : Fin 1) :
    V3 m ρ c main_v19 (ix2 p u) = m ((c : Thread nD τ).loc main_arg2) (ix2 p 0) := by
  have h : V3 m ρ c main_v19 = shapeCast _ (shapeCast _ (extractStridedSlice S2048x1 ![0, 0]
      (W2 m ρ c (Proc.devRef .tc main_arg2)) slices_S2048x2_S2048x1_0_0) shapeCasts_S2048x1_S2048)
      shapeCasts_S2048_S2048x1 := by
    show StableHlo.after hostOps1 (W2 m ρ c) (Proc.devRef .tc main_v19) = _
    after_results
    rfl
  rw [h, W2_arg2]
  exact col_as_column_apply 0 _ _ _ _ p u 0 rfl

theorem in1_v20 (c : Dev nD) (p : Fin 2048) (u : Fin 1) :
    V3 m ρ c main_v20 (ix2 p u) = m ((c : Thread nD τ).loc main_arg2) (ix2 p 1) := by
  have h : V3 m ρ c main_v20 = shapeCast _ (shapeCast _ (extractStridedSlice S2048x1 ![0, 1]
      (W2 m ρ c (Proc.devRef .tc main_arg2)) slices_S2048x2_S2048x1_0_1) shapeCasts_S2048x1_S2048)
      shapeCasts_S2048_S2048x1 := by
    show StableHlo.after hostOps1 (W2 m ρ c) (Proc.devRef .tc main_v20) = _
    after_results
    rfl
  rw [h, W2_arg2]
  exact col_as_column_apply 1 _ _ _ _ p u 1 rfl

theorem in1_v21 (c : Dev nD) (p : Fin 2048) (u : Fin 1) :
    V3 m ρ c main_v21 (ix2 p u) = m ((c : Thread nD τ).loc main_arg3) (ix2 p 0) := by
  have h : V3 m ρ c main_v21 = shapeCast _ (shapeCast _ (extractStridedSlice S2048x1 ![0, 0]
      (W2 m ρ c (Proc.devRef .tc main_arg3)) slices_S2048x2_S2048x1_0_0) shapeCasts_S2048x1_S2048)
      shapeCasts_S2048_S2048x1 := by
    show StableHlo.after hostOps1 (W2 m ρ c) (Proc.devRef .tc main_v21) = _
    after_results
    rfl
  rw [h, W2_arg3]
  exact col_as_column_apply 0 _ _ _ _ p u 0 rfl

theorem in1_v22 (c : Dev nD) (p : Fin 2048) (u : Fin 1) :
    V3 m ρ c main_v22 (ix2 p u) = m ((c : Thread nD τ).loc main_arg3) (ix2 p 1) := by
  have h : V3 m ρ c main_v22 = shapeCast _ (shapeCast _ (extractStridedSlice S2048x1 ![0, 1]
      (W2 m ρ c (Proc.devRef .tc main_arg3)) slices_S2048x2_S2048x1_0_1) shapeCasts_S2048x1_S2048)
      shapeCasts_S2048_S2048x1 := by
    show StableHlo.after hostOps1 (W2 m ρ c) (Proc.devRef .tc main_v22) = _
    after_results
    rfl
  rw [h, W2_arg3]
  exact col_as_column_apply 1 _ _ _ _ p u 1 rfl

theorem in1_v23 (c : Dev nD) (p : Fin 2048) (u : Fin 1) :
    V3 m ρ c main_v23 (ix2 u p) = m ((c : Thread nD τ).loc main_arg2) (ix2 p 0) := by
  have h : V3 m ρ c main_v23 = shapeCast _ (shapeCast _ (extractStridedSlice S2048x1 ![0, 0]
      (W2 m ρ c (Proc.devRef .tc main_arg2)) slices_S2048x2_S2048x1_0_0) shapeCasts_S2048x1_S2048)
      shapeCasts_S2048_S1x2048 := by
    show StableHlo.after hostOps1 (W2 m ρ c) (Proc.devRef .tc main_v23) = _
    after_results
    rfl
  rw [h, W2_arg2]
  exact col_as_row_apply 0 _ _ _ _ p u 0 rfl

theorem in1_v24 (c : Dev nD) (p : Fin 2048) (u : Fin 1) :
    V3 m ρ c main_v24 (ix2 u p) = m ((c : Thread nD τ).loc main_arg2) (ix2 p 1) := by
  have h : V3 m ρ c main_v24 = shapeCast _ (shapeCast _ (extractStridedSlice S2048x1 ![0, 1]
      (W2 m ρ c (Proc.devRef .tc main_arg2)) slices_S2048x2_S2048x1_0_1) shapeCasts_S2048x1_S2048)
      shapeCasts_S2048_S1x2048 := by
    show StableHlo.after hostOps1 (W2 m ρ c) (Proc.devRef .tc main_v24) = _
    after_results
    rfl
  rw [h, W2_arg2]
  exact col_as_row_apply 1 _ _ _ _ p u 1 rfl

theorem in1_v25 (c : Dev nD) (p : Fin 2048) (u : Fin 1) :
    V3 m ρ c main_v25 (ix2 u p) = m ((c : Thread nD τ).loc main_arg3) (ix2 p 0) := by
  have h : V3 m ρ c main_v25 = shapeCast _ (shapeCast _ (extractStridedSlice S2048x1 ![0, 0]
      (W2 m ρ c (Proc.devRef .tc main_arg3)) slices_S2048x2_S2048x1_0_0) shapeCasts_S2048x1_S2048)
      shapeCasts_S2048_S1x2048 := by
    show StableHlo.after hostOps1 (W2 m ρ c) (Proc.devRef .tc main_v25) = _
    after_results
    rfl
  rw [h, W2_arg3]
  exact col_as_row_apply 0 _ _ _ _ p u 0 rfl

theorem in1_v26 (c : Dev nD) (p : Fin 2048) (u : Fin 1) :
    V3 m ρ c main_v26 (ix2 u p) = m ((c : Thread nD τ).loc main_arg3) (ix2 p 1) := by
  have h : V3 m ρ c main_v26 = shapeCast _ (shapeCast _ (extractStridedSlice S2048x1 ![0, 1]
      (W2 m ρ c (Proc.devRef .tc main_arg3)) slices_S2048x2_S2048x1_0_1) shapeCasts_S2048x1_S2048)
      shapeCasts_S2048_S1x2048 := by
    show StableHlo.after hostOps1 (W2 m ρ c) (Proc.devRef .tc main_v26) = _
    after_results
    rfl
  rw [h, W2_arg3]
  exact col_as_row_apply 1 _ _ _ _ p u 1 rfl

/-! ## The circle–box pass: columns of the circle centres and the radii, rows of the box centres and half-extents -/

theorem in2_v40 (c : Dev nD) (p : Fin 4096) (u : Fin 1) :
    V5 m ρ c main_v40 (ix2 p u) = m ((c : Thread nD τ).loc main_arg0) (ix2 p 0) := by
  have h : V5 m ρ c main_v40 = shapeCast _ (shapeCast _ (extractStridedSlice S4096x1 ![0, 0]
      (W4 m ρ c (Proc.devRef .tc main_arg0)) slices_S4096x2_S4096x1_0_0) shapeCasts_S4096x1_S4096)
      shapeCasts_S4096_S4096x1 := by
    show StableHlo.after hostOps2 (W4 m ρ c) (Proc.devRef .tc main_v40) = _
    after_results
    rfl
  rw [h, W4_arg0]
  exact col_as_column_apply 0 _ _ _ _ p u 0 rfl

theorem in2_v41 (c : Dev nD) (p : Fin 4096) (u : Fin 1) :
    V5 m ρ c main_v41 (ix2 p u) = m ((c : Thread nD τ).loc main_arg0) (ix2 p 1) := by
  have h : V5 m ρ c main_v41 = shapeCast _ (shapeCast _ (extractStridedSlice S4096x1 ![0, 1]
      (W4 m ρ c (Proc.devRef .tc main_arg0)) slices_S4096x2_S4096x1_0_1) shapeCasts_S4096x1_S4096)
      shapeCasts_S4096_S4096x1 := by
    show StableHlo.after hostOps2 (W4 m ρ c) (Proc.devRef .tc main_v41) = _
    after_results
    rfl
  rw [h, W4_arg0]
  exact col_as_column_apply 1 _ _ _ _ p u 1 rfl

theorem in2_v42 (c : Dev nD) (p : Fin 4096) (u : Fin 1) :
    V5 m ρ c main_v42 (ix2 p u) = m ((c : Thread nD τ).loc main_arg1) (ix1 p) := by
  have h : V5 m ρ c main_v42 = shapeCast _ (W4 m ρ c (Proc.devRef .tc main_arg1)) shapeCasts_S4096_S4096x1 := by
    show StableHlo.after hostOps2 (W4 m ρ c) (Proc.devRef .tc main_v42) = _
    after_results
    rfl
  rw [h, W4_arg1]
  exact vec_as_column_apply _ _ p u

theorem in2_v43 (c : Dev nD) (p : Fin 2048) (u : Fin 1) :
    V5 m ρ c main_v43 (ix2 u p) = m ((c : Thread nD τ).loc main_arg2) (ix2 p 0) := by
  have h : V5 m ρ c main_v43 = shapeCast _ (shapeCast _ (extractStridedSlice S2048x1 ![0, 0]
      (W4 m ρ c (Proc.devRef .tc main_arg2)) slices_S2048x2_S2048x1_0_0) shapeCasts_S2048x1_S2048)
      shapeCasts_S2048_S1x2048 := by
    show StableHlo.after hostOps2 (W4 m ρ c) (Proc.devRef .tc main_v43) = _
    after_results
    rfl
  rw [h, W4_arg2]
  exact col_as_row_apply 0 _ _ _ _ p u 0 rfl

theorem in2_v44 (c : Dev nD) (p : Fin 2048) (u : Fin 1) :
    V5 m ρ c main_v44 (ix2 u p) = m ((c : Thread nD τ).loc main_arg2) (ix2 p 1) := by
  have h : V5 m ρ c main_v44 = shapeCast _ (shapeCast _ (extractStridedSlice S2048x1 ![0, 1]
      (W4 m ρ c (Proc.devRef .tc main_arg2)) slices_S2048x2_S2048x1_0_1) shapeCasts_S2048x1_S2048)
      shapeCasts_S2048_S1x2048 := by
    show StableHlo.after hostOps2 (W4 m ρ c) (Proc.devRef .tc main_v44) = _
    after_results
    rfl
  rw [h, W4_arg2]
  exact col_as_row_apply 1 _ _ _ _ p u 1 rfl

theorem in2_v45 (c : Dev nD) (p : Fin 2048) (u : Fin 1) :
    V5 m ρ c main_v45 (ix2 u p) = m ((c : Thread nD τ).loc main_arg3) (ix2 p 0) := by
  have h : V5 m ρ c main_v45 = shapeCast _ (shapeCast _ (extractStridedSlice S2048x1 ![0, 0]
      (W4 m ρ c (Proc.devRef .tc main_arg3)) slices_S2048x2_S2048x1_0_0) shapeCasts_S2048x1_S2048)
      shapeCasts_S2048_S1x2048 := by
    show StableHlo.after hostOps2 (W4 m ρ c) (Proc.devRef .tc main_v45) = _
    after_results
    rfl
  rw [h, W4_arg3]
  exact col_as_row_apply 0 _ _ _ _ p u 0 rfl

theorem in2_v46 (c : Dev nD) (p : Fin 2048) (u : Fin 1) :
    V5 m ρ c main_v46 (ix2 u p) = m ((c : Thread nD τ).loc main_arg3) (ix2 p 1) := by
  have h : V5 m ρ c main_v46 = shapeCast _ (shapeCast _ (extractStridedSlice S2048x1 ![0, 1]
      (W4 m ρ c (Proc.devRef .tc main_arg3)) slices_S2048x2_S2048x1_0_1) shapeCasts_S2048x1_S2048)
      shapeCasts_S2048_S1x2048 := by
    show StableHlo.after hostOps2 (W4 m ρ c) (Proc.devRef .tc main_v46) = _
    after_results
    rfl
  rw [h, W4_arg3]
  exact col_as_row_apply 1 _ _ _ _ p u 1 rfl

end Cert.KernelIdeal.GenP

end
-- ==== Proof.Spec.lean ====
/-
  The pairwise collision step, written once as mathematics on the extended reals.

  Four arrays are given: circle centres `cp : [4096, 2]`, circle radii `cr : [4096]`, box centres `ap : [2048, 2]` and box
  half-extents `ah : [2048, 2]`. Every body receives the sum of the pushes from every other body:
    * circle i against circle a (a ≠ i): with d = cp i − cp a and d² = dx² + dy², when d² > ε and the penetration
      pen = r_i + r_a − |d| is positive, the push on i is ½ · pen · d / |d|;
    * box i against box a (a ≠ i): with overlaps ov = h_i + h_a − |p_i − p_a| per axis, both positive, the push is
      along the axis of the smaller overlap, ½ · ov · sign(p_i − p_a) there and 0 on the other axis;
    * circle i against box a: with f = rel − clamp(rel, −h_a, h_a), rel = cp i − ap a, when |f|² > ε and r_i − |f| > 0 the
      circle is pushed by ½ · (r_i − |f|) · f / |f| and the box by the opposite.
  The result stacks the 4096 moved circle centres over the 2048 moved box centres.

  The same quantity is written in two arrangements. The first takes 1/|d| as one reciprocal square root `rsq` and forms
  |d| = d² · rsq(d²), multiplies the scalar factor ½ · pen · rsq into each component afterwards, writes −x as 0 − x, and
  sums the box side of the circle–box pushes in two levels, 32 groups of 128 circles, negating each group. The second
  takes |d| = √d², divides each component by it, starts every sum from an explicit 0 and negates the whole box-side
  sum once. `GK` is the first arrangement and `GR` the second; that they agree on finite inputs is proved elsewhere.
-/
import Idealize.ShloMosaic.PureOps.Ideal
import Idealize.ShloMosaic.Lib.ValueIdx

noncomputable section

open scoped BigOperators

namespace Cert.Collide

open Idealize.ShloMosaic Idealize.ShloMosaic.ValueIdx

/-! ## The constants and the scalar operations, as the extended reals read them -/

/-- ε, the threshold under which a squared distance counts as zero. -/
abbrev eps : EReal := Ideal.ofBits .f32 0x3089705F#32
abbrev one : EReal := Ideal.ofBits .f32 0x3F800000#32
abbrev half : EReal := Ideal.ofBits .f32 0x3F000000#32
abbrev zero : EReal := Ideal.ofBits .f32 0x00000000#32
abbrev mone : EReal := Ideal.ofBits .f32 0xBF800000#32

/-- `a > b`, `a ≥ b`, `a ≤ b` as one bit. -/
abbrev gt (a b : EReal) : BitVec 1 := FloatOps.cmpf (F := Ideal) (φ := .f32) .ogt a b
abbrev ge (a b : EReal) : BitVec 1 := FloatOps.cmpf (F := Ideal) (φ := .f32) .oge a b
abbrev le (a b : EReal) : BitVec 1 := FloatOps.cmpf (F := Ideal) (φ := .f32) .ole a b
/-- The reciprocal square root, the square root and the quotient. -/
abbrev rsq (a : EReal) : EReal := FloatOps.rsqrt (F := Ideal) (φ := .f32) a
abbrev sqr (a : EReal) : EReal := FloatOps.hostUnary (F := Ideal) (φ := .f32) .sqrt a
abbrev quo (a b : EReal) : EReal := FloatOps.hostDivf (F := Ideal) (φ := .f32) a b

/-- The bit "row `r` is not column `a`": a body does not collide with itself. -/
def offDiag (r a : Nat) : BitVec 1 := if r = a then 0#1 else 1#1

/-! ## One pair -/

/-- Circle against circle, first arrangement: the scalar factor of the push, from the centre difference `(dx, dy)`,
    the radii's sum `rr` and the off-diagonal bit; the push's component `k` is this factor times `d_k`. -/
def ccK (dg : BitVec 1) (dx dy rr : EReal) : EReal :=
  Scalar.select
    (IntOp.andi (IntOp.andi dg (gt (dx * dx + dy * dy) eps))
      (gt (rr - (dx * dx + dy * dy) * rsq (Scalar.select (gt (dx * dx + dy * dy) eps) (dx * dx + dy * dy) one)) zero))
    (half * (rr - (dx * dx + dy * dy) * rsq (Scalar.select (gt (dx * dx + dy * dy) eps) (dx * dx + dy * dy) one))
      * rsq (Scalar.select (gt (dx * dx + dy * dy) eps) (dx * dx + dy * dy) one))
    zero

/-- Circle against circle, second arrangement: the push's component with difference `dk`, the squared distance `d2`
    given (it is `0 + (dx² + dy²)` there). -/
def ccR (dg : BitVec 1) (d2 rr dk : EReal) : EReal :=
  Scalar.select
    (IntOp.andi (IntOp.andi dg (gt d2 eps)) (gt (rr - sqr (Scalar.select (gt d2 eps) d2 one)) zero))
    (half * (rr - sqr (Scalar.select (gt d2 eps) d2 one)) * quo dk (sqr (Scalar.select (gt d2 eps) d2 one)))
    zero

/-- Box against box: the push's component `k` from the centre difference `(dx, dy)` and the half-extents' sums
    `(hx, hy)`; the two arrangements compute it alike. -/
def aaT (dg : BitVec 1) (dx dy hx hy : EReal) (k : Fin 2) : EReal :=
  Scalar.select
    (IntOp.andi (IntOp.andi dg (gt (hx - max dx (-dx)) zero)) (gt (hy - max dy (-dy)) zero))
    (if k = 0
      then Scalar.select (le (hx - max dx (-dx)) (hy - max dy (-dy)))
            (half * (hx - max dx (-dx)) * Scalar.select (ge dx zero) one mone) zero
      else Scalar.select (le (hx - max dx (-dx)) (hy - max dy (-dy)))
            zero (half * (hy - max dy (-dy)) * Scalar.select (ge dy zero) one mone))
    zero

/-- Circle against box: the offset from the closest point of the box on one axis, with the lower clamp written
    `0 − h` (first arrangement) … -/
def offK (r h : EReal) : EReal := r - min h (max (zero - h) r)
/-- … and written `−h` (second arrangement). -/
def offR (r h : EReal) : EReal := r - min h (max (-h) r)

/-- Circle against box, first arrangement: the scalar factor from the offsets `(fx, fy)` and the circle's radius. -/
def caK (fx fy rc : EReal) : EReal :=
  Scalar.select
    (IntOp.andi (gt (fx * fx + fy * fy) eps)
      (gt (rc - (fx * fx + fy * fy) * rsq (Scalar.select (gt (fx * fx + fy * fy) eps) (fx * fx + fy * fy) one)) zero))
    (half * (rc - (fx * fx + fy * fy) * rsq (Scalar.select (gt (fx * fx + fy * fy) eps) (fx * fx + fy * fy) one))
      * rsq (Scalar.select (gt (fx * fx + fy * fy) eps) (fx * fx + fy * fy) one))
    zero

/-- Circle against box, second arrangement: the push's component with offset `fk`, the squared length `d2` given. -/
def caR (d2 rc fk : EReal) : EReal :=
  Scalar.select
    (IntOp.andi (gt d2 eps) (gt (rc - sqr (Scalar.select (gt d2 eps) d2 one)) zero))
    (half * (rc - sqr (Scalar.select (gt d2 eps) d2 one)) * quo fk (sqr (Scalar.select (gt d2 eps) d2 one)))
    zero

/-! ## The sums over the other bodies -/

section Arrays

variable (cp : (⟨2, ![4096, 2]⟩ : Shape).Idx → EReal) (cr : (⟨1, ![4096]⟩ : Shape).Idx → EReal)
  (ap ah : (⟨2, ![2048, 2]⟩ : Shape).Idx → EReal)

/-- Circle `i`'s centre minus circle `a`'s, component `k`. -/
def cdel (i a : Fin 4096) (k : Fin 2) : EReal := cp (ix2 i k) - cp (ix2 a k)
/-- Box `i`'s centre minus box `a`'s. -/
def adel (i a : Fin 2048) (k : Fin 2) : EReal := ap (ix2 i k) - ap (ix2 a k)
/-- The two boxes' half-extents added. -/
def ahsum (i a : Fin 2048) (k : Fin 2) : EReal := ah (ix2 i k) + ah (ix2 a k)
/-- Circle `i`'s centre minus box `a`'s. -/
def rel (i : Fin 4096) (a : Fin 2048) (k : Fin 2) : EReal := cp (ix2 i k) - ap (ix2 a k)

/-- The pushes on circle `i` from the other circles, first arrangement. -/
def ccSumK (i : Fin 4096) (k : Fin 2) : EReal :=
  ∑ a : Fin 4096, ccK (offDiag i.val a.val) (cdel cp i a 0) (cdel cp i a 1) (cr (ix1 i) + cr (ix1 a)) * cdel cp i a k
/-- … second arrangement. -/
def ccSumR (i : Fin 4096) (k : Fin 2) : EReal :=
  zero + ∑ a : Fin 4096, ccR (offDiag i.val a.val) (zero + (cdel cp i a 0 * cdel cp i a 0 + cdel cp i a 1 * cdel cp i a 1))
    (cr (ix1 i) + cr (ix1 a)) (cdel cp i a k)

/-- The pushes on box `i` from the other boxes, first arrangement. -/
def aaSumK (i : Fin 2048) (k : Fin 2) : EReal :=
  ∑ a : Fin 2048, aaT (offDiag i.val a.val) (adel ap i a 0) (adel ap i a 1) (ahsum ah i a 0) (ahsum ah i a 1) k
/-- … second arrangement. -/
def aaSumR (i : Fin 2048) (k : Fin 2) : EReal :=
  zero + ∑ a : Fin 2048, aaT (offDiag i.val a.val) (adel ap i a 0) (adel ap i a 1) (ahsum ah i a 0) (ahsum ah i a 1) k

/-- The push on circle `i` from box `a`, component `k`, first arrangement. -/
def caPushK (i : Fin 4096) (a : Fin 2048) (k : Fin 2) : EReal :=
  caK (offK (rel cp ap i a 0) (ah (ix2 a 0))) (offK (rel cp ap i a 1) (ah (ix2 a 1))) (cr (ix1 i))
    * offK (rel cp ap i a k) (ah (ix2 a k))
/-- … second arrangement. -/
def caPushR (i : Fin 4096) (a : Fin 2048) (k : Fin 2) : EReal :=
  caR (zero + (offR (rel cp ap i a 0) (ah (ix2 a 0)) * offR (rel cp ap i a 0) (ah (ix2 a 0))
      + offR (rel cp ap i a 1) (ah (ix2 a 1)) * offR (rel cp ap i a 1) (ah (ix2 a 1))))
    (cr (ix1 i)) (offR (rel cp ap i a k) (ah (ix2 a k)))

/-- The pushes on circle `i` from the boxes. -/
def caCircK (i : Fin 4096) (k : Fin 2) : EReal := ∑ a : Fin 2048, caPushK cp cr ap ah i a k
def caCircR (i : Fin 4096) (k : Fin 2) : EReal := zero + ∑ a : Fin 2048, caPushR cp cr ap ah i a k

/-- Circle number `r` of group `t`: 32 groups of 128. -/
def circOf (t : Fin 32) (r : Fin 128) : Fin 4096 := ⟨128 * t.val + r.val, by omega⟩

/-- The opposite pushes on box `a` from the circles: first arrangement, group by group, each group's sum negated as
    `0 − ·`, the groups added from 0 … -/
def caBoxK (a : Fin 2048) (k : Fin 2) : EReal :=
  zero + ∑ t : Fin 32, (zero - ∑ r : Fin 128, caPushK cp cr ap ah (circOf t r) a k)
/-- … second arrangement, one sum from 0, negated. -/
def caBoxR (a : Fin 2048) (k : Fin 2) : EReal := -(zero + ∑ i : Fin 4096, caPushR cp cr ap ah i a k)

/-! ## The result: the moved circles over the moved boxes -/

def circleK (i : Fin 4096) (k : Fin 2) : EReal := cp (ix2 i k) + ccSumK cp cr i k + caCircK cp cr ap ah i k
def circleR (i : Fin 4096) (k : Fin 2) : EReal := cp (ix2 i k) + ccSumR cp cr i k + caCircR cp cr ap ah i k
def boxK (i : Fin 2048) (k : Fin 2) : EReal := ap (ix2 i k) + aaSumK ap ah i k + caBoxK cp cr ap ah i k
def boxR (i : Fin 2048) (k : Fin 2) : EReal := ap (ix2 i k) + aaSumR ap ah i k + caBoxR cp cr ap ah i k

/-- Row `j` of the stacked result is circle `j` below 4096 and box `j − 4096` from there on. -/
def GK (j : (⟨2, ![6144, 2]⟩ : Shape).Idx) : EReal :=
  if h : (j 0).val < 4096 then circleK cp cr ap ah ⟨(j 0).val, h⟩ (j 1)
  else boxK cp cr ap ah ⟨(j 0).val - 4096, by have := idx2_lt0 j; omega⟩ (j 1)
def GR (j : (⟨2, ![6144, 2]⟩ : Shape).Idx) : EReal :=
  if h : (j 0).val < 4096 then circleR cp cr ap ah ⟨(j 0).val, h⟩ (j 1)
  else boxR cp cr ap ah ⟨(j 0).val - 4096, by have := idx2_lt0 j; omega⟩ (j 1)

end Arrays

end Cert.Collide

end
-- ==== Proof.HostOut.lean ====
/-
  The closing stretch: the result array, entry by entry.

  After the three passes the program adds, for the circles, the argument centres, the circle–circle pass's result and
  the circle–box pass's first result; for the boxes, the argument centres, the box–box pass's result and the
  circle–box pass's second result summed over its 32 groups (from 0) and transposed; and stacks the 4096 circle rows
  over the 2048 box rows. No pass and no host operation writes an argument, and no later stretch writes an earlier
  pass's result, so the operands of these additions are the launch memory and what each pass left.
-/
import proofs.«147085_j58935541236175_2_alg».proof.Proof.HostIn
import proofs.«147085_j58935541236175_2_alg».proof.Proof.Spec
import Idealize.ShloMosaic.Lib.Pipeline.Value
import Idealize.ShloMosaic.PureOps.Ideal.Laws

set_option maxRecDepth 16384

noncomputable section

open scoped BigOperators

namespace Cert.KernelIdeal.GenP

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.StableHlo Idealize.ShloMosaic.ValueIdx
open Cert.LibColumns

variable (m : (ℓ : Loc nD τ sig) → Buf (Elt Ideal) ℓ) (ρ : Dev nD → PrngReg)

/-! ## What the closing stretch starts from -/

theorem W6_arg0 (c : Dev nD) : W6 m ρ c (Proc.devRef .tc main_arg0) = m ((c : Thread nD τ).loc main_arg0) :=
  calc W6 m ρ c (Proc.devRef .tc main_arg0)
    _ = W5 m ρ c (Proc.devRef .tc main_arg0) := W6_of_ne m ρ c main_arg0 (by decide)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := W4_arg0 m ρ c

theorem W6_arg2 (c : Dev nD) : W6 m ρ c (Proc.devRef .tc main_arg2) = m ((c : Thread nD τ).loc main_arg2) :=
  calc W6 m ρ c (Proc.devRef .tc main_arg2)
    _ = W5 m ρ c (Proc.devRef .tc main_arg2) := W6_of_ne m ρ c main_arg2 (by decide)
    _ = W4 m ρ c (Proc.devRef .tc main_arg2) := StableHlo.after_of_forall_not_mem (b := Proc.devRef .tc main_arg2) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := W4_arg2 m ρ c

/-- The two argument arrays the closing stretch adds to, and what each pass leaves in its result array. -/
abbrev outA0 (c : Dev nD) : (⟨S4096x2, .f32⟩ : BufTy).Contents (Elt Ideal) := m ((c : Thread nD τ).loc main_arg0)
abbrev outA2 (c : Dev nD) : (⟨S2048x2, .f32⟩ : BufTy).Contents (Elt Ideal) := m ((c : Thread nD τ).loc main_arg2)
abbrev outR0 (c : Dev nD) : (⟨S4096x2, .f32⟩ : BufTy).Contents (Elt Ideal) := (dat0 (V1 m ρ) c).arrAt 6 cfg0.N
abbrev outR1 (c : Dev nD) : (⟨S2048x2, .f32⟩ : BufTy).Contents (Elt Ideal) := (dat1 (V3 m ρ) c).arrAt 8 cfg1.N
abbrev outR2 (c : Dev nD) : (⟨S4096x2, .f32⟩ : BufTy).Contents (Elt Ideal) := (dat2 (V5 m ρ) c).arrAt 7 cfg2.N
abbrev outR3 (c : Dev nD) : (⟨S32x2x2048, .f32⟩ : BufTy).Contents (Elt Ideal) := (dat2 (V5 m ρ) c).arrAt 8 cfg2.N

theorem W6_v10 (c : Dev nD) : W6 m ρ c (Proc.devRef .tc main_v10) = outR0 m ρ c :=
  calc W6 m ρ c (Proc.devRef .tc main_v10)
    _ = W5 m ρ c (Proc.devRef .tc main_v10) := W6_of_ne m ρ c main_v10 (by decide)
    _ = W4 m ρ c (Proc.devRef .tc main_v10) := StableHlo.after_of_forall_not_mem (b := Proc.devRef .tc main_v10) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v10) := W4_of_ne m ρ c main_v10 (by decide)
    _ = W2 m ρ c (Proc.devRef .tc main_v10) := StableHlo.after_of_forall_not_mem (b := Proc.devRef .tc main_v10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = outR0 m ρ c := W2_arr m ρ c 6

theorem W6_v27 (c : Dev nD) : W6 m ρ c (Proc.devRef .tc main_v27) = outR1 m ρ c :=
  calc W6 m ρ c (Proc.devRef .tc main_v27)
    _ = W5 m ρ c (Proc.devRef .tc main_v27) := W6_of_ne m ρ c main_v27 (by decide)
    _ = W4 m ρ c (Proc.devRef .tc main_v27) := StableHlo.after_of_forall_not_mem (b := Proc.devRef .tc main_v27) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = outR1 m ρ c := W4_arr m ρ c 8

theorem W6_v47_0 (c : Dev nD) : W6 m ρ c (Proc.devRef .tc main_v47_0) = outR2 m ρ c := W6_arr m ρ c 7
theorem W6_v47_1 (c : Dev nD) : W6 m ρ c (Proc.devRef .tc main_v47_1) = outR3 m ρ c := W6_arr m ρ c 8

/-! ## The result array -/

/-- The moved circle centres, the group sums of the circle–box pass's second result, and the moved box centres. -/
abbrev outCirc (c : Dev nD) : ((⟨S4096x2, .f32⟩ : BufTy).Contents (Elt Ideal)) :=
  addf (F := Ideal) (φ := .f32) (addf (F := Ideal) (φ := .f32) (outA0 m c) (outR0 m ρ c)) (outR2 m ρ c)
abbrev outRed (c : Dev nD) : ((⟨S2x2048, .f32⟩ : BufTy).Contents (Elt Ideal)) :=
  Host.reduceAdd (F := Ideal) (φ := .f32) (outR3 m ρ c) (constant (F := Ideal) S_ .f32 0x00000000#32)
    reducesTo_S32x2x2048_S2x2048_d0 h_S_
abbrev outBoxes (c : Dev nD) : ((⟨S2048x2, .f32⟩ : BufTy).Contents (Elt Ideal)) :=
  addf (F := Ideal) (φ := .f32) (addf (F := Ideal) (φ := .f32) (outA2 m c) (outR1 m ρ c))
    (transpose (α := EReal) S2048x2 [1, 0] (outRed m ρ c) transposes_S2x2048_S2048x2_1_0)

/-- The closing stretch's value for the result array, over the launch memory and what the passes left. -/
theorem W7_v54 (c : Dev nD) : W7 m ρ c (Proc.devRef .tc main_v54) =
    (concatenate S6144x2 0 [⟨S4096x2, outCirc m ρ c⟩, ⟨S2048x2, outBoxes m ρ c⟩]
      concatenates_S4096x2_S2048x2_S6144x2_d0 : ((⟨S6144x2, .f32⟩ : BufTy).Contents (Elt Ideal))) := by
  have h : W7 m ρ c (Proc.devRef .tc main_v54) =
      (concatenate S6144x2 0 [⟨S4096x2, (addf (F := Ideal) (φ := .f32) (addf (F := Ideal) (φ := .f32)
            (W6 m ρ c (Proc.devRef .tc main_arg0) : ((⟨S4096x2, .f32⟩ : BufTy).Contents (Elt Ideal))) (W6 m ρ c (Proc.devRef .tc main_v10) : ((⟨S4096x2, .f32⟩ : BufTy).Contents (Elt Ideal))))
            (W6 m ρ c (Proc.devRef .tc main_v47_0) : ((⟨S4096x2, .f32⟩ : BufTy).Contents (Elt Ideal))) : ((⟨S4096x2, .f32⟩ : BufTy).Contents (Elt Ideal)))⟩,
        ⟨S2048x2, (addf (F := Ideal) (φ := .f32) (addf (F := Ideal) (φ := .f32)
            (W6 m ρ c (Proc.devRef .tc main_arg2) : ((⟨S2048x2, .f32⟩ : BufTy).Contents (Elt Ideal))) (W6 m ρ c (Proc.devRef .tc main_v27) : ((⟨S2048x2, .f32⟩ : BufTy).Contents (Elt Ideal))))
            (transpose (α := EReal) S2048x2 [1, 0] (Host.reduceAdd (F := Ideal) (φ := .f32)
              (W6 m ρ c (Proc.devRef .tc main_v47_1) : ((⟨S32x2x2048, .f32⟩ : BufTy).Contents (Elt Ideal))) (constant (F := Ideal) S_ .f32 0x00000000#32)
              reducesTo_S32x2x2048_S2x2048_d0 h_S_ : ((⟨S2x2048, .f32⟩ : BufTy).Contents (Elt Ideal))) transposes_S2x2048_S2048x2_1_0) : ((⟨S2048x2, .f32⟩ : BufTy).Contents (Elt Ideal)))⟩]
        concatenates_S4096x2_S2048x2_S6144x2_d0 : ((⟨S6144x2, .f32⟩ : BufTy).Contents (Elt Ideal))) := by
    show StableHlo.after hostOps3 (W6 m ρ c) (Proc.devRef .tc main_v54) = _
    after_results
    all_goals rfl
  rw [h, W6_arg0, W6_v10, W6_v47_0, W6_arg2, W6_v27, W6_v47_1]

/-- The sum over the 32 groups, from 0, of the circle–box pass's second result, at (k, i). -/
theorem out_red (c : Dev nD) (k : Fin 2) (i : Fin 2048) :
    outRed m ρ c (ix2 k i) = (Cert.Collide.zero + ∑ t : Fin 32, outR3 m ρ c (ix3 t k i) : EReal) := by
  unfold outRed
  generalize outR3 m ρ c = y0
  simp only [Host.reduceAdd, Ideal.hostReduceAdd_def]
  rw [Ideal.hostReduceAdd_single reducesTo_S32x2x2048_S2x2048_d0 (by decide)]
  refine congrArg (_ + ·) (Finset.sum_congr rfl fun t _ => ?_)
  exact congrArg y0 (funext fun a => Fin.ext (by match a with | ⟨0, _⟩ => rfl | ⟨1, _⟩ => rfl | ⟨2, _⟩ => rfl))

/-- Row i of the result, below 4096: the moved centre of circle i. -/
theorem out_circle (c : Dev nD) (i : Fin 4096) (k : Fin 2) :
    (W7 m ρ c (Proc.devRef .tc main_v54) : ((⟨S6144x2, .f32⟩ : BufTy).Contents (Elt Ideal))) (ix2 (⟨i.val, by have := i.isLt; omega⟩ : Fin 6144) k)
      = (outA0 m c (ix2 i k) + outR0 m ρ c (ix2 i k) + outR2 m ρ c (ix2 i k) : EReal) := by
  rw [W7_v54]
  refine (concatenate_pair_apply_left (t := S6144x2) (s₁ := S4096x2) (s₂ := S2048x2) (0 : Fin 2)
    (outCirc m ρ c) (outBoxes m ρ c)
    concatenates_S4096x2_S2048x2_S6144x2_d0 (ix2 (⟨i.val, by have := i.isLt; omega⟩ : Fin 6144) k) rfl
    (ix2 i k : S4096x2.Idx) ?_).trans ?_
  · intro b; match b with | ⟨0, _⟩ => rfl | ⟨1, _⟩ => rfl
  · rfl

/-- Row i + 4096 of the result: the moved centre of box i. -/
theorem out_box (c : Dev nD) (i : Fin 2048) (k : Fin 2) :
    (W7 m ρ c (Proc.devRef .tc main_v54) : ((⟨S6144x2, .f32⟩ : BufTy).Contents (Elt Ideal))) (ix2 (⟨i.val + 4096, by have := i.isLt; omega⟩ : Fin 6144) k)
      = (outA2 m c (ix2 i k) + outR1 m ρ c (ix2 i k)
          + (Cert.Collide.zero + ∑ t : Fin 32, outR3 m ρ c (ix3 t k i)) : EReal) := by
  rw [W7_v54]
  refine (concatenate_pair_apply_right (t := S6144x2) (s₁ := S4096x2) (s₂ := S2048x2) (0 : Fin 2)
    (outCirc m ρ c) (outBoxes m ρ c)
    concatenates_S4096x2_S2048x2_S6144x2_d0 (ix2 (⟨i.val + 4096, by have := i.isLt; omega⟩ : Fin 6144) k) rfl rfl
    (ix2 i k : S2048x2.Idx) ?_ ?_).trans ?_
  · intro b hb; match b, hb with
      | ⟨0, _⟩, hb => exact absurd rfl hb
      | ⟨1, _⟩, _ => rfl
  · rfl
  · show (outA2 m c (ix2 i k) + outR1 m ρ c (ix2 i k)
        + transpose (α := EReal) S2048x2 [1, 0] (outRed m ρ c) transposes_S2x2048_S2048x2_1_0 (ix2 i k) : EReal) = _
    rw [transpose_ix2_apply, out_red]

end Cert.KernelIdeal.GenP

end
-- ==== Proof.LibKeepdims.lean ====
/-
  Small shapes read at an index: the forms a sum that keeps its axis produces.

  A row sum of an `[a, b]` array is an `[a]` vector viewed as a column `[a, 1]`; a column is spread over `[a, b]` again by
  repeating its one entry along each row; two columns side by side make an `[a, 2]` array, two rows one over the other a
  `[2, b]` array. Each lemma reads one of these at an index written with its coordinates, so that the next lemma of a
  chain matches.
-/
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` vector cast to a column `[a, 1]` reads, at `(p, u)`, the vector at `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The sum along the rows of an `[a, b]` array of extended reals, at row `p`: the sum of that row's entries. -/
theorem rowSum_apply {a b : ℕ} (src : FVec Ideal (⟨2, ![a, b]⟩ : Shape) .f32)
    (h : Shape.Reduces (⟨2, ![a, b]⟩ : Shape) [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ c : Fin b, src (ix2 p c) := by
  refine (Ideal.multiReduction_add_single src 0x00000000#32 h hφ hacc (ix1 p)).trans ?_
  show ∑ c : Fin b, src (h.lift (ix1 p) c) = _
  refine Finset.sum_congr rfl fun c _ => congrArg src ?_
  funext d
  match d with
  | ⟨0, _⟩ => exact Fin.ext rfl
  | ⟨1, _⟩ => exact Fin.ext rfl

/-- The sum down the columns of an `[a, b]` array, at column `c`: the sum of that column's entries. -/
theorem colSum_apply {a b : ℕ} (src : FVec Ideal (⟨2, ![a, b]⟩ : Shape) .f32)
    (h : Shape.Reduces (⟨2, ![a, b]⟩ : Shape) [0] ⟨1, ![b]⟩) (hφ : FKind.Formats .f32)
    (hacc : (0x00000000#32 : BitVec 32) = 0x00000000#32) (c : Fin b) :
    multiReduction .add [0] ⟨1, ![b]⟩ src 0x00000000#32 h hφ hacc (ix1 c) = ∑ p : Fin a, src (ix2 p c) := by
  refine (Ideal.multiReduction_add_single src 0x00000000#32 h hφ hacc (ix1 c)).trans ?_
  show ∑ p : Fin a, src (h.lift (ix1 c) p) = _
  refine Finset.sum_congr rfl fun p _ => congrArg src ?_
  funext d
  match d with
  | ⟨0, _⟩ => exact Fin.ext rfl
  | ⟨1, _⟩ => exact Fin.ext rfl

/-- Two columns side by side: entry `(p, k)` of the `[a, 2]` array is column `k`'s entry of row `p`. -/
theorem concat_cols_apply {a : ℕ} (u v : (⟨2, ![a, 1]⟩ : Shape).Idx → α)
    (h : Shape.Concatenates (([⟨⟨2, ![a, 1]⟩, u⟩, ⟨⟨2, ![a, 1]⟩, v⟩] : List ((s : Shape) × (s.Idx → α))).map (·.1)) ⟨2, ![a, 2]⟩ 1)
    (p : Fin a) (k : Fin 2) :
    concatenate ⟨2, ![a, 2]⟩ 1 [⟨⟨2, ![a, 1]⟩, u⟩, ⟨⟨2, ![a, 1]⟩, v⟩] h (ix2 p k) = (![u, v] k) (ix2 p (0 : Fin 1)) := by
  refine concatenate_ofFn_unit_apply (t := ⟨2, ![a, 2]⟩) (s₁ := ⟨2, ![a, 1]⟩) 1 (N := 2) ![u, v] h rfl rfl (ix2 p k) k rfl
    (ix2 p (0 : Fin 1)) fun b hb => ?_
  match b with
  | ⟨0, _⟩ => rfl
  | ⟨1, _⟩ => exact absurd rfl hb

/-- Two rows one over the other: entry `(k, c)` of the `[2, b]` array is row `k`'s entry of column `c`. -/
theorem concat_rows_apply {b : ℕ} (u v : (⟨2, ![1, b]⟩ : Shape).Idx → α)
    (h : Shape.Concatenates (([⟨⟨2, ![1, b]⟩, u⟩, ⟨⟨2, ![1, b]⟩, v⟩] : List ((s : Shape) × (s.Idx → α))).map (·.1)) ⟨2, ![2, b]⟩ 0)
    (k : Fin 2) (c : Fin b) :
    concatenate ⟨2, ![2, b]⟩ 0 [⟨⟨2, ![1, b]⟩, u⟩, ⟨⟨2, ![1, b]⟩, v⟩] h (ix2 k c) = (![u, v] k) (ix2 (0 : Fin 1) c) := by
  refine concatenate_ofFn_unit_apply (t := ⟨2, ![2, b]⟩) (s₁ := ⟨2, ![1, b]⟩) 0 (N := 2) ![u, v] h rfl rfl (ix2 k c) k rfl
    (ix2 (0 : Fin 1) c) fun b' hb => ?_
  match b' with
  | ⟨0, _⟩ => exact absurd rfl hb
  | ⟨1, _⟩ => rfl

/-- The same, with the column chosen by a test on `k`. -/
theorem concat_cols_ite_apply {a : ℕ} (u v : (⟨2, ![a, 1]⟩ : Shape).Idx → α)
    (h : Shape.Concatenates (([⟨⟨2, ![a, 1]⟩, u⟩, ⟨⟨2, ![a, 1]⟩, v⟩] : List ((s : Shape) × (s.Idx → α))).map (·.1)) ⟨2, ![a, 2]⟩ 1)
    (p : Fin a) (k : Fin 2) :
    concatenate ⟨2, ![a, 2]⟩ 1 [⟨⟨2, ![a, 1]⟩, u⟩, ⟨⟨2, ![a, 1]⟩, v⟩] h (ix2 p k)
      = if k.val = 0 then u (ix2 p (0 : Fin 1)) else v (ix2 p (0 : Fin 1)) := by
  rw [concat_cols_apply u v h p k]
  fin_cases k <;> simp

/-- The same for two rows. -/
theorem concat_rows_ite_apply {b : ℕ} (u v : (⟨2, ![1, b]⟩ : Shape).Idx → α)
    (h : Shape.Concatenates (([⟨⟨2, ![1, b]⟩, u⟩, ⟨⟨2, ![1, b]⟩, v⟩] : List ((s : Shape) × (s.Idx → α))).map (·.1)) ⟨2, ![2, b]⟩ 0)
    (k : Fin 2) (c : Fin b) :
    concatenate ⟨2, ![2, b]⟩ 0 [⟨⟨2, ![1, b]⟩, u⟩, ⟨⟨2, ![1, b]⟩, v⟩] h (ix2 k c)
      = if k.val = 0 then u (ix2 (0 : Fin 1) c) else v (ix2 (0 : Fin 1) c) := by
  rw [concat_rows_apply u v h k c]
  fin_cases k <;> simp

end Cert.LibKeepdims

end
-- ==== Proof.PayCC.lean ====
/-
  The circle–circle pass at one grid point, read entry by entry.

  The pass handles 128 circles at a time (rows `p` of the block, circle number 128 · g + p at grid point g) against all
  4096 circles (columns `a`). Its three column blocks hold the 128 circles' x, y and radius, its three row blocks all
  circles' x, y and radius. Entry (p, k) of what it stores is the sum over a of the pair's scalar factor times the
  k-th component of the centre difference.
-/
import proofs.«147085_j58935541236175_2_alg».proof.Proof.Gen.KernelIdeal.Skeleton
import proofs.«147085_j58935541236175_2_alg».proof.Proof.Spec
import proofs.«147085_j58935541236175_2_alg».proof.Proof.LibKeepdims
import Idealize.ShloMosaic.Lib.Affine

set_option maxRecDepth 16384

noncomputable section

open scoped BigOperators

namespace Cert.PayCC

open Cert.KernelIdeal Cert.KernelIdeal.Gen Cert.Collide Cert.LibKeepdims
open Idealize.ShloMosaic Idealize.ShloMosaic.ValueIdx

variable (x0 x1 x2 : Vec Ideal S128x1 .f32) (x3 x4 x5 : Vec Ideal S1x4096 .f32) (p : Fin 128) (a : Fin 4096)

/-- The row number 128 · g + p of an entry is not the column number a: the same bit as `offDiag`. -/
theorem offDiag_word (g p a : Nat) (hg : g < 32) (hp : p < 128) (ha : a < 4096) :
    IntOp.cmpi .ne (IntOp.addi (IntOp.muli (BitVec.ofNat 32 g) 128#32) (BitVec.ofNat 32 p)) (BitVec.ofNat 32 a)
      = offDiag (128 * g + p) a := by
  have e : IntOp.addi (IntOp.muli (BitVec.ofNat 32 g) 128#32) (BitVec.ofNat 32 p) = BitVec.ofNat 32 (128 * g + p) := by
    apply BitVec.eq_of_toNat_eq
    simp only [IntOp.addi, IntOp.muli, BitVec.toNat_add, BitVec.toNat_mul, BitVec.toNat_ofNat]
    omega
  rw [e]
  unfold offDiag
  by_cases h : 128 * g + p = a
  · rw [if_pos h, h]
    exact eq_zero_of_ne_one (fun h1 => (IntOp.cmpi_ne.mp h1) rfl)
  · rw [if_neg h]
    refine IntOp.cmpi_ne.mpr fun he => h ?_
    have := congrArg BitVec.toNat he
    simp only [BitVec.toNat_ofNat] at this
    omega

/-- The x difference of the pair (p, a). -/
theorem dx_at : k0_pay2 x0 x3 (ix2 p a) = x0 (ix2 p 0) - x3 (ix2 0 a) := by
  show broadcastTo S128x4096 (shapeCast S128x1 x0 shapeCasts_S128x1_S128x1) broadcasts_S128x1_S128x4096 (ix2 p a)
      - broadcastTo S128x4096 (shapeCast S1x4096 x3 shapeCasts_S1x4096_S1x4096) broadcasts_S1x4096_S128x4096 (ix2 p a) = _
  rw [broadcastTo_a1_ab_apply, broadcastTo_1b_ab_apply, shapeCast_self, shapeCast_self]

/-- The y difference. -/
theorem dy_at : k0_pay3 x1 x4 (ix2 p a) = x1 (ix2 p 0) - x4 (ix2 0 a) := by
  show broadcastTo S128x4096 (shapeCast S128x1 x1 shapeCasts_S128x1_S128x1) broadcasts_S128x1_S128x4096 (ix2 p a)
      - broadcastTo S128x4096 (shapeCast S1x4096 x4 shapeCasts_S1x4096_S1x4096) broadcasts_S1x4096_S128x4096 (ix2 p a) = _
  rw [broadcastTo_a1_ab_apply, broadcastTo_1b_ab_apply, shapeCast_self, shapeCast_self]

/-- The squared distance. -/
theorem d2_at : k0_pay4 x0 x1 x3 x4 (ix2 p a)
    = (x0 (ix2 p 0) - x3 (ix2 0 a)) * (x0 (ix2 p 0) - x3 (ix2 0 a)) + (x1 (ix2 p 0) - x4 (ix2 0 a)) * (x1 (ix2 p 0) - x4 (ix2 0 a)) := by
  show k0_pay2 x0 x3 (ix2 p a) * k0_pay2 x0 x3 (ix2 p a) + k0_pay3 x1 x4 (ix2 p a) * k0_pay3 x1 x4 (ix2 p a) = _
  rw [dx_at, dy_at]

/-- The reciprocal distance, taken of 1 where the squared distance is not above ε. -/
theorem inv_at : k0_pay5 x0 x1 x3 x4 (ix2 p a)
    = rsq (Scalar.select (gt (k0_pay4 x0 x1 x3 x4 (ix2 p a)) eps) (k0_pay4 x0 x1 x3 x4 (ix2 p a)) one) := rfl

/-- The penetration: the radii's sum minus the distance. -/
theorem pen_at : k0_pay6 x0 x1 x2 x3 x4 x5 (ix2 p a)
    = (x2 (ix2 p 0) + x5 (ix2 0 a)) - k0_pay4 x0 x1 x3 x4 (ix2 p a) * k0_pay5 x0 x1 x3 x4 (ix2 p a) := by
  show (broadcastTo S128x4096 (shapeCast S128x1 x2 shapeCasts_S128x1_S128x1) broadcasts_S128x1_S128x4096 (ix2 p a)
      + broadcastTo S128x4096 (shapeCast S1x4096 x5 shapeCasts_S1x4096_S1x4096) broadcasts_S1x4096_S128x4096 (ix2 p a))
      - k0_pay4 x0 x1 x3 x4 (ix2 p a) * k0_pay5 x0 x1 x3 x4 (ix2 p a) = _
  rw [broadcastTo_a1_ab_apply, broadcastTo_1b_ab_apply, shapeCast_self, shapeCast_self]

/-- The bit "another circle, and farther than ε". -/
theorem far_at (i : grid0.Coords) (hi : (i 0).val < 32) : k0_pay7 i x0 x1 x3 x4 (ix2 p a)
    = IntOp.andi (offDiag (128 * (i 0).val + p.val) a.val) (gt (k0_pay4 x0 x1 x3 x4 (ix2 p a)) eps) := by
  show IntOp.andi (IntOp.cmpi .ne
        (broadcastTo S128x4096 (addi (broadcast S128x1 (Scalar.muli (BitVec.ofNat 32 (i 0).val) 128#32)) (iota .tc S128x1 32 [0] iota_S128x1_d0_w32)) broadcasts_S128x1_S128x4096 (ix2 p a))
        (broadcastTo S128x4096 (iota .tc S1x4096 32 [1] iota_S1x4096_d1_w32) broadcasts_S1x4096_S128x4096 (ix2 p a)))
      (gt (k0_pay4 x0 x1 x3 x4 (ix2 p a)) eps) = _
  rw [broadcastTo_a1_ab_apply, broadcastTo_1b_ab_apply]
  show IntOp.andi (IntOp.cmpi .ne
        (IntOp.addi (IntOp.muli (BitVec.ofNat 32 (i 0).val) 128#32) (iota .tc S128x1 32 [0] iota_S128x1_d0_w32 (ix2 p (0 : Fin 1))))
        (iota .tc S1x4096 32 [1] iota_S1x4096_d1_w32 (ix2 (0 : Fin 1) a))) _ = _
  rw [iota_single_apply, iota_single_apply]
  show IntOp.andi (IntOp.cmpi .ne (IntOp.addi (IntOp.muli (BitVec.ofNat 32 (i 0).val) 128#32) (BitVec.ofNat 32 p.val)) (BitVec.ofNat 32 a.val)) _ = _
  rw [offDiag_word _ _ _ hi p.isLt a.isLt]

/-- The pair's scalar factor times a component `d` of the difference. -/
theorem term_at (i : grid0.Coords) (hi : (i 0).val < 32) (d : EReal) :
    Scalar.select (IntOp.andi (k0_pay7 i x0 x1 x3 x4 (ix2 p a)) (gt (k0_pay6 x0 x1 x2 x3 x4 x5 (ix2 p a)) zero))
        (half * k0_pay6 x0 x1 x2 x3 x4 x5 (ix2 p a) * k0_pay5 x0 x1 x3 x4 (ix2 p a)) zero * d
      = ccK (offDiag (128 * (i 0).val + p.val) a.val) (x0 (ix2 p 0) - x3 (ix2 0 a)) (x1 (ix2 p 0) - x4 (ix2 0 a))
          (x2 (ix2 p 0) + x5 (ix2 0 a)) * d := by
  rw [far_at x0 x1 x3 x4 p a i hi, pen_at, inv_at, d2_at]
  rfl

/-- Entry (p, k) of what the pass stores at grid point `i`: the sum over the other circles of the pair's factor times the
    k-th component of the centre difference. -/
theorem stored_at (i : grid0.Coords) (hi : (i 0).val < 32) (k : Fin 2) :
    k0_pay1 (k0_pay2 x0 x3) (k0_pay3 x1 x4) (k0_pay5 x0 x1 x3 x4) (k0_pay6 x0 x1 x2 x3 x4 x5) (k0_pay7 i x0 x1 x3 x4)
        (Scalar.ofBits .f32 0x00000000#32) (ix2 p k)
      = ∑ a : Fin 4096, ccK (offDiag (128 * (i 0).val + p.val) a.val) (x0 (ix2 p 0) - x3 (ix2 0 a)) (x1 (ix2 p 0) - x4 (ix2 0 a))
          (x2 (ix2 p 0) + x5 (ix2 0 a)) * (if k.val = 0 then x0 (ix2 p 0) - x3 (ix2 0 a) else x1 (ix2 p 0) - x4 (ix2 0 a)) := by
  unfold k0_pay1
  refine (concat_cols_ite_apply _ _ _ p k).trans ?_
  by_cases hk : k.val = 0
  · rw [if_pos hk]
    refine (shapeCast_a_a1_apply _ _ p 0).trans ?_
    refine (rowSum_apply _ _ _ _ p).trans ?_
    refine Finset.sum_congr rfl fun a _ => ?_
    rw [if_pos hk]
    refine (term_at x0 x1 x2 x3 x4 x5 p a i hi (k0_pay2 x0 x3 (ix2 p a))).trans ?_
    rw [dx_at]
  · rw [if_neg hk]
    refine (shapeCast_a_a1_apply _ _ p 0).trans ?_
    refine (rowSum_apply _ _ _ _ p).trans ?_
    refine Finset.sum_congr rfl fun a _ => ?_
    rw [if_neg hk]
    refine (term_at x0 x1 x2 x3 x4 x5 p a i hi (k0_pay3 x1 x4 (ix2 p a))).trans ?_
    rw [dy_at]

end Cert.PayCC

end
-- ==== Proof.PayAA.lean ====
/-
  The box–box pass at one grid point, read entry by entry.

  The pass handles 128 boxes at a time (rows `p`, box number 128 · g + p at grid point g) against all 2048 boxes (columns
  `a`). Its four column blocks hold the 128 boxes' centre x, centre y, half-width and half-height, its four row blocks
  the same of all boxes. Entry (p, k) of what it stores is the sum over a of the k-th component of the pair's push.
-/
import proofs.«147085_j58935541236175_2_alg».proof.Proof.Gen.KernelIdeal.Skeleton
import proofs.«147085_j58935541236175_2_alg».proof.Proof.Spec
import proofs.«147085_j58935541236175_2_alg».proof.Proof.LibKeepdims
import Idealize.ShloMosaic.Lib.Affine
import proofs.«147085_j58935541236175_2_alg».proof.Proof.PayCC

set_option maxRecDepth 16384

noncomputable section

open scoped BigOperators

namespace Cert.PayAA

open Cert.KernelIdeal Cert.KernelIdeal.Gen Cert.Collide Cert.LibKeepdims
open Idealize.ShloMosaic Idealize.ShloMosaic.ValueIdx

variable (x0 x1 x2 x3 : Vec Ideal S128x1 .f32) (x4 x5 x6 x7 : Vec Ideal S1x2048 .f32) (p : Fin 128) (a : Fin 2048)

/-- The centre difference on the x axis of the pair (p, a). -/
theorem dx_at : k1_pay2 x0 x4 (ix2 p a) = x0 (ix2 p 0) - x4 (ix2 0 a) := by
  show broadcastTo S128x2048 (shapeCast S128x1 x0 shapeCasts_S128x1_S128x1) broadcasts_S128x1_S128x2048 (ix2 p a)
      - broadcastTo S128x2048 (shapeCast S1x2048 x4 shapeCasts_S1x2048_S1x2048) broadcasts_S1x2048_S128x2048 (ix2 p a) = _
  rw [broadcastTo_a1_ab_apply, broadcastTo_1b_ab_apply, shapeCast_self, shapeCast_self]

/-- … and on the y axis. -/
theorem dy_at : k1_pay3 x1 x5 (ix2 p a) = x1 (ix2 p 0) - x5 (ix2 0 a) := by
  show broadcastTo S128x2048 (shapeCast S128x1 x1 shapeCasts_S128x1_S128x1) broadcasts_S128x1_S128x2048 (ix2 p a)
      - broadcastTo S128x2048 (shapeCast S1x2048 x5 shapeCasts_S1x2048_S1x2048) broadcasts_S1x2048_S128x2048 (ix2 p a) = _
  rw [broadcastTo_a1_ab_apply, broadcastTo_1b_ab_apply, shapeCast_self, shapeCast_self]

/-- The overlap on the x axis: the half-widths' sum minus the distance of the centres. -/
theorem ovx_at : k1_pay4 x0 x2 x4 x6 (ix2 p a)
    = (x2 (ix2 p 0) + x6 (ix2 0 a)) - max (x0 (ix2 p 0) - x4 (ix2 0 a)) (-(x0 (ix2 p 0) - x4 (ix2 0 a))) := by
  show (broadcastTo S128x2048 (shapeCast S128x1 x2 shapeCasts_S128x1_S128x1) broadcasts_S128x1_S128x2048 (ix2 p a)
      + broadcastTo S128x2048 (shapeCast S1x2048 x6 shapeCasts_S1x2048_S1x2048) broadcasts_S1x2048_S128x2048 (ix2 p a))
      - max (k1_pay2 x0 x4 (ix2 p a)) (-(k1_pay2 x0 x4 (ix2 p a))) = _
  rw [broadcastTo_a1_ab_apply, broadcastTo_1b_ab_apply, shapeCast_self, shapeCast_self, dx_at]

/-- The overlap on the y axis. -/
theorem ovy_at : k1_pay5 x1 x3 x5 x7 (ix2 p a)
    = (x3 (ix2 p 0) + x7 (ix2 0 a)) - max (x1 (ix2 p 0) - x5 (ix2 0 a)) (-(x1 (ix2 p 0) - x5 (ix2 0 a))) := by
  show (broadcastTo S128x2048 (shapeCast S128x1 x3 shapeCasts_S128x1_S128x1) broadcasts_S128x1_S128x2048 (ix2 p a)
      + broadcastTo S128x2048 (shapeCast S1x2048 x7 shapeCasts_S1x2048_S1x2048) broadcasts_S1x2048_S128x2048 (ix2 p a))
      - max (k1_pay3 x1 x5 (ix2 p a)) (-(k1_pay3 x1 x5 (ix2 p a))) = _
  rw [broadcastTo_a1_ab_apply, broadcastTo_1b_ab_apply, shapeCast_self, shapeCast_self, dy_at]

/-- The bit "another box". -/
theorem other_at (i : grid1.Coords) (hi : (i 0).val < 16) :
    k1_pay6 i (ix2 p a) = offDiag (128 * (i 0).val + p.val) a.val := by
  show IntOp.cmpi .ne
        (broadcastTo S128x2048 (addi (broadcast S128x1 (Scalar.muli (BitVec.ofNat 32 (i 0).val) 128#32)) (iota .tc S128x1 32 [0] iota_S128x1_d0_w32)) broadcasts_S128x1_S128x2048 (ix2 p a))
        (broadcastTo S128x2048 (iota .tc S1x2048 32 [1] iota_S1x2048_d1_w32) broadcasts_S1x2048_S128x2048 (ix2 p a)) = _
  rw [broadcastTo_a1_ab_apply, broadcastTo_1b_ab_apply]
  show IntOp.cmpi .ne
        (IntOp.addi (IntOp.muli (BitVec.ofNat 32 (i 0).val) 128#32) (iota .tc S128x1 32 [0] iota_S128x1_d0_w32 (ix2 p (0 : Fin 1))))
        (iota .tc S1x2048 32 [1] iota_S1x2048_d1_w32 (ix2 (0 : Fin 1) a)) = _
  rw [iota_single_apply, iota_single_apply]
  show IntOp.cmpi .ne (IntOp.addi (IntOp.muli (BitVec.ofNat 32 (i 0).val) 128#32) (BitVec.ofNat 32 p.val)) (BitVec.ofNat 32 a.val) = _
  rw [Cert.PayCC.offDiag_word _ _ _ (by omega) p.isLt (by have := a.isLt; omega)]

/-- The x component of the pair's push. -/
theorem pushx_at (i : grid1.Coords) (hi : (i 0).val < 16) :
    Scalar.select (IntOp.andi (IntOp.andi (k1_pay6 i (ix2 p a)) (gt (k1_pay4 x0 x2 x4 x6 (ix2 p a)) zero)) (gt (k1_pay5 x1 x3 x5 x7 (ix2 p a)) zero))
        (Scalar.select (le (k1_pay4 x0 x2 x4 x6 (ix2 p a)) (k1_pay5 x1 x3 x5 x7 (ix2 p a)))
          (half * k1_pay4 x0 x2 x4 x6 (ix2 p a) * Scalar.select (ge (k1_pay2 x0 x4 (ix2 p a)) zero) one mone) zero) zero
      = aaT (offDiag (128 * (i 0).val + p.val) a.val) (x0 (ix2 p 0) - x4 (ix2 0 a)) (x1 (ix2 p 0) - x5 (ix2 0 a))
          (x2 (ix2 p 0) + x6 (ix2 0 a)) (x3 (ix2 p 0) + x7 (ix2 0 a)) 0 := by
  rw [other_at p a i hi, ovx_at, ovy_at, dx_at]
  rfl

/-- The y component of the pair's push. -/
theorem pushy_at (i : grid1.Coords) (hi : (i 0).val < 16) :
    Scalar.select (IntOp.andi (IntOp.andi (k1_pay6 i (ix2 p a)) (gt (k1_pay4 x0 x2 x4 x6 (ix2 p a)) zero)) (gt (k1_pay5 x1 x3 x5 x7 (ix2 p a)) zero))
        (Scalar.select (le (k1_pay4 x0 x2 x4 x6 (ix2 p a)) (k1_pay5 x1 x3 x5 x7 (ix2 p a)))
          zero (half * k1_pay5 x1 x3 x5 x7 (ix2 p a) * Scalar.select (ge (k1_pay3 x1 x5 (ix2 p a)) zero) one mone)) zero
      = aaT (offDiag (128 * (i 0).val + p.val) a.val) (x0 (ix2 p 0) - x4 (ix2 0 a)) (x1 (ix2 p 0) - x5 (ix2 0 a))
          (x2 (ix2 p 0) + x6 (ix2 0 a)) (x3 (ix2 p 0) + x7 (ix2 0 a)) 1 := by
  rw [other_at p a i hi, ovx_at, ovy_at, dy_at]
  rfl

/-- Entry (p, k) of what the pass stores at grid point `i`: the sum over the other boxes of the pair's push. -/
theorem stored_at (i : grid1.Coords) (hi : (i 0).val < 16) (k : Fin 2) :
    k1_pay1 (k1_pay2 x0 x4) (k1_pay3 x1 x5) (k1_pay4 x0 x2 x4 x6) (k1_pay5 x1 x3 x5 x7) (k1_pay6 i) (k1_pay7 (F := Ideal)) (ix2 p k)
      = ∑ a : Fin 2048, aaT (offDiag (128 * (i 0).val + p.val) a.val) (x0 (ix2 p 0) - x4 (ix2 0 a)) (x1 (ix2 p 0) - x5 (ix2 0 a))
          (x2 (ix2 p 0) + x6 (ix2 0 a)) (x3 (ix2 p 0) + x7 (ix2 0 a)) k := by
  unfold k1_pay1
  refine (concat_cols_ite_apply _ _ _ p k).trans ?_
  by_cases hk : k.val = 0
  · rw [if_pos hk]
    have hk0 : k = 0 := Fin.ext hk
    subst hk0
    refine (shapeCast_a_a1_apply _ _ p 0).trans ?_
    refine (rowSum_apply _ _ _ _ p).trans ?_
    exact Finset.sum_congr rfl fun a _ => pushx_at x0 x1 x2 x3 x4 x5 x6 x7 p a i hi
  · rw [if_neg hk]
    have hk1 : k = 1 := Fin.ext (by have := k.isLt; omega)
    subst hk1
    refine (shapeCast_a_a1_apply _ _ p 0).trans ?_
    refine (rowSum_apply _ _ _ _ p).trans ?_
    exact Finset.sum_congr rfl fun a _ => pushy_at x0 x1 x2 x3 x4 x5 x6 x7 p a i hi

end Cert.PayAA

end
-- ==== Proof.ArrCC.lean ====
/-
  The circle–circle pass as a whole: the array it leaves.

  The pass runs at 32 grid points; point t handles circles 128 t … 128 t + 127 and writes their 128 rows of the result. The
  32 blocks tile the [4096, 2] result, so the array after the pass is, row by row, the sum over all circles of the pair's
  factor times the centre difference — one function of the six arrays the pass reads (the circles' x, y and radius, each
  once as a column and once as a row).
-/
import proofs.«147085_j58935541236175_2_alg».proof.Proof.KernelIdealFrame
import proofs.«147085_j58935541236175_2_alg».proof.Proof.PayCC
import proofs.«147085_j58935541236175_2_alg».proof.Proof.PayAA

set_option maxRecDepth 16384

noncomputable section

open scoped BigOperators

namespace Cert.KernelIdeal.GenP

open Cert.KernelIdeal Cert.KernelIdeal.Gen Cert.Collide
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

/-- Where each window's block sits at grid point `t`: the three column windows and the result move with the point, the
    three row windows stay; the point's one coordinate is its number, below 32. -/
theorem idx_cc : ∀ t : Fin cfg0.N, ((grid0.coords t) 0).val = t.val ∧ t.val < 32
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The result array as a function of the six arrays read: entry (r, k) sums, over every circle a, the pair's factor
    times the k-th component of circle r's centre minus circle a's. -/
def ccArr (X Y R : S4096x1.Idx → EReal) (X' Y' R' : S1x4096.Idx → EReal) (j : S4096x2.Idx) : EReal :=
  ∑ a : Fin 4096, ccK (offDiag (j 0).val a.val)
      (X (ix2 (⟨(j 0).val, idx2_lt0 j⟩ : Fin 4096) (0 : Fin 1)) - X' (ix2 (0 : Fin 1) a))
      (Y (ix2 (⟨(j 0).val, idx2_lt0 j⟩ : Fin 4096) (0 : Fin 1)) - Y' (ix2 (0 : Fin 1) a))
      (R (ix2 (⟨(j 0).val, idx2_lt0 j⟩ : Fin 4096) (0 : Fin 1)) + R' (ix2 (0 : Fin 1) a))
    * (if (j 1).val = 0 then X (ix2 (⟨(j 0).val, idx2_lt0 j⟩ : Fin 4096) (0 : Fin 1)) - X' (ix2 (0 : Fin 1) a)
        else Y (ix2 (⟨(j 0).val, idx2_lt0 j⟩ : Fin 4096) (0 : Fin 1)) - Y' (ix2 (0 : Fin 1) a))

set_option backward.isDefEq.respectTransparency.types false in
/-- What grid point `t` writes back is block `t` of that function of the arrays as the pass finds them. -/
theorem flushed_cc (c : Dev nD) (t : Fin cfg0.N) :
    (dat0 V c).flushed 6 t = ((cfg0.win 6).blk t).view.read (Elt Ideal)
      (ccArr (V c main_v4) (V c main_v5) (V c main_v6) (V c main_v7) (V c main_v8) (V c main_v9)) := by
  show (cfg0.win 6).cut (grid0.coords t) ((dat0 V c).after 6 t) = _
  rw [after0_6]
  unfold out0_6
  rw [View.canon_unit_zero hz2]
  simp only [View.ld_unit_zero (S := S128x1) hz2, View.ld_unit_zero (S := S1x4096) hz2]
  obtain ⟨e, hlt, a00, a01, a10, a11, a20, a21, a30, a31, a40, a41, a50, a51, a60, a61⟩ := idx_cc t
  funext y
  obtain ⟨p, k, rfl⟩ : ∃ (p : Fin 128) (k : Fin 2), y = (ix2 p k : S128x2.Idx) := ⟨y 0, y 1, eq_ix2 y⟩
  show k0_pay1 _ _ _ _ _ _ (ix2 p k) = _
  refine (Cert.PayCC.stored_at _ _ _ _ _ _ p (grid0.coords t) (by omega) k).trans ?_
  have hE : ((cfg0.win 6).blk t).view.emb (ix2 p k : S128x2.Idx) = (ix2 (⟨128 * t.val + p.val, by omega⟩ : Fin 4096) k : S4096x2.Idx) := by
    funext d; apply Fin.ext
    match d with
    | ⟨0, _⟩ => show win0_6.index t (0 : Fin 2) * 128 + 1 * p.val = 128 * t.val + p.val; omega
    | ⟨1, _⟩ => show win0_6.index t (1 : Fin 2) * 2 + 1 * k.val = k.val; omega
  have hB0 : iblk0 V c 0 t (ix2 p (0 : Fin 1)) = V c main_v4 (ix2 (⟨128 * t.val + p.val, by omega⟩ : Fin 4096) (0 : Fin 1)) := by
    show V c main_v4 (((cfg0.win 0).blk t).view.emb (ix2 p (0 : Fin 1) : S128x1.Idx)) = _
    refine congrArg (V c main_v4) (funext fun d => Fin.ext ?_)
    match d with
    | ⟨0, _⟩ => show win0_0.index t (0 : Fin 2) * 128 + 1 * p.val = 128 * t.val + p.val; omega
    | ⟨1, _⟩ => show win0_0.index t (1 : Fin 2) * 1 + 1 * 0 = 0; omega
  have hB1 : iblk0 V c 1 t (ix2 p (0 : Fin 1)) = V c main_v5 (ix2 (⟨128 * t.val + p.val, by omega⟩ : Fin 4096) (0 : Fin 1)) := by
    show V c main_v5 (((cfg0.win 1).blk t).view.emb (ix2 p (0 : Fin 1) : S128x1.Idx)) = _
    refine congrArg (V c main_v5) (funext fun d => Fin.ext ?_)
    match d with
    | ⟨0, _⟩ => show win0_1.index t (0 : Fin 2) * 128 + 1 * p.val = 128 * t.val + p.val; omega
    | ⟨1, _⟩ => show win0_1.index t (1 : Fin 2) * 1 + 1 * 0 = 0; omega
  have hB2 : iblk0 V c 2 t (ix2 p (0 : Fin 1)) = V c main_v6 (ix2 (⟨128 * t.val + p.val, by omega⟩ : Fin 4096) (0 : Fin 1)) := by
    show V c main_v6 (((cfg0.win 2).blk t).view.emb (ix2 p (0 : Fin 1) : S128x1.Idx)) = _
    refine congrArg (V c main_v6) (funext fun d => Fin.ext ?_)
    match d with
    | ⟨0, _⟩ => show win0_2.index t (0 : Fin 2) * 128 + 1 * p.val = 128 * t.val + p.val; omega
    | ⟨1, _⟩ => show win0_2.index t (1 : Fin 2) * 1 + 1 * 0 = 0; omega
  have hB3 : ∀ a : Fin 4096, iblk0 V c 3 t (ix2 (0 : Fin 1) a) = V c main_v7 (ix2 (0 : Fin 1) a) := fun a => by
    show V c main_v7 (((cfg0.win 3).blk t).view.emb (ix2 (0 : Fin 1) a : S1x4096.Idx)) = _
    refine congrArg (V c main_v7) (funext fun d => Fin.ext ?_)
    match d with
    | ⟨0, _⟩ => show win0_3.index t (0 : Fin 2) * 1 + 1 * 0 = 0; omega
    | ⟨1, _⟩ => show win0_3.index t (1 : Fin 2) * 4096 + 1 * a.val = a.val; omega
  have hB4 : ∀ a : Fin 4096, iblk0 V c 4 t (ix2 (0 : Fin 1) a) = V c main_v8 (ix2 (0 : Fin 1) a) := fun a => by
    show V c main_v8 (((cfg0.win 4).blk t).view.emb (ix2 (0 : Fin 1) a : S1x4096.Idx)) = _
    refine congrArg (V c main_v8) (funext fun d => Fin.ext ?_)
    match d with
    | ⟨0, _⟩ => show win0_4.index t (0 : Fin 2) * 1 + 1 * 0 = 0; omega
    | ⟨1, _⟩ => show win0_4.index t (1 : Fin 2) * 4096 + 1 * a.val = a.val; omega
  have hB5 : ∀ a : Fin 4096, iblk0 V c 5 t (ix2 (0 : Fin 1) a) = V c main_v9 (ix2 (0 : Fin 1) a) := fun a => by
    show V c main_v9 (((cfg0.win 5).blk t).view.emb (ix2 (0 : Fin 1) a : S1x4096.Idx)) = _
    refine congrArg (V c main_v9) (funext fun d => Fin.ext ?_)
    match d with
    | ⟨0, _⟩ => show win0_5.index t (0 : Fin 2) * 1 + 1 * 0 = 0; omega
    | ⟨1, _⟩ => show win0_5.index t (1 : Fin 2) * 4096 + 1 * a.val = a.val; omega
  show _ = ccArr _ _ _ _ _ _ (((cfg0.win 6).blk t).view.emb (ix2 p k : S128x2.Idx))
  rw [hE, hB0, hB1, hB2, e]
  unfold ccArr
  exact Finset.sum_congr rfl fun a _ => by rw [hB3 a, hB4 a, hB5 a]

/-- An index of the result lies in point `t`'s block iff each coordinate is in the block's range. -/
theorem mem_blk_cc (t : Fin cfg0.N) (i : S4096x2.Idx) :
    i ∈ ((cfg0.win 6).blk t).view.set ↔ ∀ a : Fin 2, win0_6.index t a * S128x2.size a ≤ (i a).val ∧ (i a).val < win0_6.index t a * S128x2.size a + S128x2.size a := by
  show i ∈ ((View.whole main_v10).slice (win0_6.rect t)).set ↔ _
  rw [View.set_slice_whole, Rect.mem_set_unit]
  exact Iff.rfl

/-- Every row of the result is written by the point whose number is the row over 128. -/
theorem cover_cc (i : S4096x2.Idx) : ∃ t : Fin cfg0.N, (cfg0.win 6).flush t = true ∧ i ∈ ((cfg0.win 6).blk t).view.set := by
  have hi0 : (i 0).val < 4096 := idx2_lt0 i
  have hi1 : (i 1).val < 2 := idx2_lt1 i
  have hN : (i 0).val / 128 < cfg0.N := by show _ < grid0.N; rw [N_0]; omega
  refine ⟨⟨(i 0).val / 128, hN⟩, flush0_6 _, ?_⟩
  obtain ⟨e, hlt, a00, a01, a10, a11, a20, a21, a30, a31, a40, a41, a50, a51, a60, a61⟩ := idx_cc ⟨(i 0).val / 128, hN⟩
  rw [mem_blk_cc]
  intro a
  match a with
  | ⟨0, _⟩ =>
    show win0_6.index ⟨(i 0).val / 128, hN⟩ (0 : Fin 2) * 128 ≤ (i 0).val ∧ (i 0).val < win0_6.index ⟨(i 0).val / 128, hN⟩ (0 : Fin 2) * 128 + 128
    rw [a60]; show (i 0).val / 128 * 128 ≤ (i 0).val ∧ (i 0).val < (i 0).val / 128 * 128 + 128; omega
  | ⟨1, _⟩ =>
    show win0_6.index ⟨(i 0).val / 128, hN⟩ (1 : Fin 2) * 2 ≤ (i 1).val ∧ (i 1).val < win0_6.index ⟨(i 0).val / 128, hN⟩ (1 : Fin 2) * 2 + 2
    rw [a61]; omega

/-- The result array after the pass. -/
theorem arr_cc (c : Dev nD) :
    (dat0 V c).arrAt 6 cfg0.N = ccArr (V c main_v4) (V c main_v5) (V c main_v6) (V c main_v7) (V c main_v8) (V c main_v9) :=
  (dat0 V c).arrAt_eq_of_cover 6 _ (fun t _ => flushed_cc V c t) cover_cc

end Cert.KernelIdeal.GenP

end
-- ==== Proof.ArrAA.lean ====
/-
  The box–box pass as a whole: the array it leaves.

  The pass runs at 16 grid points; point t handles boxes 128 t … 128 t + 127 and writes their 128 rows of the result. The
  16 blocks tile the [2048, 2] result, so the array after the pass is, row by row, the sum over all boxes of the pair's
  push — one function of the eight arrays the pass reads (the boxes' centre x, centre y, half-width and half-height, each
  once as a column and once as a row).
-/
import proofs.«147085_j58935541236175_2_alg».proof.Proof.KernelIdealFrame
import proofs.«147085_j58935541236175_2_alg».proof.Proof.PayCC
import proofs.«147085_j58935541236175_2_alg».proof.Proof.PayAA
import proofs.«147085_j58935541236175_2_alg».proof.Proof.ArrCC

set_option maxRecDepth 16384

noncomputable section

open scoped BigOperators

namespace Cert.KernelIdeal.GenP

open Cert.KernelIdeal Cert.KernelIdeal.Gen Cert.Collide
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- Where each window's block sits at grid point `t`: the four column windows and the result move with the point, the
    four row windows stay; the point's one coordinate is its number, below 16. -/
theorem idx_aa : ∀ t : Fin cfg1.N, ((grid1.coords t) 0).val = t.val ∧ t.val < 16
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

/-- The result array as a function of the eight arrays read: entry (r, k) sums, over every box a, the k-th component of
    the push on box r from box a. -/
def aaArr (X Y HX HY : S2048x1.Idx → EReal) (X' Y' HX' HY' : S1x2048.Idx → EReal) (j : S2048x2.Idx) : EReal :=
  ∑ a : Fin 2048, aaT (offDiag (j 0).val a.val)
      (X (ix2 (⟨(j 0).val, idx2_lt0 j⟩ : Fin 2048) (0 : Fin 1)) - X' (ix2 (0 : Fin 1) a))
      (Y (ix2 (⟨(j 0).val, idx2_lt0 j⟩ : Fin 2048) (0 : Fin 1)) - Y' (ix2 (0 : Fin 1) a))
      (HX (ix2 (⟨(j 0).val, idx2_lt0 j⟩ : Fin 2048) (0 : Fin 1)) + HX' (ix2 (0 : Fin 1) a))
      (HY (ix2 (⟨(j 0).val, idx2_lt0 j⟩ : Fin 2048) (0 : Fin 1)) + HY' (ix2 (0 : Fin 1) a))
      ⟨(j 1).val, idx2_lt1 j⟩

set_option backward.isDefEq.respectTransparency.types false in
/-- What grid point `t` writes back is block `t` of that function of the arrays as the pass finds them. -/
theorem flushed_aa (c : Dev nD) (t : Fin cfg1.N) :
    (dat1 V c).flushed 8 t = ((cfg1.win 8).blk t).view.read (Elt Ideal)
      (aaArr (V c main_v19) (V c main_v20) (V c main_v21) (V c main_v22) (V c main_v23) (V c main_v24) (V c main_v25)
        (V c main_v26)) := by
  show (cfg1.win 8).cut (grid1.coords t) ((dat1 V c).after 8 t) = _
  rw [after1_8]
  unfold out1_8
  rw [View.canon_unit_zero hz2]
  simp only [View.ld_unit_zero (S := S128x1) hz2, View.ld_unit_zero (S := S1x2048) hz2]
  obtain ⟨e, hlt, a00, a01, a10, a11, a20, a21, a30, a31, a40, a41, a50, a51, a60, a61, a70, a71, a80, a81⟩ := idx_aa t
  funext y
  obtain ⟨p, k, rfl⟩ : ∃ (p : Fin 128) (k : Fin 2), y = (ix2 p k : S128x2.Idx) := ⟨y 0, y 1, eq_ix2 y⟩
  show k1_pay1 _ _ _ _ _ _ (ix2 p k) = _
  refine (Cert.PayAA.stored_at _ _ _ _ _ _ _ _ p (grid1.coords t) (by omega) k).trans ?_
  have hE : ((cfg1.win 8).blk t).view.emb (ix2 p k : S128x2.Idx) = (ix2 (⟨128 * t.val + p.val, by omega⟩ : Fin 2048) k : S2048x2.Idx) := by
    funext d; apply Fin.ext
    match d with
    | ⟨0, _⟩ => show win1_8.index t (0 : Fin 2) * 128 + 1 * p.val = 128 * t.val + p.val; omega
    | ⟨1, _⟩ => show win1_8.index t (1 : Fin 2) * 2 + 1 * k.val = k.val; omega
  have hB0 : iblk1 V c 0 t (ix2 p (0 : Fin 1)) = V c main_v19 (ix2 (⟨128 * t.val + p.val, by omega⟩ : Fin 2048) (0 : Fin 1)) := by
    show V c main_v19 (((cfg1.win 0).blk t).view.emb (ix2 p (0 : Fin 1) : S128x1.Idx)) = _
    refine congrArg (V c main_v19) (funext fun d => Fin.ext ?_)
    match d with
    | ⟨0, _⟩ => show win1_0.index t (0 : Fin 2) * 128 + 1 * p.val = 128 * t.val + p.val; omega
    | ⟨1, _⟩ => show win1_0.index t (1 : Fin 2) * 1 + 1 * 0 = 0; omega
  have hB1 : iblk1 V c 1 t (ix2 p (0 : Fin 1)) = V c main_v20 (ix2 (⟨128 * t.val + p.val, by omega⟩ : Fin 2048) (0 : Fin 1)) := by
    show V c main_v20 (((cfg1.win 1).blk t).view.emb (ix2 p (0 : Fin 1) : S128x1.Idx)) = _
    refine congrArg (V c main_v20) (funext fun d => Fin.ext ?_)
    match d with
    | ⟨0, _⟩ => show win1_1.index t (0 : Fin 2) * 128 + 1 * p.val = 128 * t.val + p.val; omega
    | ⟨1, _⟩ => show win1_1.index t (1 : Fin 2) * 1 + 1 * 0 = 0; omega
  have hB2 : iblk1 V c 2 t (ix2 p (0 : Fin 1)) = V c main_v21 (ix2 (⟨128 * t.val + p.val, by omega⟩ : Fin 2048) (0 : Fin 1)) := by
    show V c main_v21 (((cfg1.win 2).blk t).view.emb (ix2 p (0 : Fin 1) : S128x1.Idx)) = _
    refine congrArg (V c main_v21) (funext fun d => Fin.ext ?_)
    match d with
    | ⟨0, _⟩ => show win1_2.index t (0 : Fin 2) * 128 + 1 * p.val = 128 * t.val + p.val; omega
    | ⟨1, _⟩ => show win1_2.index t (1 : Fin 2) * 1 + 1 * 0 = 0; omega
  have hB3 : iblk1 V c 3 t (ix2 p (0 : Fin 1)) = V c main_v22 (ix2 (⟨128 * t.val + p.val, by omega⟩ : Fin 2048) (0 : Fin 1)) := by
    show V c main_v22 (((cfg1.win 3).blk t).view.emb (ix2 p (0 : Fin 1) : S128x1.Idx)) = _
    refine congrArg (V c main_v22) (funext fun d => Fin.ext ?_)
    match d with
    | ⟨0, _⟩ => show win1_3.index t (0 : Fin 2) * 128 + 1 * p.val = 128 * t.val + p.val; omega
    | ⟨1, _⟩ => show win1_3.index t (1 : Fin 2) * 1 + 1 * 0 = 0; omega
  have hB4 : ∀ a : Fin 2048, iblk1 V c 4 t (ix2 (0 : Fin 1) a) = V c main_v23 (ix2 (0 : Fin 1) a) := fun a => by
    show V c main_v23 (((cfg1.win 4).blk t).view.emb (ix2 (0 : Fin 1) a : S1x2048.Idx)) = _
    refine congrArg (V c main_v23) (funext fun d => Fin.ext ?_)
    match d with
    | ⟨0, _⟩ => show win1_4.index t (0 : Fin 2) * 1 + 1 * 0 = 0; omega
    | ⟨1, _⟩ => show win1_4.index t (1 : Fin 2) * 2048 + 1 * a.val = a.val; omega
  have hB5 : ∀ a : Fin 2048, iblk1 V c 5 t (ix2 (0 : Fin 1) a) = V c main_v24 (ix2 (0 : Fin 1) a) := fun a => by
    show V c main_v24 (((cfg1.win 5).blk t).view.emb (ix2 (0 : Fin 1) a : S1x2048.Idx)) = _
    refine congrArg (V c main_v24) (funext fun d => Fin.ext ?_)
    match d with
    | ⟨0, _⟩ => show win1_5.index t (0 : Fin 2) * 1 + 1 * 0 = 0; omega
    | ⟨1, _⟩ => show win1_5.index t (1 : Fin 2) * 2048 + 1 * a.val = a.val; omega
  have hB6 : ∀ a : Fin 2048, iblk1 V c 6 t (ix2 (0 : Fin 1) a) = V c main_v25 (ix2 (0 : Fin 1) a) := fun a => by
    show V c main_v25 (((cfg1.win 6).blk t).view.emb (ix2 (0 : Fin 1) a : S1x2048.Idx)) = _
    refine congrArg (V c main_v25) (funext fun d => Fin.ext ?_)
    match d with
    | ⟨0, _⟩ => show win1_6.index t (0 : Fin 2) * 1 + 1 * 0 = 0; omega
    | ⟨1, _⟩ => show win1_6.index t (1 : Fin 2) * 2048 + 1 * a.val = a.val; omega
  have hB7 : ∀ a : Fin 2048, iblk1 V c 7 t (ix2 (0 : Fin 1) a) = V c main_v26 (ix2 (0 : Fin 1) a) := fun a => by
    show V c main_v26 (((cfg1.win 7).blk t).view.emb (ix2 (0 : Fin 1) a : S1x2048.Idx)) = _
    refine congrArg (V c main_v26) (funext fun d => Fin.ext ?_)
    match d with
    | ⟨0, _⟩ => show win1_7.index t (0 : Fin 2) * 1 + 1 * 0 = 0; omega
    | ⟨1, _⟩ => show win1_7.index t (1 : Fin 2) * 2048 + 1 * a.val = a.val; omega
  show _ = aaArr _ _ _ _ _ _ _ _ (((cfg1.win 8).blk t).view.emb (ix2 p k : S128x2.Idx))
  rw [hE, hB0, hB1, hB2, hB3, e]
  unfold aaArr
  exact Finset.sum_congr rfl fun a _ => by rw [hB4 a, hB5 a, hB6 a, hB7 a]

/-- An index of the result lies in point `t`'s block iff each coordinate is in the block's range. -/
theorem mem_blk_aa (t : Fin cfg1.N) (i : S2048x2.Idx) :
    i ∈ ((cfg1.win 8).blk t).view.set ↔ ∀ a : Fin 2, win1_8.index t a * S128x2.size a ≤ (i a).val ∧ (i a).val < win1_8.index t a * S128x2.size a + S128x2.size a := by
  show i ∈ ((View.whole main_v27).slice (win1_8.rect t)).set ↔ _
  rw [View.set_slice_whole, Rect.mem_set_unit]
  exact Iff.rfl

/-- Every row of the result is written by the point whose number is the row over 128. -/
theorem cover_aa (i : S2048x2.Idx) : ∃ t : Fin cfg1.N, (cfg1.win 8).flush t = true ∧ i ∈ ((cfg1.win 8).blk t).view.set := by
  have hi0 : (i 0).val < 2048 := idx2_lt0 i
  have hi1 : (i 1).val < 2 := idx2_lt1 i
  have hN : (i 0).val / 128 < cfg1.N := by show _ < grid1.N; rw [N_1]; omega
  refine ⟨⟨(i 0).val / 128, hN⟩, flush1_8 _, ?_⟩
  obtain ⟨e, hlt, a00, a01, a10, a11, a20, a21, a30, a31, a40, a41, a50, a51, a60, a61, a70, a71, a80, a81⟩ := idx_aa ⟨(i 0).val / 128, hN⟩
  rw [mem_blk_aa]
  intro a
  match a with
  | ⟨0, _⟩ =>
    show win1_8.index ⟨(i 0).val / 128, hN⟩ (0 : Fin 2) * 128 ≤ (i 0).val ∧ (i 0).val < win1_8.index ⟨(i 0).val / 128, hN⟩ (0 : Fin 2) * 128 + 128
    rw [a80]; show (i 0).val / 128 * 128 ≤ (i 0).val ∧ (i 0).val < (i 0).val / 128 * 128 + 128; omega
  | ⟨1, _⟩ =>
    show win1_8.index ⟨(i 0).val / 128, hN⟩ (1 : Fin 2) * 2 ≤ (i 1).val ∧ (i 1).val < win1_8.index ⟨(i 0).val / 128, hN⟩ (1 : Fin 2) * 2 + 2
    rw [a81]; omega

/-- The result array after the pass. -/
theorem arr_aa (c : Dev nD) :
    (dat1 V c).arrAt 8 cfg1.N = aaArr (V c main_v19) (V c main_v20) (V c main_v21) (V c main_v22) (V c main_v23)
      (V c main_v24) (V c main_v25) (V c main_v26) :=
  (dat1 V c).arrAt_eq_of_cover 8 _ (fun t _ => flushed_aa V c t) cover_aa

end Cert.KernelIdeal.GenP

end
-- ==== Proof.PayCA.lean ====
/-
  The circle–box pass at one grid point, read entry by entry.

  The pass handles 128 circles at a time (rows `p` of the block) against all 2048 boxes (columns `a`). Its three column
  blocks hold the 128 circles' x, y and radius, its four row blocks all boxes' centre x, centre y, half-width and
  half-height. For the pair (p, a) the offset on each axis is the centre difference minus its clamp to ± the half-extent,
  the lower bound written 0 − h; the pair's scalar factor comes from the two offsets and the circle's radius. Entry (p, k)
  of the first stored value is the sum over the boxes of the factor times the k-th offset; entry (0, k, a) of the second
  is 0 minus the sum over the 128 circles of the same product.
-/
import proofs.«147085_j58935541236175_2_alg».proof.Proof.Gen.KernelIdeal.Skeleton
import proofs.«147085_j58935541236175_2_alg».proof.Proof.Spec
import proofs.«147085_j58935541236175_2_alg».proof.Proof.LibKeepdims
import Idealize.ShloMosaic.Lib.Affine

set_option maxRecDepth 16384

noncomputable section

open scoped BigOperators

namespace Cert.PayCA

open Cert.KernelIdeal Cert.KernelIdeal.Gen Cert.Collide Cert.LibKeepdims
open Idealize.ShloMosaic Idealize.ShloMosaic.ValueIdx

/-- One axis of the offset for the pair (p, a), from a column block `c` of circle coordinates, a row block `b` of box
    centres and a row block `h` of half-extents: the difference minus its clamp, the lower bound 0 − h. -/
theorem off_at (c : Vec Ideal S128x1 .f32) (b h : Vec Ideal S1x2048 .f32) (p : Fin 128) (a : Fin 2048) :
    (broadcastTo S128x2048 (shapeCast S128x1 c shapeCasts_S128x1_S128x1) broadcasts_S128x1_S128x2048 (ix2 p a)
        - broadcastTo S128x2048 (shapeCast S1x2048 b shapeCasts_S1x2048_S1x2048) broadcasts_S1x2048_S128x2048 (ix2 p a))
      - min (broadcastTo S128x2048 (shapeCast S1x2048 h shapeCasts_S1x2048_S1x2048) broadcasts_S1x2048_S128x2048 (ix2 p a))
          (max (broadcastTo S128x2048
                  (subf (broadcast S1x2048 (Scalar.ofBits (F := Ideal) .f32 0x00000000#32))
                    (shapeCast S1x2048 h shapeCasts_S1x2048_S1x2048))
                  broadcasts_S1x2048_S128x2048 (ix2 p a))
            (broadcastTo S128x2048 (shapeCast S128x1 c shapeCasts_S128x1_S128x1) broadcasts_S128x1_S128x2048 (ix2 p a)
              - broadcastTo S128x2048 (shapeCast S1x2048 b shapeCasts_S1x2048_S1x2048) broadcasts_S1x2048_S128x2048 (ix2 p a)))
      = offK (c (ix2 p 0) - b (ix2 0 a)) (h (ix2 0 a)) := by
  rw [broadcastTo_a1_ab_apply, broadcastTo_1b_ab_apply, broadcastTo_1b_ab_apply, broadcastTo_1b_ab_apply, shapeCast_self,
    shapeCast_self, shapeCast_self]
  rfl

variable (x0 x1 x2 : Vec Ideal S128x1 .f32) (x3 x4 x5 x6 : Vec Ideal S1x2048 .f32)

/-- The x offset of the pair (p, a). -/
theorem fx_at (p : Fin 128) (a : Fin 2048) :
    k2_pay7 x0 x3 x5 (ix2 p a) = offK (x0 (ix2 p 0) - x3 (ix2 0 a)) (x5 (ix2 0 a)) :=
  off_at x0 x3 x5 p a

/-- The y offset. -/
theorem fy_at (p : Fin 128) (a : Fin 2048) :
    k2_pay8 x1 x4 x6 (ix2 p a) = offK (x1 (ix2 p 0) - x4 (ix2 0 a)) (x6 (ix2 0 a)) :=
  off_at x1 x4 x6 p a

/-- The squared length of the offset. -/
theorem d2_at (p : Fin 128) (a : Fin 2048) : k2_pay9 x0 x1 x3 x4 x5 x6 (ix2 p a)
    = offK (x0 (ix2 p 0) - x3 (ix2 0 a)) (x5 (ix2 0 a)) * offK (x0 (ix2 p 0) - x3 (ix2 0 a)) (x5 (ix2 0 a))
      + offK (x1 (ix2 p 0) - x4 (ix2 0 a)) (x6 (ix2 0 a)) * offK (x1 (ix2 p 0) - x4 (ix2 0 a)) (x6 (ix2 0 a)) := by
  show k2_pay7 x0 x3 x5 (ix2 p a) * k2_pay7 x0 x3 x5 (ix2 p a) + k2_pay8 x1 x4 x6 (ix2 p a) * k2_pay8 x1 x4 x6 (ix2 p a) = _
  rw [fx_at, fy_at]

/-- The squared length, replaced by 1 where it is not above ε. -/
theorem sel_at (p : Fin 128) (a : Fin 2048) : k2_pay10 x0 x1 x3 x4 x5 x6 (ix2 p a)
    = Scalar.select (gt (k2_pay9 x0 x1 x3 x4 x5 x6 (ix2 p a)) eps) (k2_pay9 x0 x1 x3 x4 x5 x6 (ix2 p a)) one := rfl

/-- The pair's scalar factor, from the squared length `v36`, its guarded copy `v40` and the circle's radius. -/
theorem fac_at (v36 v40 : FVec Ideal S128x2048 .f32) (p : Fin 128) (a : Fin 2048) :
    k2_pay1 (k2_pay6 x2) v36 v40 (ix2 p a)
      = Scalar.select
          (IntOp.andi (gt (v36 (ix2 p a)) eps) (gt (x2 (ix2 p 0) - v36 (ix2 p a) * rsq (v40 (ix2 p a))) zero))
          (half * (x2 (ix2 p 0) - v36 (ix2 p a) * rsq (v40 (ix2 p a))) * rsq (v40 (ix2 p a))) zero := by
  show Scalar.select
      (IntOp.andi (gt (v36 (ix2 p a)) eps)
        (gt (broadcastTo S128x2048 (shapeCast S128x1 x2 shapeCasts_S128x1_S128x1) broadcasts_S128x1_S128x2048 (ix2 p a)
          - v36 (ix2 p a) * rsq (v40 (ix2 p a))) zero))
      (half * (broadcastTo S128x2048 (shapeCast S128x1 x2 shapeCasts_S128x1_S128x1) broadcasts_S128x1_S128x2048 (ix2 p a)
          - v36 (ix2 p a) * rsq (v40 (ix2 p a))) * rsq (v40 (ix2 p a))) zero = _
  rw [broadcastTo_a1_ab_apply, shapeCast_self]

/-- The pair's scalar factor times a component `d` of the offset. -/
theorem term_at (p : Fin 128) (a : Fin 2048) (d : EReal) :
    k2_pay1 (k2_pay6 x2) (k2_pay9 x0 x1 x3 x4 x5 x6) (k2_pay10 x0 x1 x3 x4 x5 x6) (ix2 p a) * d
      = caK (offK (x0 (ix2 p 0) - x3 (ix2 0 a)) (x5 (ix2 0 a))) (offK (x1 (ix2 p 0) - x4 (ix2 0 a)) (x6 (ix2 0 a)))
          (x2 (ix2 p 0)) * d := by
  rw [fac_at, sel_at, d2_at]
  rfl

/-- The factor times the x offset, and times the y offset, as the pass forms them. -/
theorem prodx_at (p : Fin 128) (a : Fin 2048) :
    k2_pay2 (k2_pay6 x2) (k2_pay7 x0 x3 x5) (k2_pay9 x0 x1 x3 x4 x5 x6) (k2_pay10 x0 x1 x3 x4 x5 x6) (ix2 p a)
      = caK (offK (x0 (ix2 p 0) - x3 (ix2 0 a)) (x5 (ix2 0 a))) (offK (x1 (ix2 p 0) - x4 (ix2 0 a)) (x6 (ix2 0 a)))
          (x2 (ix2 p 0)) * offK (x0 (ix2 p 0) - x3 (ix2 0 a)) (x5 (ix2 0 a)) := by
  refine (term_at x0 x1 x2 x3 x4 x5 x6 p a (k2_pay7 x0 x3 x5 (ix2 p a))).trans ?_
  rw [fx_at]

theorem prody_at (p : Fin 128) (a : Fin 2048) :
    k2_pay3 (k2_pay6 x2) (k2_pay8 x1 x4 x6) (k2_pay9 x0 x1 x3 x4 x5 x6) (k2_pay10 x0 x1 x3 x4 x5 x6) (ix2 p a)
      = caK (offK (x0 (ix2 p 0) - x3 (ix2 0 a)) (x5 (ix2 0 a))) (offK (x1 (ix2 p 0) - x4 (ix2 0 a)) (x6 (ix2 0 a)))
          (x2 (ix2 p 0)) * offK (x1 (ix2 p 0) - x4 (ix2 0 a)) (x6 (ix2 0 a)) := by
  refine (term_at x0 x1 x2 x3 x4 x5 x6 p a (k2_pay8 x1 x4 x6 (ix2 p a))).trans ?_
  rw [fy_at]

/-- Entry (p, k) of the first stored value: the sum over the boxes of the pair's factor times the k-th offset. -/
theorem circ_at (p : Fin 128) (k : Fin 2) :
    k2_pay4 (k2_pay6 x2) (k2_pay7 x0 x3 x5) (k2_pay8 x1 x4 x6) (k2_pay9 x0 x1 x3 x4 x5 x6) (k2_pay10 x0 x1 x3 x4 x5 x6)
        (ix2 p k)
      = ∑ a : Fin 2048, caK (offK (x0 (ix2 p 0) - x3 (ix2 0 a)) (x5 (ix2 0 a)))
            (offK (x1 (ix2 p 0) - x4 (ix2 0 a)) (x6 (ix2 0 a))) (x2 (ix2 p 0))
          * (if k.val = 0 then offK (x0 (ix2 p 0) - x3 (ix2 0 a)) (x5 (ix2 0 a))
              else offK (x1 (ix2 p 0) - x4 (ix2 0 a)) (x6 (ix2 0 a))) := by
  unfold k2_pay4
  refine (concat_cols_ite_apply _ _ _ p k).trans ?_
  by_cases hk : k.val = 0
  · rw [if_pos hk]
    refine (shapeCast_a_a1_apply _ _ p 0).trans ?_
    refine (rowSum_apply _ _ _ _ p).trans ?_
    refine Finset.sum_congr rfl fun a _ => ?_
    rw [if_pos hk]
    exact prodx_at x0 x1 x2 x3 x4 x5 x6 p a
  · rw [if_neg hk]
    refine (shapeCast_a_a1_apply _ _ p 0).trans ?_
    refine (rowSum_apply _ _ _ _ p).trans ?_
    refine Finset.sum_congr rfl fun a _ => ?_
    rw [if_neg hk]
    exact prody_at x0 x1 x2 x3 x4 x5 x6 p a

/-- Entry (0, k, a) of the second stored value: 0 minus the sum over the 128 circles of the pair's factor times the k-th
    offset. -/
theorem box_at (k : Fin 2) (a : Fin 2048) :
    k2_pay5 (k2_pay6 x2) (k2_pay7 x0 x3 x5) (k2_pay8 x1 x4 x6) (k2_pay9 x0 x1 x3 x4 x5 x6) (k2_pay10 x0 x1 x3 x4 x5 x6)
        (ix3 (0 : Fin 1) k a)
      = zero - ∑ p : Fin 128, caK (offK (x0 (ix2 p 0) - x3 (ix2 0 a)) (x5 (ix2 0 a)))
            (offK (x1 (ix2 p 0) - x4 (ix2 0 a)) (x6 (ix2 0 a))) (x2 (ix2 p 0))
          * (if k.val = 0 then offK (x0 (ix2 p 0) - x3 (ix2 0 a)) (x5 (ix2 0 a))
              else offK (x1 (ix2 p 0) - x4 (ix2 0 a)) (x6 (ix2 0 a))) := by
  unfold k2_pay5
  refine (shapeCast_ab_1ab_apply _ _ (0 : Fin 1) k a).trans ?_
  refine (concat_rows_ite_apply _ _ _ k a).trans ?_
  by_cases hk : k.val = 0
  · rw [if_pos hk]
    refine congrArg (fun t : EReal => zero - t) ?_
    refine (shapeCast_a_1a_apply _ _ (0 : Fin 1) a).trans ?_
    refine (colSum_apply _ _ _ _ a).trans ?_
    refine Finset.sum_congr rfl fun p _ => ?_
    rw [if_pos hk]
    exact prodx_at x0 x1 x2 x3 x4 x5 x6 p a
  · rw [if_neg hk]
    refine congrArg (fun t : EReal => zero - t) ?_
    refine (shapeCast_a_1a_apply _ _ (0 : Fin 1) a).trans ?_
    refine (colSum_apply _ _ _ _ a).trans ?_
    refine Finset.sum_congr rfl fun p _ => ?_
    rw [if_neg hk]
    exact prody_at x0 x1 x2 x3 x4 x5 x6 p a

end Cert.PayCA

end
-- ==== Proof.ArrCA.lean ====
/-
  The circle–box pass as a whole: the two arrays it leaves.

  The pass runs at 32 grid points; point t handles circles 128 t … 128 t + 127 against all 2048 boxes. It writes the 128
  rows of those circles' pushes into the [4096, 2] circle result, and, as one [2, 2048] slab of a [32, 2, 2048] array, the
  opposite pushes on every box summed over its 128 circles only. Both arrays are wholly written, each block once, so after
  the pass each is one function of the seven arrays read (the circles' x, y, radius as columns; the boxes' centre x,
  centre y, half-width, half-height as rows).
-/
import proofs.«147085_j58935541236175_2_alg».proof.Proof.KernelIdealFrame
import proofs.«147085_j58935541236175_2_alg».proof.Proof.PayCC
import proofs.«147085_j58935541236175_2_alg».proof.Proof.PayCA
import proofs.«147085_j58935541236175_2_alg».proof.Proof.ArrCC

set_option maxRecDepth 16384

noncomputable section

open scoped BigOperators

namespace Cert.KernelIdeal.GenP

open Cert.KernelIdeal Cert.KernelIdeal.Gen Cert.Collide
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz3 : (![0, 0, 0] : Fin 3 → Nat) = fun _ => 0 := funext fun a => by fin_cases a <;> rfl

theorem idx3_lt0 {n0 n1 n2 : Nat} (j : (⟨3, ![n0, n1, n2]⟩ : Shape).Idx) : (j 0).val < n0 := (j 0).isLt
theorem idx3_lt1 {n0 n1 n2 : Nat} (j : (⟨3, ![n0, n1, n2]⟩ : Shape).Idx) : (j 1).val < n1 := (j 1).isLt
theorem idx3_lt2 {n0 n1 n2 : Nat} (j : (⟨3, ![n0, n1, n2]⟩ : Shape).Idx) : (j 2).val < n2 := (j 2).isLt

/-- Where each window's block sits at grid point `t`. -/
theorem idx_ca : ∀ t : Fin cfg2.N, ((grid2.coords t) 0).val = t.val ∧ t.val < 32
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 3) = t.val ∧ win2_8.index t (1 : Fin 3) = 0 ∧ win2_8.index t (2 : Fin 3) = 0 :=
  (by decide +kernel : ∀ t : Fin grid2.N, _)

/-- The push on circle `r` from box `a`, component 0 if `kv = 0` and component 1 otherwise, from the seven arrays. -/
def caTerm (X Y R : S4096x1.Idx → EReal) (AX AY HX HY : S1x2048.Idx → EReal) (r : Fin 4096) (a : Fin 2048) (kv : Nat) : EReal :=
  caK (offK (X (ix2 r (0 : Fin 1)) - AX (ix2 (0 : Fin 1) a)) (HX (ix2 (0 : Fin 1) a)))
      (offK (Y (ix2 r (0 : Fin 1)) - AY (ix2 (0 : Fin 1) a)) (HY (ix2 (0 : Fin 1) a))) (R (ix2 r (0 : Fin 1)))
    * (if kv = 0 then offK (X (ix2 r (0 : Fin 1)) - AX (ix2 (0 : Fin 1) a)) (HX (ix2 (0 : Fin 1) a))
        else offK (Y (ix2 r (0 : Fin 1)) - AY (ix2 (0 : Fin 1) a)) (HY (ix2 (0 : Fin 1) a)))

/-- The circle result: entry (r, k) sums the pushes on circle r over all boxes. -/
def caCircArr (X Y R : S4096x1.Idx → EReal) (AX AY HX HY : S1x2048.Idx → EReal) (j : S4096x2.Idx) : EReal :=
  ∑ a : Fin 2048, caTerm X Y R AX AY HX HY ⟨(j 0).val, idx2_lt0 j⟩ a (j 1).val

/-- The box partial result: entry (t, k, a) is minus the sum, over the 128 circles of group t, of the pushes from box a. -/
def caBoxArr (X Y R : S4096x1.Idx → EReal) (AX AY HX HY : S1x2048.Idx → EReal) (j : S32x2x2048.Idx) : EReal :=
  zero - ∑ p : Fin 128, caTerm X Y R AX AY HX HY ⟨128 * (j 0).val + p.val, by have := idx3_lt0 j; omega⟩ ⟨(j 2).val, idx3_lt2 j⟩ (j 1).val

set_option maxHeartbeats 1600000 in
set_option backward.isDefEq.respectTransparency.types false in
/-- What grid point `t` writes back to the circle result. -/
theorem flushed_ca_circ (c : Dev nD) (t : Fin cfg2.N) :
    (dat2 V c).flushed 7 t = ((cfg2.win 7).blk t).view.read (Elt Ideal)
      (caCircArr (V c main_v40) (V c main_v41) (V c main_v42) (V c main_v43) (V c main_v44) (V c main_v45) (V c main_v46)) := by
  show (cfg2.win 7).cut (grid2.coords t) ((dat2 V c).after 7 t) = _
  rw [after2_7]
  unfold out2_7
  rw [View.canon_unit_zero hz2]
  simp only [View.ld_unit_zero (S := S128x1) hz2, View.ld_unit_zero (S := S1x2048) hz2]
  obtain ⟨e, hlt, a00, a01, a10, a11, a20, a21, a30, a31, a40, a41, a50, a51, a60, a61, a70, a71, a80, a81, a82⟩ := idx_ca t
  funext y
  obtain ⟨p, k, rfl⟩ : ∃ (p : Fin 128) (k : Fin 2), y = (ix2 p k : S128x2.Idx) := ⟨y 0, y 1, eq_ix2 y⟩
  show k2_pay4 _ _ _ _ _ (ix2 p k) = _
  refine (Cert.PayCA.circ_at _ _ _ _ _ _ _ p k).trans ?_
  have hE : ((cfg2.win 7).blk t).view.emb (ix2 p k : S128x2.Idx) = (ix2 (⟨128 * t.val + p.val, by omega⟩ : Fin 4096) k : S4096x2.Idx) := by
    funext d; apply Fin.ext
    match d with
    | ⟨0, _⟩ => show win2_7.index t (0 : Fin 2) * 128 + 1 * p.val = 128 * t.val + p.val; omega
    | ⟨1, _⟩ => show win2_7.index t (1 : Fin 2) * 2 + 1 * k.val = k.val; omega
  have hB0 : ∀ p : Fin 128, iblk2 V c 0 t (ix2 p (0 : Fin 1)) = V c main_v40 (ix2 (⟨128 * t.val + p.val, by omega⟩ : Fin 4096) (0 : Fin 1)) := fun p => by
    show V c main_v40 (((cfg2.win 0).blk t).view.emb (ix2 p (0 : Fin 1) : S128x1.Idx)) = _
    refine congrArg (V c main_v40) (funext fun d => Fin.ext ?_)
    match d with
    | ⟨0, _⟩ => show win2_0.index t (0 : Fin 2) * 128 + 1 * p.val = 128 * t.val + p.val; omega
    | ⟨1, _⟩ => show win2_0.index t (1 : Fin 2) * 1 + 1 * 0 = 0; omega
  have hB1 : ∀ p : Fin 128, iblk2 V c 1 t (ix2 p (0 : Fin 1)) = V c main_v41 (ix2 (⟨128 * t.val + p.val, by omega⟩ : Fin 4096) (0 : Fin 1)) := fun p => by
    show V c main_v41 (((cfg2.win 1).blk t).view.emb (ix2 p (0 : Fin 1) : S128x1.Idx)) = _
    refine congrArg (V c main_v41) (funext fun d => Fin.ext ?_)
    match d with
    | ⟨0, _⟩ => show win2_1.index t (0 : Fin 2) * 128 + 1 * p.val = 128 * t.val + p.val; omega
    | ⟨1, _⟩ => show win2_1.index t (1 : Fin 2) * 1 + 1 * 0 = 0; omega
  have hB2 : ∀ p : Fin 128, iblk2 V c 2 t (ix2 p (0 : Fin 1)) = V c main_v42 (ix2 (⟨128 * t.val + p.val, by omega⟩ : Fin 4096) (0 : Fin 1)) := fun p => by
    show V c main_v42 (((cfg2.win 2).blk t).view.emb (ix2 p (0 : Fin 1) : S128x1.Idx)) = _
    refine congrArg (V c main_v42) (funext fun d => Fin.ext ?_)
    match d with
    | ⟨0, _⟩ => show win2_2.index t (0 : Fin 2) * 128 + 1 * p.val = 128 * t.val + p.val; omega
    | ⟨1, _⟩ => show win2_2.index t (1 : Fin 2) * 1 + 1 * 0 = 0; omega
  have hB3 : ∀ a : Fin 2048, iblk2 V c 3 t (ix2 (0 : Fin 1) a) = V c main_v43 (ix2 (0 : Fin 1) a) := fun a => by
    show V c main_v43 (((cfg2.win 3).blk t).view.emb (ix2 (0 : Fin 1) a : S1x2048.Idx)) = _
    refine congrArg (V c main_v43) (funext fun d => Fin.ext ?_)
    match d with
    | ⟨0, _⟩ => show win2_3.index t (0 : Fin 2) * 1 + 1 * 0 = 0; omega
    | ⟨1, _⟩ => show win2_3.index t (1 : Fin 2) * 2048 + 1 * a.val = a.val; omega
  have hB4 : ∀ a : Fin 2048, iblk2 V c 4 t (ix2 (0 : Fin 1) a) = V c main_v44 (ix2 (0 : Fin 1) a) := fun a => by
    show V c main_v44 (((cfg2.win 4).blk t).view.emb (ix2 (0 : Fin 1) a : S1x2048.Idx)) = _
    refine congrArg (V c main_v44) (funext fun d => Fin.ext ?_)
    match d with
    | ⟨0, _⟩ => show win2_4.index t (0 : Fin 2) * 1 + 1 * 0 = 0; omega
    | ⟨1, _⟩ => show win2_4.index t (1 : Fin 2) * 2048 + 1 * a.val = a.val; omega
  have hB5 : ∀ a : Fin 2048, iblk2 V c 5 t (ix2 (0 : Fin 1) a) = V c main_v45 (ix2 (0 : Fin 1) a) := fun a => by
    show V c main_v45 (((cfg2.win 5).blk t).view.emb (ix2 (0 : Fin 1) a : S1x2048.Idx)) = _
    refine congrArg (V c main_v45) (funext fun d => Fin.ext ?_)
    match d with
    | ⟨0, _⟩ => show win2_5.index t (0 : Fin 2) * 1 + 1 * 0 = 0; omega
    | ⟨1, _⟩ => show win2_5.index t (1 : Fin 2) * 2048 + 1 * a.val = a.val; omega
  have hB6 : ∀ a : Fin 2048, iblk2 V c 6 t (ix2 (0 : Fin 1) a) = V c main_v46 (ix2 (0 : Fin 1) a) := fun a => by
    show V c main_v46 (((cfg2.win 6).blk t).view.emb (ix2 (0 : Fin 1) a : S1x2048.Idx)) = _
    refine congrArg (V c main_v46) (funext fun d => Fin.ext ?_)
    match d with
    | ⟨0, _⟩ => show win2_6.index t (0 : Fin 2) * 1 + 1 * 0 = 0; omega
    | ⟨1, _⟩ => show win2_6.index t (1 : Fin 2) * 2048 + 1 * a.val = a.val; omega
  show _ = caCircArr _ _ _ _ _ _ _ (((cfg2.win 7).blk t).view.emb (ix2 p k : S128x2.Idx))
  rw [hE, hB0 p, hB1 p, hB2 p]
  unfold caCircArr caTerm
  exact Finset.sum_congr rfl fun a _ => by rw [hB3 a, hB4 a, hB5 a, hB6 a]

set_option backward.isDefEq.respectTransparency.types false in
/-- What grid point `t` writes back to the box partial result. -/
theorem flushed_ca_box (c : Dev nD) (t : Fin cfg2.N) :
    (dat2 V c).flushed 8 t = ((cfg2.win 8).blk t).view.read (Elt Ideal)
      (caBoxArr (V c main_v40) (V c main_v41) (V c main_v42) (V c main_v43) (V c main_v44) (V c main_v45) (V c main_v46)) := by
  show (cfg2.win 8).cut (grid2.coords t) ((dat2 V c).after 8 t) = _
  rw [after2_8]
  unfold out2_8
  rw [View.canon_unit_zero hz3]
  simp only [View.ld_unit_zero (S := S128x1) hz2, View.ld_unit_zero (S := S1x2048) hz2]
  obtain ⟨e, hlt, a00, a01, a10, a11, a20, a21, a30, a31, a40, a41, a50, a51, a60, a61, a70, a71, a80, a81, a82⟩ := idx_ca t
  funext y
  obtain ⟨u, k, a, rfl⟩ : ∃ (u : Fin 1) (k : Fin 2) (a : Fin 2048), y = (ix3 u k a : S1x2x2048.Idx) := ⟨y 0, y 1, y 2, eq_ix3 y⟩
  obtain rfl : u = 0 := Subsingleton.elim _ _
  show k2_pay5 _ _ _ _ _ (ix3 (0 : Fin 1) k a) = _
  refine (Cert.PayCA.box_at _ _ _ _ _ _ _ k a).trans ?_
  have hE : ((cfg2.win 8).blk t).view.emb (ix3 (0 : Fin 1) k a : S1x2x2048.Idx) = (ix3 (⟨t.val, by omega⟩ : Fin 32) k a : S32x2x2048.Idx) := by
    funext d; apply Fin.ext
    match d with
    | ⟨0, _⟩ => show win2_8.index t (0 : Fin 3) * 1 + 1 * 0 = t.val; omega
    | ⟨1, _⟩ => show win2_8.index t (1 : Fin 3) * 2 + 1 * k.val = k.val; omega
    | ⟨2, _⟩ => show win2_8.index t (2 : Fin 3) * 2048 + 1 * a.val = a.val; omega
  have hB0 : ∀ p : Fin 128, iblk2 V c 0 t (ix2 p (0 : Fin 1)) = V c main_v40 (ix2 (⟨128 * t.val + p.val, by omega⟩ : Fin 4096) (0 : Fin 1)) := fun p => by
    show V c main_v40 (((cfg2.win 0).blk t).view.emb (ix2 p (0 : Fin 1) : S128x1.Idx)) = _
    refine congrArg (V c main_v40) (funext fun d => Fin.ext ?_)
    match d with
    | ⟨0, _⟩ => show win2_0.index t (0 : Fin 2) * 128 + 1 * p.val = 128 * t.val + p.val; omega
    | ⟨1, _⟩ => show win2_0.index t (1 : Fin 2) * 1 + 1 * 0 = 0; omega
  have hB1 : ∀ p : Fin 128, iblk2 V c 1 t (ix2 p (0 : Fin 1)) = V c main_v41 (ix2 (⟨128 * t.val + p.val, by omega⟩ : Fin 4096) (0 : Fin 1)) := fun p => by
    show V c main_v41 (((cfg2.win 1).blk t).view.emb (ix2 p (0 : Fin 1) : S128x1.Idx)) = _
    refine congrArg (V c main_v41) (funext fun d => Fin.ext ?_)
    match d with
    | ⟨0, _⟩ => show win2_1.index t (0 : Fin 2) * 128 + 1 * p.val = 128 * t.val + p.val; omega
    | ⟨1, _⟩ => show win2_1.index t (1 : Fin 2) * 1 + 1 * 0 = 0; omega
  have hB2 : ∀ p : Fin 128, iblk2 V c 2 t (ix2 p (0 : Fin 1)) = V c main_v42 (ix2 (⟨128 * t.val + p.val, by omega⟩ : Fin 4096) (0 : Fin 1)) := fun p => by
    show V c main_v42 (((cfg2.win 2).blk t).view.emb (ix2 p (0 : Fin 1) : S128x1.Idx)) = _
    refine congrArg (V c main_v42) (funext fun d => Fin.ext ?_)
    match d with
    | ⟨0, _⟩ => show win2_2.index t (0 : Fin 2) * 128 + 1 * p.val = 128 * t.val + p.val; omega
    | ⟨1, _⟩ => show win2_2.index t (1 : Fin 2) * 1 + 1 * 0 = 0; omega
  have hB3 : ∀ a : Fin 2048, iblk2 V c 3 t (ix2 (0 : Fin 1) a) = V c main_v43 (ix2 (0 : Fin 1) a) := fun a => by
    show V c main_v43 (((cfg2.win 3).blk t).view.emb (ix2 (0 : Fin 1) a : S1x2048.Idx)) = _
    refine congrArg (V c main_v43) (funext fun d => Fin.ext ?_)
    match d with
    | ⟨0, _⟩ => show win2_3.index t (0 : Fin 2) * 1 + 1 * 0 = 0; omega
    | ⟨1, _⟩ => show win2_3.index t (1 : Fin 2) * 2048 + 1 * a.val = a.val; omega
  have hB4 : ∀ a : Fin 2048, iblk2 V c 4 t (ix2 (0 : Fin 1) a) = V c main_v44 (ix2 (0 : Fin 1) a) := fun a => by
    show V c main_v44 (((cfg2.win 4).blk t).view.emb (ix2 (0 : Fin 1) a : S1x2048.Idx)) = _
    refine congrArg (V c main_v44) (funext fun d => Fin.ext ?_)
    match d with
    | ⟨0, _⟩ => show win2_4.index t (0 : Fin 2) * 1 + 1 * 0 = 0; omega
    | ⟨1, _⟩ => show win2_4.index t (1 : Fin 2) * 2048 + 1 * a.val = a.val; omega
  have hB5 : ∀ a : Fin 2048, iblk2 V c 5 t (ix2 (0 : Fin 1) a) = V c main_v45 (ix2 (0 : Fin 1) a) := fun a => by
    show V c main_v45 (((cfg2.win 5).blk t).view.emb (ix2 (0 : Fin 1) a : S1x2048.Idx)) = _
    refine congrArg (V c main_v45) (funext fun d => Fin.ext ?_)
    match d with
    | ⟨0, _⟩ => show win2_5.index t (0 : Fin 2) * 1 + 1 * 0 = 0; omega
    | ⟨1, _⟩ => show win2_5.index t (1 : Fin 2) * 2048 + 1 * a.val = a.val; omega
  have hB6 : ∀ a : Fin 2048, iblk2 V c 6 t (ix2 (0 : Fin 1) a) = V c main_v46 (ix2 (0 : Fin 1) a) := fun a => by
    show V c main_v46 (((cfg2.win 6).blk t).view.emb (ix2 (0 : Fin 1) a : S1x2048.Idx)) = _
    refine congrArg (V c main_v46) (funext fun d => Fin.ext ?_)
    match d with
    | ⟨0, _⟩ => show win2_6.index t (0 : Fin 2) * 1 + 1 * 0 = 0; omega
    | ⟨1, _⟩ => show win2_6.index t (1 : Fin 2) * 2048 + 1 * a.val = a.val; omega
  show _ = caBoxArr _ _ _ _ _ _ _ (((cfg2.win 8).blk t).view.emb (ix3 (0 : Fin 1) k a : S1x2x2048.Idx))
  rw [hE, hB3 a, hB4 a, hB5 a, hB6 a]
  unfold caBoxArr caTerm
  exact congrArg (zero - ·) (Finset.sum_congr rfl fun p _ => by rw [hB0 p, hB1 p, hB2 p])

/-- An index of the circle result lies in point `t`'s block iff each coordinate is in the block's range. -/
theorem mem_blk_ca_circ (t : Fin cfg2.N) (i : S4096x2.Idx) :
    i ∈ ((cfg2.win 7).blk t).view.set ↔ ∀ a : Fin 2, win2_7.index t a * S128x2.size a ≤ (i a).val ∧ (i a).val < win2_7.index t a * S128x2.size a + S128x2.size a := by
  show i ∈ ((View.whole main_v47_0).slice (win2_7.rect t)).set ↔ _
  rw [View.set_slice_whole, Rect.mem_set_unit]
  exact Iff.rfl

/-- … and of the box partial result. -/
theorem mem_blk_ca_box (t : Fin cfg2.N) (i : S32x2x2048.Idx) :
    i ∈ ((cfg2.win 8).blk t).view.set ↔ ∀ a : Fin 3, win2_8.index t a * S1x2x2048.size a ≤ (i a).val ∧ (i a).val < win2_8.index t a * S1x2x2048.size a + S1x2x2048.size a := by
  show i ∈ ((View.whole main_v47_1).slice (win2_8.rect t)).set ↔ _
  rw [View.set_slice_whole, Rect.mem_set_unit]
  exact Iff.rfl

/-- Row r of the circle result is written by point r / 128. -/
theorem cover_ca_circ (i : S4096x2.Idx) : ∃ t : Fin cfg2.N, (cfg2.win 7).flush t = true ∧ i ∈ ((cfg2.win 7).blk t).view.set := by
  have hi0 : (i 0).val < 4096 := idx2_lt0 i
  have hi1 : (i 1).val < 2 := idx2_lt1 i
  have hN : (i 0).val / 128 < cfg2.N := by show _ < grid2.N; rw [N_2]; omega
  refine ⟨⟨(i 0).val / 128, hN⟩, flush2_7 _, ?_⟩
  obtain ⟨e, hlt, a00, a01, a10, a11, a20, a21, a30, a31, a40, a41, a50, a51, a60, a61, a70, a71, a80, a81, a82⟩ := idx_ca ⟨(i 0).val / 128, hN⟩
  rw [mem_blk_ca_circ]
  intro a
  match a with
  | ⟨0, _⟩ =>
    show win2_7.index ⟨(i 0).val / 128, hN⟩ (0 : Fin 2) * 128 ≤ (i 0).val ∧ (i 0).val < win2_7.index ⟨(i 0).val / 128, hN⟩ (0 : Fin 2) * 128 + 128
    rw [a70]; show (i 0).val / 128 * 128 ≤ (i 0).val ∧ (i 0).val < (i 0).val / 128 * 128 + 128; omega
  | ⟨1, _⟩ =>
    show win2_7.index ⟨(i 0).val / 128, hN⟩ (1 : Fin 2) * 2 ≤ (i 1).val ∧ (i 1).val < win2_7.index ⟨(i 0).val / 128, hN⟩ (1 : Fin 2) * 2 + 2
    rw [a71]; omega

/-- Slab t of the box partial result is written by point t. -/
theorem cover_ca_box (i : S32x2x2048.Idx) : ∃ t : Fin cfg2.N, (cfg2.win 8).flush t = true ∧ i ∈ ((cfg2.win 8).blk t).view.set := by
  have hi0 : (i 0).val < 32 := idx3_lt0 i
  have hi1 : (i 1).val < 2 := idx3_lt1 i
  have hi2 : (i 2).val < 2048 := idx3_lt2 i
  have hN : (i 0).val < cfg2.N := by show _ < grid2.N; rw [N_2]; omega
  refine ⟨⟨(i 0).val, hN⟩, flush2_8 _, ?_⟩
  obtain ⟨e, hlt, a00, a01, a10, a11, a20, a21, a30, a31, a40, a41, a50, a51, a60, a61, a70, a71, a80, a81, a82⟩ := idx_ca ⟨(i 0).val, hN⟩
  rw [mem_blk_ca_box]
  intro a
  match a with
  | ⟨0, _⟩ =>
    show win2_8.index ⟨(i 0).val, hN⟩ (0 : Fin 3) * 1 ≤ (i 0).val ∧ (i 0).val < win2_8.index ⟨(i 0).val, hN⟩ (0 : Fin 3) * 1 + 1
    rw [a80]; show (i 0).val * 1 ≤ (i 0).val ∧ (i 0).val < (i 0).val * 1 + 1; omega
  | ⟨1, _⟩ =>
    show win2_8.index ⟨(i 0).val, hN⟩ (1 : Fin 3) * 2 ≤ (i 1).val ∧ (i 1).val < win2_8.index ⟨(i 0).val, hN⟩ (1 : Fin 3) * 2 + 2
    rw [a81]; omega
  | ⟨2, _⟩ =>
    show win2_8.index ⟨(i 0).val, hN⟩ (2 : Fin 3) * 2048 ≤ (i 2).val ∧ (i 2).val < win2_8.index ⟨(i 0).val, hN⟩ (2 : Fin 3) * 2048 + 2048
    rw [a82]; omega

/-- The circle result after the pass. -/
theorem arr_ca_circ (c : Dev nD) :
    (dat2 V c).arrAt 7 cfg2.N = caCircArr (V c main_v40) (V c main_v41) (V c main_v42) (V c main_v43) (V c main_v44) (V c main_v45) (V c main_v46) :=
  (dat2 V c).arrAt_eq_of_cover 7 _ (fun t _ => flushed_ca_circ V c t) cover_ca_circ

/-- The box partial result after the pass. -/
theorem arr_ca_box (c : Dev nD) :
    (dat2 V c).arrAt 8 cfg2.N = caBoxArr (V c main_v40) (V c main_v41) (V c main_v42) (V c main_v43) (V c main_v44) (V c main_v45) (V c main_v46) :=
  (dat2 V c).arrAt_eq_of_cover 8 _ (fun t _ => flushed_ca_box V c t) cover_ca_box

end Cert.KernelIdeal.GenP

end
-- ==== Proof.PassValues.lean ====
/-
  The three passes' results in terms of the argument arrays.

  Each pass reads arrays the program cut from the arguments just before it: columns and rows of the circle centres, the
  radii, the box centres and the half-extents. Putting those cuts into the arrays the passes leave, entry (i, k) of the
  circle–circle result is the sum over all circles of the pair's factor times the k-th component of the centre
  difference; entry (i, k) of the box–box result the sum over all boxes of the k-th component of the push; entry (i, k) of
  the circle–box circle result the sum over all boxes of the push on circle i; and entry (t, k, a) of its box result 0
  minus the sum, over the 128 circles of group t, of the push from box a.
-/
import proofs.«147085_j58935541236175_2_alg».proof.Proof.KernelIdealFrame
import proofs.«147085_j58935541236175_2_alg».proof.Proof.ArrCC
import proofs.«147085_j58935541236175_2_alg».proof.Proof.ArrAA
import proofs.«147085_j58935541236175_2_alg».proof.Proof.ArrCA
import proofs.«147085_j58935541236175_2_alg».proof.Proof.HostIn

set_option maxRecDepth 16384

noncomputable section

open scoped BigOperators

namespace Cert.KernelIdeal.GenP

open Cert.KernelIdeal Cert.KernelIdeal.Gen Cert.Collide
open Idealize.ShloMosaic Idealize.ShloMosaic.TcCoe Idealize.ShloMosaic.ValueIdx Idealize.SL.Sem
open Idealize.ShloMosaic.Pipeline (Dat Cfg Window)
open Idealize.ShloMosaic.StableHlo

variable (m : (ℓ : Loc nD τ sig) → Buf (Elt Ideal) ℓ) (ρ : Dev nD → PrngReg)

/-! ## The circle–circle pass -/

/-- The circle–circle array at row `i`, component `k`, with the row written as `i` itself. -/
theorem ccArr_apply (X Y R : S4096x1.Idx → EReal) (X' Y' R' : S1x4096.Idx → EReal) (i : Fin 4096) (k : Fin 2) :
    ccArr X Y R X' Y' R' (ix2 i k)
      = ∑ a : Fin 4096, ccK (offDiag i.val a.val) (X (ix2 i (0 : Fin 1)) - X' (ix2 (0 : Fin 1) a))
          (Y (ix2 i (0 : Fin 1)) - Y' (ix2 (0 : Fin 1) a)) (R (ix2 i (0 : Fin 1)) + R' (ix2 (0 : Fin 1) a))
        * (if k.val = 0 then X (ix2 i (0 : Fin 1)) - X' (ix2 (0 : Fin 1) a)
            else Y (ix2 i (0 : Fin 1)) - Y' (ix2 (0 : Fin 1) a)) := rfl

/-- Entry (i, k) of the array the circle–circle pass leaves, from the arguments. -/
theorem cc_result (c : Dev nD) (i : Fin 4096) (k : Fin 2) :
    (dat0 (V1 m ρ) c).arrAt 6 cfg0.N (ix2 i k) = ccSumK (m ((c : Thread nD τ).loc main_arg0)) (m ((c : Thread nD τ).loc main_arg1)) i k := by
  refine (congrFun (arr_cc (V1 m ρ) c) (ix2 i k)).trans ?_
  refine (ccArr_apply _ _ _ _ _ _ i k).trans ?_
  unfold ccSumK cdel
  refine Finset.sum_congr rfl fun a _ => ?_
  rw [in0_v4, in0_v5, in0_v6, in0_v7, in0_v8, in0_v9]
  by_cases hk : k.val = 0
  · rw [if_pos hk]
    obtain rfl : k = 0 := Fin.ext hk
    rfl
  · rw [if_neg hk]
    obtain rfl : k = 1 := Fin.ext (by have := k.isLt; omega)
    rfl

/-! ## The box–box pass -/

/-- The box–box array at row `i`, component `k`, with the row and the component written as themselves. -/
theorem aaArr_apply (X Y HX HY : S2048x1.Idx → EReal) (X' Y' HX' HY' : S1x2048.Idx → EReal) (i : Fin 2048) (k : Fin 2) :
    aaArr X Y HX HY X' Y' HX' HY' (ix2 i k)
      = ∑ a : Fin 2048, aaT (offDiag i.val a.val) (X (ix2 i (0 : Fin 1)) - X' (ix2 (0 : Fin 1) a))
          (Y (ix2 i (0 : Fin 1)) - Y' (ix2 (0 : Fin 1) a)) (HX (ix2 i (0 : Fin 1)) + HX' (ix2 (0 : Fin 1) a))
          (HY (ix2 i (0 : Fin 1)) + HY' (ix2 (0 : Fin 1) a)) k := rfl

/-- Entry (i, k) of the array the box–box pass leaves, from the arguments. -/
theorem aa_result (c : Dev nD) (i : Fin 2048) (k : Fin 2) :
    (dat1 (V3 m ρ) c).arrAt 8 cfg1.N (ix2 i k) = aaSumK (m ((c : Thread nD τ).loc main_arg2)) (m ((c : Thread nD τ).loc main_arg3)) i k := by
  refine (congrFun (arr_aa (V3 m ρ) c) (ix2 i k)).trans ?_
  refine (aaArr_apply _ _ _ _ _ _ _ _ i k).trans ?_
  unfold aaSumK adel ahsum
  refine Finset.sum_congr rfl fun a _ => ?_
  rw [in1_v19, in1_v20, in1_v21, in1_v22, in1_v23, in1_v24, in1_v25, in1_v26]

/-! ## The circle–box pass -/

/-- The push on circle `r` from box `a`, component `k`, as the pass's arrays give it, from the arguments. -/
theorem caTerm_eq (c : Dev nD) (r : Fin 4096) (a : Fin 2048) (k : Fin 2) :
    caTerm (V5 m ρ c main_v40) (V5 m ρ c main_v41) (V5 m ρ c main_v42) (V5 m ρ c main_v43) (V5 m ρ c main_v44)
        (V5 m ρ c main_v45) (V5 m ρ c main_v46) r a k.val
      = caPushK (m ((c : Thread nD τ).loc main_arg0)) (m ((c : Thread nD τ).loc main_arg1)) (m ((c : Thread nD τ).loc main_arg2)) (m ((c : Thread nD τ).loc main_arg3)) r a k := by
  unfold caTerm caPushK rel
  rw [in2_v40, in2_v41, in2_v42, in2_v43, in2_v44, in2_v45, in2_v46]
  by_cases hk : k.val = 0
  · rw [if_pos hk]
    obtain rfl : k = 0 := Fin.ext hk
    rfl
  · rw [if_neg hk]
    obtain rfl : k = 1 := Fin.ext (by have := k.isLt; omega)
    rfl

/-- The circle–box circle array at row `i`, component `k`, with the row written as `i` itself. -/
theorem caCircArr_apply (X Y R : S4096x1.Idx → EReal) (AX AY HX HY : S1x2048.Idx → EReal) (i : Fin 4096) (k : Fin 2) :
    caCircArr X Y R AX AY HX HY (ix2 i k) = ∑ a : Fin 2048, caTerm X Y R AX AY HX HY i a k.val := rfl

/-- The circle–box box array at group `t`, component `k`, box `a`, the circle written as number `r` of group `t`. -/
theorem caBoxArr_apply (X Y R : S4096x1.Idx → EReal) (AX AY HX HY : S1x2048.Idx → EReal) (t : Fin 32) (k : Fin 2)
    (a : Fin 2048) :
    caBoxArr X Y R AX AY HX HY (ix3 t k a) = zero - ∑ r : Fin 128, caTerm X Y R AX AY HX HY (circOf t r) a k.val := rfl

/-- Entry (i, k) of the circle array the circle–box pass leaves, from the arguments. -/
theorem ca_circ_result (c : Dev nD) (i : Fin 4096) (k : Fin 2) :
    (dat2 (V5 m ρ) c).arrAt 7 cfg2.N (ix2 i k) = caCircK (m ((c : Thread nD τ).loc main_arg0)) (m ((c : Thread nD τ).loc main_arg1)) (m ((c : Thread nD τ).loc main_arg2)) (m ((c : Thread nD τ).loc main_arg3)) i k := by
  refine (congrFun (arr_ca_circ (V5 m ρ) c) (ix2 i k)).trans ?_
  refine (caCircArr_apply _ _ _ _ _ _ _ i k).trans ?_
  unfold caCircK
  exact Finset.sum_congr rfl fun a _ => caTerm_eq m ρ c i a k

/-- Entry (t, k, a) of the box array the circle–box pass leaves, from the arguments. -/
theorem ca_box_result (c : Dev nD) (t : Fin 32) (k : Fin 2) (a : Fin 2048) :
    (dat2 (V5 m ρ) c).arrAt 8 cfg2.N (ix3 t k a)
      = zero - ∑ r : Fin 128, caPushK (m ((c : Thread nD τ).loc main_arg0)) (m ((c : Thread nD τ).loc main_arg1)) (m ((c : Thread nD τ).loc main_arg2)) (m ((c : Thread nD τ).loc main_arg3)) (circOf t r) a k := by
  refine (congrFun (arr_ca_box (V5 m ρ) c) (ix3 t k a)).trans ?_
  refine (caBoxArr_apply _ _ _ _ _ _ _ t k a).trans ?_
  exact congrArg (fun s : EReal => zero - s) (Finset.sum_congr rfl fun r _ => caTerm_eq m ρ c (circOf t r) a k)

end Cert.KernelIdeal.GenP

end
-- ==== Proof.KernelValue.lean ====
/-
  What the tiled program computes: the first arrangement of the collision step, as one function of the four arguments.

  The closing host operations add, to each circle centre, the circle–circle pass's row and the circle–box pass's row, and,
  to each box centre, the box–box pass's row and the 32 partial sums of the circle–box pass added up; then they stack the
  circles over the boxes. Each pass's array is the corresponding sum over the other bodies, written with the arguments'
  entries.
-/
import proofs.«147085_j58935541236175_2_alg».proof.Proof.HostOut
import proofs.«147085_j58935541236175_2_alg».proof.Proof.PassValues

set_option maxRecDepth 16384

noncomputable section

open scoped BigOperators

namespace Cert.KernelIdeal.GenP

open Cert.KernelIdeal Cert.KernelIdeal.Gen Cert.Collide
open Idealize.ShloMosaic Idealize.ShloMosaic.TcCoe Idealize.ShloMosaic.ValueIdx Idealize.SL.Sem

variable (m : (ℓ : Loc nD τ sig) → Buf (Elt Ideal) ℓ) (ρ : Dev nD → PrngReg)

set_option backward.isDefEq.respectTransparency.types false in
/-- The result array at the end of the run is `GK` of the four argument arrays. -/
theorem kernel_value (c : Dev nD) :
    W7 m ρ c (Proc.devRef .tc main_v54)
      = GK (m ((c : Thread nD τ).loc main_arg0)) (m ((c : Thread nD τ).loc main_arg1))
          (m ((c : Thread nD τ).loc main_arg2)) (m ((c : Thread nD τ).loc main_arg3)) := by
  funext j
  obtain ⟨r, k, rfl⟩ : ∃ (r : Fin 6144) (k : Fin 2), j = (ix2 r k : S6144x2.Idx) := ⟨j 0, j 1, eq_ix2 j⟩
  have hr : r.val < 6144 := r.isLt
  show _ = (if h : r.val < 4096
      then circleK (m ((c : Thread nD τ).loc main_arg0)) (m ((c : Thread nD τ).loc main_arg1))
        (m ((c : Thread nD τ).loc main_arg2)) (m ((c : Thread nD τ).loc main_arg3)) ⟨r.val, h⟩ k
      else boxK (m ((c : Thread nD τ).loc main_arg0)) (m ((c : Thread nD τ).loc main_arg1))
        (m ((c : Thread nD τ).loc main_arg2)) (m ((c : Thread nD τ).loc main_arg3)) ⟨r.val - 4096, by omega⟩ k)
  by_cases h : r.val < 4096
  · -- a circle row: the centre plus the two passes' rows
    rw [dif_pos h]
    refine (out_circle m ρ c ⟨r.val, h⟩ k).trans ?_
    show outA0 m c (ix2 (⟨r.val, h⟩ : Fin 4096) k) + outR0 m ρ c (ix2 (⟨r.val, h⟩ : Fin 4096) k)
        + outR2 m ρ c (ix2 (⟨r.val, h⟩ : Fin 4096) k) = _
    rw [show outR0 m ρ c (ix2 (⟨r.val, h⟩ : Fin 4096) k) = _ from cc_result m ρ c ⟨r.val, h⟩ k,
      show outR2 m ρ c (ix2 (⟨r.val, h⟩ : Fin 4096) k) = _ from ca_circ_result m ρ c ⟨r.val, h⟩ k]
    rfl
  · -- a box row: name the box q, with r = q + 4096
    obtain ⟨q, hq⟩ : ∃ q : Fin 2048, r.val = q.val + 4096 :=
      ⟨⟨r.val - 4096, by omega⟩, by show r.val = r.val - 4096 + 4096; omega⟩
    rw [dif_neg h]
    have hb : boxK (m ((c : Thread nD τ).loc main_arg0)) (m ((c : Thread nD τ).loc main_arg1))
          (m ((c : Thread nD τ).loc main_arg2)) (m ((c : Thread nD τ).loc main_arg3)) ⟨r.val - 4096, by omega⟩ k
        = boxK (m ((c : Thread nD τ).loc main_arg0)) (m ((c : Thread nD τ).loc main_arg1))
          (m ((c : Thread nD τ).loc main_arg2)) (m ((c : Thread nD τ).loc main_arg3)) q k :=
      congrArg (fun x : Fin 2048 => boxK _ _ _ _ x k) (Fin.ext (by show r.val - 4096 = q.val; omega))
    rw [hb]
    have er : r = (⟨q.val + 4096, Nat.add_lt_add_right q.isLt 4096⟩ : Fin 6144) := Fin.ext hq
    subst er
    refine (out_box m ρ c q k).trans ?_
    show outA2 m c (ix2 q k) + outR1 m ρ c (ix2 q k) + (zero + ∑ t : Fin 32, outR3 m ρ c (ix3 t k q)) = _
    rw [show outR1 m ρ c (ix2 q k) = _ from aa_result m ρ c q k]
    simp only [show ∀ t : Fin 32, outR3 m ρ c (ix3 t k q) = _ from fun t => ca_box_result m ρ c t k q]
    rfl

end Cert.KernelIdeal.GenP

end
-- ==== Proof.RefValueCC.lean ====
/-
  The reference program's circle–circle part, read at an index.

  For circles i and a the program forms d = cp i − cp a, the squared distance 0 + (dx² + dy²), the distance as the square
  root of the guarded squared distance, the penetration (r_i + r_a) − distance, the hit bit (a ≠ i, squared distance above
  ε, penetration positive) and the push ½ · pen · (d_k / distance), 0 where there is no hit; the pushes on circle i are
  added over a starting from 0. Each stage below is the corresponding stage of that chain at the index (i, a) or
  (i, a, k); the last statement says the sum is the second arrangement's circle–circle sum.
-/
import proofs.«147085_j58935541236175_2_alg».proof.Proof.Spec
import proofs.«147085_j58935541236175_2_alg».proof.Proof.Gen.ReferenceIdeal.Read

noncomputable section

open scoped BigOperators

namespace Cert.RefValue

open Cert.ReferenceIdeal Cert.ReferenceIdeal.Read Cert.Collide Idealize.ShloMosaic Idealize.ShloMosaic.ValueIdx

variable (cp : (⟨S4096x2, .f32⟩ : BufTy).Contents (Elt Ideal)) (cr : (⟨S4096, .f32⟩ : BufTy).Contents (Elt Ideal))

/-- The centre difference at (i, a, k). -/
theorem cc_v4 (i a : Fin 4096) (k : Fin 2) :
    val_main_v4 (F := Ideal) cp (ix3 i a k) = cdel cp i a k := by
  show val_main_v2 (F := Ideal) cp (ix3 i a k) - val_main_v3 (F := Ideal) cp (ix3 i a k) = _
  rw [val_main_v2_apply, val_main_v0_apply, val_main_v3_apply, val_main_v1_apply]
  have h1 : idx_main_v0 (idx_main_v2 (ix3 i a k)) = ix2 i k :=
    funext fun d => Fin.ext (by match d with | ⟨0, _⟩ => rfl | ⟨1, _⟩ => rfl)
  have h2 : idx_main_v1 (idx_main_v3 (ix3 i a k)) = ix2 a k :=
    funext fun d => Fin.ext (by match d with | ⟨0, _⟩ => rfl | ⟨1, _⟩ => rfl)
  rw [h1, h2]; rfl

/-- The squared distance at (i, a): 0 + (dx² + dy²). -/
theorem cc_v6 (i a : Fin 4096) :
    val_main_v6 (F := Ideal) cp (ix2 i a)
      = zero + (cdel cp i a 0 * cdel cp i a 0 + cdel cp i a 1 * cdel cp i a 1) := by
  rw [val_main_v6_apply, Fin.sum_univ_two]
  have h0 : idx_main_v6 (ix2 i a) (0 : Fin 2) = ix3 i a 0 :=
    funext fun d => Fin.ext (by match d with | ⟨0, _⟩ => rfl | ⟨1, _⟩ => rfl | ⟨2, _⟩ => rfl)
  have h1 : idx_main_v6 (ix2 i a) (1 : Fin 2) = ix3 i a 1 :=
    funext fun d => Fin.ext (by match d with | ⟨0, _⟩ => rfl | ⟨1, _⟩ => rfl | ⟨2, _⟩ => rfl)
  rw [h0, h1]
  show _ + (val_main_v4 (F := Ideal) cp (ix3 i a 0) * val_main_v4 (F := Ideal) cp (ix3 i a 0)
      + val_main_v4 (F := Ideal) cp (ix3 i a 1) * val_main_v4 (F := Ideal) cp (ix3 i a 1)) = _
  rw [cc_v4, cc_v4]; rfl

/-- The bit "row r is not column a", as the program computes it on 32-bit counters, for counters below 4096. -/
theorem offDiag_bits (r a : Nat) (hr : r < 4096) (ha : a < 4096) :
    ~~~(IntOp.cmpi .eq (IntOp.addi (BitVec.ofNat 32 r) 0#32) (BitVec.ofNat 32 a)) = offDiag r a := by
  unfold offDiag
  have hadd : IntOp.addi (BitVec.ofNat 32 r) 0#32 = BitVec.ofNat 32 r := BitVec.add_zero _
  rw [hadd]
  by_cases h : r = a
  · subst h
    rw [if_pos rfl, IntOp.cmpi_eq.mpr rfl]; decide
  · rw [if_neg h]
    have hne : ¬ IntOp.cmpi .eq (BitVec.ofNat 32 r) (BitVec.ofNat 32 a) = 1#1 := by
      rw [IntOp.cmpi_eq]
      intro he
      have := congrArg BitVec.toNat he
      simp only [BitVec.toNat_ofNat] at this
      omega
    rw [eq_zero_of_ne_one hne]; decide

/-- The squared distance 0 + (dx² + dy²) and the guarded distance, as Spec's second arrangement writes them. -/
abbrev ccD2 (i a : Fin 4096) : EReal :=
  zero + (cdel cp i a 0 * cdel cp i a 0 + cdel cp i a 1 * cdel cp i a 1)
abbrev ccDist (i a : Fin 4096) : EReal :=
  sqr (Scalar.select (gt (ccD2 cp i a) eps) (ccD2 cp i a) one)

theorem cc_v12 (i a : Fin 4096) : val_main_v12 (F := Ideal) (ix2 i a) = offDiag i.val a.val := by
  rw [val_main_v12_apply, val_main_v11_apply, val_main_v10_apply, val_main_v7_apply, val_main_v8_apply,
    val_main_v9_apply, val_main_c_apply]
  exact offDiag_bits i.val a.val i.isLt a.isLt

theorem cc_v16 (i a : Fin 4096) : val_main_v16 (F := Ideal) cp (ix2 i a) = ccDist cp i a := by
  rw [val_main_v16_apply, val_main_v15_apply, val_main_v14_apply, val_main_v13_apply, val_main_cst_0_apply,
    val_main_call0_v1_apply, val_main_call0_v0_apply, val_main_cst_1_apply, cc_v6]
  rfl

/-- The penetration at (i, a): (r_i + r_a) − distance. -/
theorem cc_v22 (i a : Fin 4096) :
    val_main_v22 (F := Ideal) cp cr (ix2 i a) = (cr (ix1 i) + cr (ix1 a)) - ccDist cp i a := by
  have h1 : idx_main_v17 (idx_main_v19 (ix2 i a)) = ix1 i :=
    funext fun d => Fin.ext (by match d with | ⟨0, _⟩ => rfl)
  have h2 : idx_main_v18 (idx_main_v20 (ix2 i a)) = ix1 a :=
    funext fun d => Fin.ext (by match d with | ⟨0, _⟩ => rfl)
  rw [val_main_v22_apply, val_main_v21_apply, val_main_v19_apply, val_main_v17_apply, h1,
    val_main_v20_apply, val_main_v18_apply, h2, cc_v16]
  rfl

/-- The hit bit at (i, a). -/
theorem cc_v28 (i a : Fin 4096) :
    val_main_v28 (F := Ideal) cp cr (ix2 i a)
      = IntOp.andi (IntOp.andi (offDiag i.val a.val) (gt (ccD2 cp i a) eps))
          (gt ((cr (ix1 i) + cr (ix1 a)) - ccDist cp i a) zero) := by
  rw [val_main_v28_apply, val_main_v25_apply, cc_v12, val_main_v24_apply, cc_v6, val_main_v23_apply,
    val_main_cst_2_apply, val_main_v27_apply, cc_v22, val_main_v26_apply, val_main_cst_3_apply]
  rfl

/-- The push on circle i from circle a, component k. -/
theorem cc_v38 (i a : Fin 4096) (k : Fin 2) :
    val_main_v38 (F := Ideal) cp cr (ix3 i a k)
      = ccR (offDiag i.val a.val) (ccD2 cp i a) (cr (ix1 i) + cr (ix1 a)) (cdel cp i a k) := by
  have h1 : idx_main_v32 (idx_main_call1_v1 (ix3 i a k)) = ix2 i a :=
    funext fun d => Fin.ext (by match d with | ⟨0, _⟩ => rfl | ⟨1, _⟩ => rfl)
  have h2 : idx_main_v29 (idx_main_v30 (ix3 i a k)) = ix2 i a :=
    funext fun d => Fin.ext (by match d with | ⟨0, _⟩ => rfl | ⟨1, _⟩ => rfl)
  have h3 : idx_main_v33 (idx_main_v36 (ix3 i a k)) = ix2 i a :=
    funext fun d => Fin.ext (by match d with | ⟨0, _⟩ => rfl | ⟨1, _⟩ => rfl)
  rw [val_main_v38_apply, val_main_call1_v1_apply, val_main_v32_apply, h1, cc_v28,
    val_main_v37_apply, val_main_v36_apply, val_main_v35_apply, val_main_v34_apply, val_main_cst_4_apply,
    val_main_v33_apply, h3, cc_v22, val_main_v31_apply, cc_v4, val_main_v30_apply, val_main_v29_apply, h2, cc_v16,
    val_main_call1_v2_apply, val_main_call1_v0_apply, val_main_cst_5_apply]
  rfl

/-- The pushes on circle i from the other circles are the second arrangement's circle–circle sum. -/
theorem cc_v39 (i : Fin 4096) (k : Fin 2) :
    val_main_v39 (F := Ideal) cp cr (ix2 i k) = ccSumR cp cr i k := by
  rw [val_main_v39_apply]
  unfold ccSumR
  refine congrArg (_ + ·) (Finset.sum_congr rfl fun a _ => ?_)
  have h : idx_main_v39 (ix2 i k) a = ix3 i a k :=
    funext fun d => Fin.ext (by match d with | ⟨0, _⟩ => rfl | ⟨1, _⟩ => rfl | ⟨2, _⟩ => rfl)
  rw [h, cc_v38]

end Cert.RefValue

end
-- ==== Proof.RefValueAA.lean ====
/-
  The reference program's box–box part, read at an index.

  For boxes i and a the program forms d = p_i − p_a and the overlaps ov_k = (h_i + h_a)_k − |d_k| on both axes, the hit
  bit (a ≠ i, both overlaps positive), the sign of d_k as ±1, and the push: along x, (½ · ov_x · sign d_x, 0), when
  ov_x ≤ ov_y, otherwise along y, (0, ½ · ov_y · sign d_y); 0 where there is no hit. The two candidate pushes are built
  by stacking a computed column beside a column of zeros. The pushes on box i are added over a starting from 0, which
  is the box–box sum of the second arrangement.
-/
import proofs.«147085_j58935541236175_2_alg».proof.Proof.RefValueCC

noncomputable section

open scoped BigOperators

namespace Cert.RefValue

open Cert.ReferenceIdeal Cert.ReferenceIdeal.Gen Cert.ReferenceIdeal.Read Cert.Collide Idealize.ShloMosaic
  Idealize.ShloMosaic.ValueIdx

variable (ap ah : (⟨S2048x2, .f32⟩ : BufTy).Contents (Elt Ideal))

/-- The overlap on axis k and the sign of the centre difference on axis k. -/
abbrev aaOv (i a : Fin 2048) (k : Fin 2) : EReal := ahsum ah i a k - max (adel ap i a k) (-(adel ap i a k))
abbrev aaSgn (i a : Fin 2048) (k : Fin 2) : EReal := Scalar.select (ge (adel ap i a k) zero) one mone

theorem aa_v44 (i a : Fin 2048) (k : Fin 2) :
    val_main_v44 (F := Ideal) ap (ix3 i a k) = adel ap i a k := by
  have h1 : idx_main_v40 (idx_main_v42 (ix3 i a k)) = ix2 i k :=
    funext fun d => Fin.ext (by match d with | ⟨0, _⟩ => rfl | ⟨1, _⟩ => rfl)
  have h2 : idx_main_v41 (idx_main_v43 (ix3 i a k)) = ix2 a k :=
    funext fun d => Fin.ext (by match d with | ⟨0, _⟩ => rfl | ⟨1, _⟩ => rfl)
  rw [val_main_v44_apply, val_main_v42_apply, val_main_v40_apply, h1, val_main_v43_apply, val_main_v41_apply, h2]
  rfl

theorem aa_v49 (i a : Fin 2048) (k : Fin 2) :
    val_main_v49 (F := Ideal) ah (ix3 i a k) = ahsum ah i a k := by
  have h1 : idx_main_v45 (idx_main_v47 (ix3 i a k)) = ix2 i k :=
    funext fun d => Fin.ext (by match d with | ⟨0, _⟩ => rfl | ⟨1, _⟩ => rfl)
  have h2 : idx_main_v46 (idx_main_v48 (ix3 i a k)) = ix2 a k :=
    funext fun d => Fin.ext (by match d with | ⟨0, _⟩ => rfl | ⟨1, _⟩ => rfl)
  rw [val_main_v49_apply, val_main_v47_apply, val_main_v45_apply, h1, val_main_v48_apply, val_main_v46_apply, h2]
  rfl

theorem aa_v51 (i a : Fin 2048) (k : Fin 2) :
    val_main_v51 (F := Ideal) ap ah (ix3 i a k) = aaOv ap ah i a k := by
  rw [val_main_v51_apply, aa_v49, val_main_v50_apply, aa_v44]
  rfl

/-- Column 0 (column 1) of a [2048, 2048, 2] array, flattened to [2048, 2048], is read at (i, a, 0) (at (i, a, 1)). -/
theorem rs0 (i a : Fin 2048) : idx_main_v58 (idx_main_v59 (ix2 i a)) = ix3 i a 0 :=
  funext fun d => Fin.ext (by
    have hi := i.isLt; have ha := a.isLt
    match d with
    | ⟨0, _⟩ => show (i.val * 2048 + a.val) / 2048 = i.val; omega
    | ⟨1, _⟩ => show (i.val * 2048 + a.val) / 1 % 2048 = a.val; omega
    | ⟨2, _⟩ => rfl)
theorem rs1 (i a : Fin 2048) : idx_main_v63 (idx_main_v64 (ix2 i a)) = ix3 i a 1 :=
  funext fun d => Fin.ext (by
    have hi := i.isLt; have ha := a.isLt
    match d with
    | ⟨0, _⟩ => show (i.val * 2048 + a.val) / 2048 = i.val; omega
    | ⟨1, _⟩ => show (i.val * 2048 + a.val) / 1 % 2048 = a.val; omega
    | ⟨2, _⟩ => rfl)

theorem aa_v59 (i a : Fin 2048) : val_main_v59 (F := Ideal) ap ah (ix2 i a) = aaOv ap ah i a 0 := by
  rw [val_main_v59_apply, val_main_v58_apply, rs0, aa_v51]
theorem aa_v64 (i a : Fin 2048) : val_main_v64 (F := Ideal) ap ah (ix2 i a) = aaOv ap ah i a 1 := by
  rw [val_main_v64_apply, val_main_v63_apply, rs1, aa_v51]
theorem aa_v72 (i a : Fin 2048) : val_main_v72 (F := Ideal) ap ah (ix2 i a) = aaOv ap ah i a 0 := by
  have h : idx_main_v71 (idx_main_v72 (ix2 i a)) = ix3 i a 0 := rs0 i a
  rw [val_main_v72_apply, val_main_v71_apply, h, aa_v51]
theorem aa_v74 (i a : Fin 2048) : val_main_v74 (F := Ideal) ap ah (ix2 i a) = aaOv ap ah i a 1 := by
  have h : idx_main_v73 (idx_main_v74 (ix2 i a)) = ix3 i a 1 := rs1 i a
  rw [val_main_v74_apply, val_main_v73_apply, h, aa_v51]
theorem aa_v80 (i a : Fin 2048) : val_main_v80 (F := Ideal) ap ah (ix2 i a) = aaOv ap ah i a 0 := by
  have h : idx_main_v79 (idx_main_v80 (ix2 i a)) = ix3 i a 0 := rs0 i a
  rw [val_main_v80_apply, val_main_v79_apply, h, aa_v51]
theorem aa_v91 (i a : Fin 2048) : val_main_v91 (F := Ideal) ap ah (ix2 i a) = aaOv ap ah i a 1 := by
  have h : idx_main_v90 (idx_main_v91 (ix2 i a)) = ix3 i a 1 := rs1 i a
  rw [val_main_v91_apply, val_main_v90_apply, h, aa_v51]

theorem aa_v70 (i a : Fin 2048) (k : Fin 2) :
    val_main_v70 (F := Ideal) ap (ix3 i a k) = aaSgn ap i a k := by
  rw [val_main_v70_apply, val_main_v69_apply, aa_v44, val_main_v68_apply, val_main_cst_10_apply,
    val_main_call2_v0_apply, val_main_cst_11_apply, val_main_call2_v1_apply, val_main_cst_12_apply]
  rfl

theorem aa_v84 (i a : Fin 2048) : val_main_v84 (F := Ideal) ap (ix2 i a) = aaSgn ap i a 0 := by
  have h : idx_main_v83 (idx_main_v84 (ix2 i a)) = ix3 i a 0 := rs0 i a
  rw [val_main_v84_apply, val_main_v83_apply, h, aa_v70]
theorem aa_v95 (i a : Fin 2048) : val_main_v95 (F := Ideal) ap (ix2 i a) = aaSgn ap i a 1 := by
  have h : idx_main_v94 (idx_main_v95 (ix2 i a)) = ix3 i a 1 := rs1 i a
  rw [val_main_v95_apply, val_main_v94_apply, h, aa_v70]

theorem aa_v57 (i a : Fin 2048) : val_main_v57 (F := Ideal) (ix2 i a) = offDiag i.val a.val := by
  rw [val_main_v57_apply, val_main_v56_apply, val_main_v55_apply, val_main_v52_apply, val_main_v53_apply,
    val_main_v54_apply, val_main_c_7_apply]
  exact offDiag_bits i.val a.val (by have := i.isLt; omega) (by have := a.isLt; omega)

/-- The hit bit at (i, a). -/
theorem aa_v67 (i a : Fin 2048) :
    val_main_v67 (F := Ideal) ap ah (ix2 i a)
      = IntOp.andi (IntOp.andi (offDiag i.val a.val) (gt (aaOv ap ah i a 0) zero)) (gt (aaOv ap ah i a 1) zero) := by
  rw [val_main_v67_apply, val_main_v62_apply, aa_v57, val_main_v61_apply, aa_v59, val_main_v60_apply,
    val_main_cst_8_apply, val_main_v66_apply, aa_v64, val_main_v65_apply, val_main_cst_9_apply]
  rfl

/-- The bit "push along x" at (i, a). -/
theorem aa_v75 (i a : Fin 2048) :
    val_main_v75 (F := Ideal) ap ah (ix2 i a) = le (aaOv ap ah i a 0) (aaOv ap ah i a 1) := by
  rw [val_main_v75_apply, aa_v72, aa_v74]

theorem aa_v86 (i a : Fin 2048) :
    val_main_v86 (F := Ideal) ap ah (ix2 i a) = half * aaOv ap ah i a 0 * aaSgn ap i a 0 := by
  rw [val_main_v86_apply, val_main_v82_apply, val_main_v81_apply, val_main_cst_14_apply, aa_v80,
    val_main_v85_apply, aa_v84]
  rfl
theorem aa_v97 (i a : Fin 2048) :
    val_main_v97 (F := Ideal) ap ah (ix2 i a) = half * aaOv ap ah i a 1 * aaSgn ap i a 1 := by
  rw [val_main_v97_apply, val_main_v93_apply, val_main_v92_apply, val_main_cst_15_apply, aa_v91,
    val_main_v96_apply, aa_v95]
  rfl

theorem aa_v78 (i a : Fin 2048) : val_main_v78 (F := Ideal) (ix2 i a) = zero := by
  rw [val_main_v78_apply, val_main_cst_13_apply]
  rfl

/-- The candidate push along x, (½ · ov_x · sign d_x, 0), component by component. -/
theorem aa_v89_0 (i a : Fin 2048) :
    val_main_v89 (F := Ideal) ap ah (ix3 i a 0) = half * aaOv ap ah i a 0 * aaSgn ap i a 0 := by
  unfold val_main_v89
  refine (concatenate_pair_apply_left (t := S2048x2048x2) (s₁ := S2048x2048x1) (s₂ := S2048x2048x1) (2 : Fin 3)
    (val_main_v87 (F := Ideal) ap ah) (val_main_v88 (F := Ideal)) concatenates_S2048x2048x1_S2048x2048x1_S2048x2048x2_d2
    (ix3 i a (0 : Fin 2)) rfl (ix3 i a (0 : Fin 1) : S2048x2048x1.Idx) ?_).trans ?_
  · intro b; match b with | ⟨0, _⟩ => rfl | ⟨1, _⟩ => rfl | ⟨2, _⟩ => rfl
  · have h : idx_main_v87 (ix3 i a (0 : Fin 1)) = ix2 i a :=
      funext fun d => Fin.ext (by match d with | ⟨0, _⟩ => rfl | ⟨1, _⟩ => rfl)
    rw [val_main_v87_apply, h, aa_v86]
theorem aa_v89_1 (i a : Fin 2048) :
    val_main_v89 (F := Ideal) ap ah (ix3 i a 1) = zero := by
  unfold val_main_v89
  refine (concatenate_pair_apply_right (t := S2048x2048x2) (s₁ := S2048x2048x1) (s₂ := S2048x2048x1) (2 : Fin 3)
    (val_main_v87 (F := Ideal) ap ah) (val_main_v88 (F := Ideal)) concatenates_S2048x2048x1_S2048x2048x1_S2048x2048x2_d2
    (ix3 i a (1 : Fin 2)) rfl rfl (ix3 i a (0 : Fin 1) : S2048x2048x1.Idx) ?_ ?_).trans ?_
  · intro b hb; match b, hb with
      | ⟨0, _⟩, _ => rfl
      | ⟨1, _⟩, _ => rfl
      | ⟨2, _⟩, hb => exact absurd rfl hb
  · rfl
  · have h : idx_main_v88 (ix3 i a (0 : Fin 1)) = ix2 i a :=
      funext fun d => Fin.ext (by match d with | ⟨0, _⟩ => rfl | ⟨1, _⟩ => rfl)
    rw [val_main_v88_apply, h, aa_v78]

/-- The candidate push along y, (0, ½ · ov_y · sign d_y), component by component. -/
theorem aa_v100_0 (i a : Fin 2048) :
    val_main_v100 (F := Ideal) ap ah (ix3 i a 0) = zero := by
  unfold val_main_v100
  refine (concatenate_pair_apply_left (t := S2048x2048x2) (s₁ := S2048x2048x1) (s₂ := S2048x2048x1) (2 : Fin 3)
    (val_main_v98 (F := Ideal)) (val_main_v99 (F := Ideal) ap ah) concatenates_S2048x2048x1_S2048x2048x1_S2048x2048x2_d2
    (ix3 i a (0 : Fin 2)) rfl (ix3 i a (0 : Fin 1) : S2048x2048x1.Idx) ?_).trans ?_
  · intro b; match b with | ⟨0, _⟩ => rfl | ⟨1, _⟩ => rfl | ⟨2, _⟩ => rfl
  · have h : idx_main_v98 (ix3 i a (0 : Fin 1)) = ix2 i a :=
      funext fun d => Fin.ext (by match d with | ⟨0, _⟩ => rfl | ⟨1, _⟩ => rfl)
    rw [val_main_v98_apply, h, aa_v78]
theorem aa_v100_1 (i a : Fin 2048) :
    val_main_v100 (F := Ideal) ap ah (ix3 i a 1) = half * aaOv ap ah i a 1 * aaSgn ap i a 1 := by
  unfold val_main_v100
  refine (concatenate_pair_apply_right (t := S2048x2048x2) (s₁ := S2048x2048x1) (s₂ := S2048x2048x1) (2 : Fin 3)
    (val_main_v98 (F := Ideal)) (val_main_v99 (F := Ideal) ap ah) concatenates_S2048x2048x1_S2048x2048x1_S2048x2048x2_d2
    (ix3 i a (1 : Fin 2)) rfl rfl (ix3 i a (0 : Fin 1) : S2048x2048x1.Idx) ?_ ?_).trans ?_
  · intro b hb; match b, hb with
      | ⟨0, _⟩, _ => rfl
      | ⟨1, _⟩, _ => rfl
      | ⟨2, _⟩, hb => exact absurd rfl hb
  · rfl
  · have h : idx_main_v99 (ix3 i a (0 : Fin 1)) = ix2 i a :=
      funext fun d => Fin.ext (by match d with | ⟨0, _⟩ => rfl | ⟨1, _⟩ => rfl)
    rw [val_main_v99_apply, h, aa_v97]

/-- The push on box i from box a, component k. -/
theorem aa_v104 (i a : Fin 2048) (k : Fin 2) :
    val_main_v104 (F := Ideal) ap ah (ix3 i a k)
      = aaT (offDiag i.val a.val) (adel ap i a 0) (adel ap i a 1) (ahsum ah i a 0) (ahsum ah i a 1) k := by
  have h1 : idx_main_v103 (idx_main_call4_v1 (ix3 i a k)) = ix2 i a :=
    funext fun d => Fin.ext (by match d with | ⟨0, _⟩ => rfl | ⟨1, _⟩ => rfl)
  have h2 : idx_main_v101 (idx_main_call3_v0 (ix3 i a k)) = ix2 i a :=
    funext fun d => Fin.ext (by match d with | ⟨0, _⟩ => rfl | ⟨1, _⟩ => rfl)
  rw [val_main_v104_apply, val_main_call4_v1_apply, val_main_v103_apply, h1, aa_v67,
    val_main_v102_apply, val_main_call3_v0_apply, val_main_v101_apply, h2, aa_v75,
    val_main_call4_v2_apply, val_main_call4_v0_apply, val_main_cst_16_apply]
  unfold aaT
  have hk : k = 0 ∨ k = 1 := by
    rcases k with ⟨_ | _ | n, h⟩
    · exact Or.inl rfl
    · exact Or.inr rfl
    · omega
  rcases hk with rfl | rfl
  · rw [aa_v89_0, aa_v100_0, if_pos rfl]; rfl
  · rw [aa_v89_1, aa_v100_1, if_neg (by decide)]; rfl

/-- The pushes on box i from the other boxes are the second arrangement's box–box sum. -/
theorem aa_v105 (i : Fin 2048) (k : Fin 2) :
    val_main_v105 (F := Ideal) ap ah (ix2 i k) = aaSumR ap ah i k := by
  rw [val_main_v105_apply]
  unfold aaSumR
  refine congrArg (_ + ·) (Finset.sum_congr rfl fun a _ => ?_)
  have h : idx_main_v105 (ix2 i k) a = ix3 i a k :=
    funext fun d => Fin.ext (by match d with | ⟨0, _⟩ => rfl | ⟨1, _⟩ => rfl | ⟨2, _⟩ => rfl)
  rw [h, aa_v104]

end Cert.RefValue

end
-- ==== Proof.RefValueCA.lean ====
/-
  The reference program's circle–box part, read at an index.

  For circle i and box a the program forms rel = c_i − p_a, the offset from the closest point of the box
  f_k = rel_k − min h_k (max (−h_k) rel_k) on both axes, the squared length 0 + (f_x² + f_y²), the length as the square
  root of the guarded squared length, the penetration r_i − length, the hit bit (squared length above ε, penetration
  positive) and the push ½ · pen · (f_k / length), 0 where there is no hit. The pushes are added over the boxes for
  each circle, and over the circles and negated for each box, each sum starting from 0: the second arrangement's
  circle-side and box-side sums.
-/
import proofs.«147085_j58935541236175_2_alg».proof.Proof.Spec
import proofs.«147085_j58935541236175_2_alg».proof.Proof.Gen.ReferenceIdeal.Read

noncomputable section

open scoped BigOperators

namespace Cert.RefValue

open Cert.ReferenceIdeal Cert.ReferenceIdeal.Gen Cert.ReferenceIdeal.Read Cert.Collide Idealize.ShloMosaic
  Idealize.ShloMosaic.ValueIdx

variable (cp : (⟨S4096x2, .f32⟩ : BufTy).Contents (Elt Ideal)) (cr : (⟨S4096, .f32⟩ : BufTy).Contents (Elt Ideal))
  (ap ah : (⟨S2048x2, .f32⟩ : BufTy).Contents (Elt Ideal))

/-- The offset on axis k, the squared length and the guarded length, as Spec's second arrangement writes them. -/
abbrev caOff (i : Fin 4096) (a : Fin 2048) (k : Fin 2) : EReal := offR (rel cp ap i a k) (ah (ix2 a k))
abbrev caD2 (i : Fin 4096) (a : Fin 2048) : EReal :=
  zero + (caOff cp ap ah i a 0 * caOff cp ap ah i a 0 + caOff cp ap ah i a 1 * caOff cp ap ah i a 1)
abbrev caDist (i : Fin 4096) (a : Fin 2048) : EReal :=
  sqr (Scalar.select (gt (caD2 cp ap ah i a) eps) (caD2 cp ap ah i a) one)

theorem ca_v110 (i : Fin 4096) (a : Fin 2048) (k : Fin 2) :
    val_main_v110 (F := Ideal) cp ap (ix3 i a k) = rel cp ap i a k := by
  have h1 : idx_main_v106 (idx_main_v108 (ix3 i a k)) = ix2 i k :=
    funext fun d => Fin.ext (by match d with | ⟨0, _⟩ => rfl | ⟨1, _⟩ => rfl)
  have h2 : idx_main_v107 (idx_main_v109 (ix3 i a k)) = ix2 a k :=
    funext fun d => Fin.ext (by match d with | ⟨0, _⟩ => rfl | ⟨1, _⟩ => rfl)
  rw [val_main_v110_apply, val_main_v108_apply, val_main_v106_apply, h1, val_main_v109_apply, val_main_v107_apply, h2]
  rfl

theorem ca_v115 (i : Fin 4096) (a : Fin 2048) (k : Fin 2) :
    val_main_v115 (F := Ideal) cp ap ah (ix3 i a k) = caOff cp ap ah i a k := by
  have h1 : idx_main_v113 (idx_main_call5_v2 (ix3 i a k)) = ix2 a k :=
    funext fun d => Fin.ext (by match d with | ⟨0, _⟩ => rfl | ⟨1, _⟩ => rfl)
  have h2 : idx_main_v111 (idx_main_call5_v0 (ix3 i a k)) = ix2 a k :=
    funext fun d => Fin.ext (by match d with | ⟨0, _⟩ => rfl | ⟨1, _⟩ => rfl)
  rw [val_main_v115_apply, val_main_v114_apply, val_main_call5_v2_apply, val_main_v113_apply, h1,
    val_main_call5_v1_apply, val_main_call5_v0_apply, val_main_v112_apply, val_main_v111_apply, h2, ca_v110]
  rfl

theorem ca_v117 (i : Fin 4096) (a : Fin 2048) :
    val_main_v117 (F := Ideal) cp ap ah (ix2 i a) = caD2 cp ap ah i a := by
  have h0 : idx_main_v117 (ix2 i a) (0 : Fin 2) = ix3 i a 0 :=
    funext fun d => Fin.ext (by match d with | ⟨0, _⟩ => rfl | ⟨1, _⟩ => rfl | ⟨2, _⟩ => rfl)
  have h1 : idx_main_v117 (ix2 i a) (1 : Fin 2) = ix3 i a 1 :=
    funext fun d => Fin.ext (by match d with | ⟨0, _⟩ => rfl | ⟨1, _⟩ => rfl | ⟨2, _⟩ => rfl)
  rw [val_main_v117_apply, Fin.sum_univ_two, h0, h1, val_main_v116_apply, val_main_v116_apply, ca_v115, ca_v115]
  rfl

theorem ca_v121 (i : Fin 4096) (a : Fin 2048) :
    val_main_v121 (F := Ideal) cp ap ah (ix2 i a) = caDist cp ap ah i a := by
  rw [val_main_v121_apply, val_main_v120_apply, val_main_v119_apply, val_main_v118_apply, val_main_cst_19_apply,
    val_main_call6_v1_apply, val_main_call6_v0_apply, val_main_cst_20_apply, ca_v117]
  rfl

/-- The penetration at (i, a): r_i − length. -/
theorem ca_v124 (i : Fin 4096) (a : Fin 2048) :
    val_main_v124 (F := Ideal) cp cr ap ah (ix2 i a) = cr (ix1 i) - caDist cp ap ah i a := by
  have h1 : idx_main_v122 (idx_main_v123 (ix2 i a)) = ix1 i :=
    funext fun d => Fin.ext (by match d with | ⟨0, _⟩ => rfl)
  rw [val_main_v124_apply, val_main_v123_apply, val_main_v122_apply, h1, ca_v121]
  rfl

/-- The hit bit at (i, a). -/
theorem ca_v129 (i : Fin 4096) (a : Fin 2048) :
    val_main_v129 (F := Ideal) cp cr ap ah (ix2 i a)
      = IntOp.andi (gt (caD2 cp ap ah i a) eps) (gt (cr (ix1 i) - caDist cp ap ah i a) zero) := by
  rw [val_main_v129_apply, val_main_v126_apply, ca_v117, val_main_v125_apply, val_main_cst_21_apply,
    val_main_v128_apply, ca_v124, val_main_v127_apply, val_main_cst_22_apply]
  rfl

/-- The push on circle i from box a, component k. -/
theorem ca_v139 (i : Fin 4096) (a : Fin 2048) (k : Fin 2) :
    val_main_v139 (F := Ideal) cp cr ap ah (ix3 i a k) = caPushR cp cr ap ah i a k := by
  have h1 : idx_main_v133 (idx_main_call7_v1 (ix3 i a k)) = ix2 i a :=
    funext fun d => Fin.ext (by match d with | ⟨0, _⟩ => rfl | ⟨1, _⟩ => rfl)
  have h2 : idx_main_v130 (idx_main_v131 (ix3 i a k)) = ix2 i a :=
    funext fun d => Fin.ext (by match d with | ⟨0, _⟩ => rfl | ⟨1, _⟩ => rfl)
  have h3 : idx_main_v134 (idx_main_v137 (ix3 i a k)) = ix2 i a :=
    funext fun d => Fin.ext (by match d with | ⟨0, _⟩ => rfl | ⟨1, _⟩ => rfl)
  rw [val_main_v139_apply, val_main_call7_v1_apply, val_main_v133_apply, h1, ca_v129,
    val_main_v138_apply, val_main_v137_apply, val_main_v136_apply, val_main_v135_apply, val_main_cst_23_apply,
    val_main_v134_apply, h3, ca_v124, val_main_v132_apply, ca_v115, val_main_v131_apply, val_main_v130_apply, h2,
    ca_v121, val_main_call7_v2_apply, val_main_call7_v0_apply, val_main_cst_24_apply]
  rfl

/-- The pushes on circle i from the boxes are the second arrangement's circle-side sum. -/
theorem ca_v140 (i : Fin 4096) (k : Fin 2) :
    val_main_v140 (F := Ideal) cp cr ap ah (ix2 i k) = caCircR cp cr ap ah i k := by
  rw [val_main_v140_apply]
  unfold caCircR
  refine congrArg (_ + ·) (Finset.sum_congr rfl fun a _ => ?_)
  have h : idx_main_v140 (ix2 i k) a = ix3 i a k :=
    funext fun d => Fin.ext (by match d with | ⟨0, _⟩ => rfl | ⟨1, _⟩ => rfl | ⟨2, _⟩ => rfl)
  rw [h, ca_v139]

/-- The opposite pushes on box a from the circles are the second arrangement's box-side sum. -/
theorem ca_v142 (a : Fin 2048) (k : Fin 2) :
    val_main_v142 (F := Ideal) cp cr ap ah (ix2 a k) = caBoxR cp cr ap ah a k := by
  rw [val_main_v142_apply, val_main_v141_apply]
  unfold caBoxR
  refine congrArg (fun x : EReal => -x) (congrArg (_ + ·) (Finset.sum_congr rfl fun i _ => ?_))
  have h : idx_main_v141 (ix2 a k) i = ix3 i a k :=
    funext fun d => Fin.ext (by match d with | ⟨0, _⟩ => rfl | ⟨1, _⟩ => rfl | ⟨2, _⟩ => rfl)
  rw [h, ca_v139]

end Cert.RefValue

end
-- ==== Proof.RefValue.lean ====
/-
  The reference program is the second arrangement.

  The moved circle centres are cp + (circle–circle sum) + (circle-side circle–box sum), the moved box centres
  ap + (box–box sum) + (box-side circle–box sum), and the result stacks the 4096 rows of the first over the 2048 rows of
  the second: row j of the result is circle j below 4096 and box j − 4096 from there on.
-/
import proofs.«147085_j58935541236175_2_alg».proof.Proof.RefValueAA
import proofs.«147085_j58935541236175_2_alg».proof.Proof.RefValueCA

noncomputable section

open scoped BigOperators

namespace Cert.RefValue

open Cert.ReferenceIdeal Cert.ReferenceIdeal.Gen Cert.ReferenceIdeal.Read Cert.Collide Idealize.ShloMosaic
  Idealize.ShloMosaic.ValueIdx

variable (cp : (⟨S4096x2, .f32⟩ : BufTy).Contents (Elt Ideal)) (cr : (⟨S4096, .f32⟩ : BufTy).Contents (Elt Ideal))
  (ap ah : (⟨S2048x2, .f32⟩ : BufTy).Contents (Elt Ideal))

/-- The moved centre of circle i. -/
theorem ref_v144 (i : Fin 4096) (k : Fin 2) :
    val_main_v144 (F := Ideal) cp cr ap ah (ix2 i k) = circleR cp cr ap ah i k := by
  rw [val_main_v144_apply, val_main_v143_apply, cc_v39, ca_v140]
  rfl

/-- The moved centre of box i. -/
theorem ref_v146 (i : Fin 2048) (k : Fin 2) :
    val_main_v146 (F := Ideal) cp cr ap ah (ix2 i k) = boxR cp cr ap ah i k := by
  rw [val_main_v146_apply, val_main_v145_apply, aa_v105, ca_v142]
  rfl

/-- The reference program's result is the second arrangement of the collision step. -/
theorem ref_eq_GR :
    Cert.ReferenceIdeal.Read.val_main_v147 (F := Ideal) cp cr ap ah = Cert.Collide.GR cp cr ap ah := by
  funext j
  have hj0 : (j 0).val < 6144 := idx2_lt0 j
  unfold GR
  by_cases h : (j 0).val < 4096
  · rw [dif_pos h]
    unfold val_main_v147
    refine (concatenate_pair_apply_left (t := S6144x2) (s₁ := S4096x2) (s₂ := S2048x2) (0 : Fin 2)
      (val_main_v144 (F := Ideal) cp cr ap ah) (val_main_v146 (F := Ideal) cp cr ap ah)
      concatenates_S4096x2_S2048x2_S6144x2_d0 j rfl
      (ix2 (⟨(j 0).val, h⟩ : Fin 4096) (j 1 : Fin 2) : S4096x2.Idx) ?_).trans ?_
    · intro b; match b with | ⟨0, _⟩ => rfl | ⟨1, _⟩ => rfl
    · exact ref_v144 cp cr ap ah ⟨(j 0).val, h⟩ (j 1)
  · -- rows from 4096 on: name the box row q, with (j 0) = q + 4096
    obtain ⟨q, hq⟩ : ∃ q : Fin 2048, (j 0).val = q.val + 4096 :=
      ⟨⟨(j 0).val - 4096, by omega⟩, by show (j 0).val = (j 0).val - 4096 + 4096; omega⟩
    have hbox : (if h : (j 0).val < 4096 then circleR cp cr ap ah ⟨(j 0).val, h⟩ (j 1)
        else boxR cp cr ap ah ⟨(j 0).val - 4096, by have := idx2_lt0 j; omega⟩ (j 1))
        = boxR cp cr ap ah q (j 1) := by
      rw [dif_neg h]
      exact congrArg (fun x : Fin 2048 => boxR cp cr ap ah x (j 1))
        (Fin.ext (by show (j 0).val - 4096 = q.val; omega))
    rw [hbox]
    unfold val_main_v147
    refine (concatenate_pair_apply_right (t := S6144x2) (s₁ := S4096x2) (s₂ := S2048x2) (0 : Fin 2)
      (val_main_v144 (F := Ideal) cp cr ap ah) (val_main_v146 (F := Ideal) cp cr ap ah)
      concatenates_S4096x2_S2048x2_S6144x2_d0 j rfl rfl
      (ix2 q (j 1 : Fin 2) : S2048x2.Idx) ?_ ?_).trans (ref_v146 cp cr ap ah q (j 1))
    · intro b hb; match b, hb with
        | ⟨0, _⟩, hb => exact absurd rfl hb
        | ⟨1, _⟩, _ => rfl
    · show q.val + 4096 = (j 0).val
      omega

end Cert.RefValue

end
-- ==== Proof.Algebra.lean ====
/-
  The two arrangements of the pairwise collision step agree on finite inputs.

  Every input entry is a real number, so every difference, sum and product of entries is one. For one pair, with
  d² = dx² + dy² a real: if d² is not above ε both arrangements select 0, and 0 · d_k = 0; if d² > ε then d² > 0
  because 0 ≤ ε, the reciprocal square root is (√d²)⁻¹ and the square root √d², so d² · (√d²)⁻¹ = √d² (the same
  penetration, hence the same condition bit), and (½ · pen · (√d²)⁻¹) · d_k = ½ · pen · (d_k · (√d²)⁻¹) in the reals.
  Circle against box is the same computation with the off-diagonal bit 1 and the offsets as the difference, the lower
  clamp 0 − h being −h. The sums differ by a leading 0 only, except the box side of circle against box, where the
  first arrangement negates 32 partial sums of 128 terms and the second negates the whole sum of 4096 terms: all terms
  being real, both are the real number −∑ᵢ pᵢ, the index i = 128 · t + r running over 32 × 128.
-/
import proofs.«147085_j58935541236175_2_alg».proof.Proof.Spec
import Idealize.ShloMosaic.PureOps.Ideal.Laws

noncomputable section

open scoped BigOperators

namespace Cert.Collide

open Idealize.ShloMosaic Idealize.ShloMosaic.ValueIdx

/-! ## Real-valued extended reals -/

/-- An extended real that is a real number. -/
def IsReal (x : EReal) : Prop := ∃ r : ℝ, x = (r : EReal)

theorem IsReal.coe (r : ℝ) : IsReal (r : EReal) := ⟨r, rfl⟩
theorem IsReal.zero : IsReal 0 := ⟨0, rfl⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.max {x y : EReal} (hx : IsReal x) (hy : IsReal y) : IsReal (max x y) := by
  rcases max_choice x y with h | h <;> rw [h] <;> assumption
theorem IsReal.min {x y : EReal} (hx : IsReal x) (hy : IsReal y) : IsReal (min x y) := by
  rcases min_choice x y with h | h <;> rw [h] <;> assumption

/-- The coercion of a finite sum of reals is the sum of the coercions. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-! ## The constants -/

/-- The zero word denotes 0. -/
theorem zero_eq : zero = 0 := Ideal.ofBits_zero_f32

/-- ε is the dyadic rational 9007199 · 2⁻⁵³. -/
theorem eps_eq : eps = ((9007199 * (2 ^ 53)⁻¹ : ℝ) : EReal) := by
  simp [eps, Ideal.ofBits, Ideal.ieee, -EReal.coe_mul]

/-- ε is a nonnegative real. -/
theorem eps_real : ∃ e : ℝ, 0 ≤ e ∧ eps = (e : EReal) := ⟨_, by positivity, eps_eq⟩

/-- ½ is a real. -/
theorem half_real : ∃ x : ℝ, half = (x : EReal) :=
  ⟨8388608 * (2 ^ 24)⁻¹, by simp [half, Ideal.ofBits, Ideal.ieee, -EReal.coe_mul]⟩

/-! ## Comparisons and condition bits -/

theorem gt_coe_pos {a b : ℝ} (h : b < a) : gt (a : EReal) (b : EReal) = 1#1 := by
  show Ideal.cmp .ogt (a : EReal) (b : EReal) = 1#1
  simp [Ideal.cmp, h]

theorem gt_coe_neg {a b : ℝ} (h : ¬ b < a) : gt (a : EReal) (b : EReal) = 0#1 := by
  show Ideal.cmp .ogt (a : EReal) (b : EReal) = 0#1
  simp [Ideal.cmp, h]

theorem andi_zero_mid (c d : BitVec 1) : IntOp.andi (IntOp.andi c 0#1) d = 0#1 := by revert c d; decide
theorem andi_one_left (d : BitVec 1) : IntOp.andi 1#1 d = d := by revert d; decide

/-! ## One pair -/

/-- Circle against circle on real data: the first arrangement's factor times the component is the second
    arrangement's component, and it is a real. -/
theorem cc_coe (dg : BitVec 1) (dx dy rr dk : ℝ) :
    ∃ x : ℝ, ccK dg dx dy rr * (dk : EReal) = (x : EReal) ∧
      ccR dg (zero + ((dx : EReal) * dx + (dy : EReal) * dy)) rr dk = (x : EReal) := by
  obtain ⟨e, he0, he⟩ := eps_real
  obtain ⟨hf, hhalf⟩ := half_real
  have hd2 : (dx : EReal) * dx + (dy : EReal) * dy = ((dx * dx + dy * dy : ℝ) : EReal) := by
    rw [EReal.coe_add, EReal.coe_mul, EReal.coe_mul]
  unfold ccK ccR
  rw [zero_eq, zero_add, hd2, he, hhalf]
  generalize dx * dx + dy * dy = d2
  by_cases h : e < d2
  · have hpos : 0 < d2 := lt_of_le_of_lt he0 h
    have hs0 : 0 < Real.sqrt d2 := Real.sqrt_pos.mpr hpos
    rw [gt_coe_pos h]
    simp only [select_one]
    have hr : rsq (d2 : EReal) = (((Real.sqrt d2)⁻¹ : ℝ) : EReal) := by
      show Ideal.rsqrt (d2 : EReal) = _
      rw [Ideal.rsqrt_coe, if_neg (not_lt.mpr hpos.le), if_neg hpos.ne']
    have hs : sqr (d2 : EReal) = ((Real.sqrt d2 : ℝ) : EReal) := by
      show Ideal.sqrt (d2 : EReal) = _
      rw [Ideal.sqrt_coe, if_neg (not_lt.mpr hpos.le)]
    have hq : quo (dk : EReal) ((Real.sqrt d2 : ℝ) : EReal) = ((dk * (Real.sqrt d2)⁻¹ : ℝ) : EReal) := by
      show Ideal.div (dk : EReal) ((Real.sqrt d2 : ℝ) : EReal) = _
      rw [Ideal.div_coe hs0.ne', one_div, ← EReal.coe_mul]
    have hmul : (d2 : EReal) * (((Real.sqrt d2)⁻¹ : ℝ) : EReal) = ((Real.sqrt d2 : ℝ) : EReal) := by
      rw [← EReal.coe_mul]
      congr 1
      rw [mul_inv_eq_iff_eq_mul₀ hs0.ne', Real.mul_self_sqrt hpos.le]
    rw [hr, hs, hq, hmul, ← EReal.coe_sub]
    by_cases hc : IntOp.andi (IntOp.andi dg 1#1) (gt ((rr - Real.sqrt d2 : ℝ) : EReal) 0) = 1#1
    · rw [hc]
      simp only [select_one]
      refine ⟨hf * (rr - Real.sqrt d2) * (Real.sqrt d2)⁻¹ * dk, ?_, ?_⟩
      · simp only [EReal.coe_mul]
      · rw [← EReal.coe_mul, ← EReal.coe_mul]
        congr 1
        ring
    · rw [eq_zero_of_ne_one hc]
      simp only [select_zero]
      exact ⟨0, by rw [zero_mul, EReal.coe_zero], EReal.coe_zero.symm⟩
  · rw [gt_coe_neg h]
    simp only [andi_zero_mid, select_zero]
    exact ⟨0, by rw [zero_mul, EReal.coe_zero], EReal.coe_zero.symm⟩

/-- The same for extended reals known to be real. -/
theorem cc_pair (dg : BitVec 1) {dx dy rr dk : EReal} (hx : IsReal dx) (hy : IsReal dy) (hr : IsReal rr)
    (hk : IsReal dk) :
    ccK dg dx dy rr * dk = ccR dg (zero + (dx * dx + dy * dy)) rr dk ∧ IsReal (ccK dg dx dy rr * dk) := by
  obtain ⟨dx, rfl⟩ := hx; obtain ⟨dy, rfl⟩ := hy; obtain ⟨rr, rfl⟩ := hr; obtain ⟨dk, rfl⟩ := hk
  obtain ⟨x, h1, h2⟩ := cc_coe dg dx dy rr dk
  exact ⟨h1.trans h2.symm, x, h1⟩

/-- Circle against box is circle against circle with the off-diagonal bit 1. -/
theorem caK_eq_ccK (fx fy rc : EReal) : caK fx fy rc = ccK 1#1 fx fy rc := by
  unfold caK ccK; rw [andi_one_left]
theorem caR_eq_ccR (d2 rc fk : EReal) : caR d2 rc fk = ccR 1#1 d2 rc fk := by
  unfold caR ccR; rw [andi_one_left]

/-- The two writings of the offset agree: 0 − h = −h. -/
theorem offK_eq_offR (r h : EReal) : offK r h = offR r h := by
  unfold offK offR; rw [zero_eq, zero_sub]

theorem offR_real {r h : EReal} (hr : IsReal r) (hh : IsReal h) : IsReal (offR r h) :=
  hr.sub (hh.min (hh.neg.max hr))

/-! ## The sums -/

section Arrays

variable (cp : (⟨2, ![4096, 2]⟩ : Shape).Idx → EReal) (cr : (⟨1, ![4096]⟩ : Shape).Idx → EReal)
  (ap ah : (⟨2, ![2048, 2]⟩ : Shape).Idx → EReal)
  (hcp : ∀ j, IsReal (cp j)) (hcr : ∀ j, IsReal (cr j)) (hap : ∀ j, IsReal (ap j)) (hah : ∀ j, IsReal (ah j))

include hcp hcr in
theorem ccSum_eq (i : Fin 4096) (k : Fin 2) : ccSumK cp cr i k = ccSumR cp cr i k := by
  unfold ccSumK ccSumR
  rw [zero_eq, zero_add]
  refine Finset.sum_congr rfl fun a _ => ?_
  rw [← zero_eq]
  exact (cc_pair _ ((hcp _).sub (hcp _)) ((hcp _).sub (hcp _)) ((hcr _).add (hcr _)) ((hcp _).sub (hcp _))).1

theorem aaSum_eq (i : Fin 2048) (k : Fin 2) : aaSumK ap ah i k = aaSumR ap ah i k := by
  unfold aaSumK aaSumR
  rw [zero_eq, zero_add]

include hcp hcr hap hah in
theorem caPush_eq (i : Fin 4096) (a : Fin 2048) (k : Fin 2) :
    caPushK cp cr ap ah i a k = caPushR cp cr ap ah i a k ∧ IsReal (caPushK cp cr ap ah i a k) := by
  unfold caPushK caPushR
  simp only [offK_eq_offR, caK_eq_ccK, caR_eq_ccR]
  have ho : ∀ k : Fin 2, IsReal (offR (rel cp ap i a k) (ah (ix2 a k))) := fun k =>
    offR_real ((hcp _).sub (hap _)) (hah _)
  exact cc_pair 1#1 (ho 0) (ho 1) (hcr _) (ho k)

include hcp hcr hap hah in
theorem caCirc_eq (i : Fin 4096) (k : Fin 2) : caCircK cp cr ap ah i k = caCircR cp cr ap ah i k := by
  unfold caCircK caCircR
  rw [zero_eq, zero_add]
  exact Finset.sum_congr rfl fun a _ => (caPush_eq cp cr ap ah hcp hcr hap hah i a k).1

end Arrays

/-- The 32 groups of 128 circles enumerate the 4096 circles. -/
def circEquiv : Fin 32 × Fin 128 ≃ Fin 4096 where
  toFun p := circOf p.1 p.2
  invFun i := (⟨i.val / 128, by omega⟩, ⟨i.val % 128, by omega⟩)
  left_inv p := by
    rcases p with ⟨t, r⟩
    refine Prod.ext (Fin.ext ?_) (Fin.ext ?_)
    · show (128 * t.val + r.val) / 128 = t.val
      omega
    · show (128 * t.val + r.val) % 128 = r.val
      omega
  right_inv i := Fin.ext (by
    show 128 * (i.val / 128) + i.val % 128 = i.val
    omega)

theorem sum_circOf (f : Fin 4096 → ℝ) : ∑ i, f i = ∑ t : Fin 32, ∑ r : Fin 128, f (circOf t r) := by
  rw [← Equiv.sum_comp circEquiv f, Fintype.sum_prod_type]
  rfl

/-- Negating 32 partial sums of 128 real terms, from 0, is negating the whole sum of 4096 terms, from 0. -/
theorem box_sum (p q : Fin 4096 → EReal) (hpq : ∀ i, p i = q i) (hp : ∀ i, IsReal (p i)) :
    zero + ∑ t : Fin 32, (zero - ∑ r : Fin 128, p (circOf t r)) = -(zero + ∑ i : Fin 4096, q i) := by
  obtain rfl : p = q := funext hpq
  choose f hf using hp
  obtain rfl : p = fun i => (f i : EReal) := funext hf
  rw [zero_eq]
  simp only [zero_add, zero_sub, ← coe_sum, ← EReal.coe_neg]
  congr 1
  rw [Finset.sum_neg_distrib, sum_circOf]

section Arrays2

variable (cp : (⟨2, ![4096, 2]⟩ : Shape).Idx → EReal) (cr : (⟨1, ![4096]⟩ : Shape).Idx → EReal)
  (ap ah : (⟨2, ![2048, 2]⟩ : Shape).Idx → EReal)
  (hcp : ∀ j, IsReal (cp j)) (hcr : ∀ j, IsReal (cr j)) (hap : ∀ j, IsReal (ap j)) (hah : ∀ j, IsReal (ah j))

include hcp hcr hap hah in
theorem caBox_eq (a : Fin 2048) (k : Fin 2) : caBoxK cp cr ap ah a k = caBoxR cp cr ap ah a k := by
  unfold caBoxK caBoxR
  exact box_sum (fun i => caPushK cp cr ap ah i a k) (fun i => caPushR cp cr ap ah i a k)
    (fun i => (caPush_eq cp cr ap ah hcp hcr hap hah i a k).1)
    (fun i => (caPush_eq cp cr ap ah hcp hcr hap hah i a k).2)

include hcp hcr hap hah in
theorem circle_eq (i : Fin 4096) (k : Fin 2) : circleK cp cr ap ah i k = circleR cp cr ap ah i k := by
  unfold circleK circleR
  rw [ccSum_eq cp cr hcp hcr, caCirc_eq cp cr ap ah hcp hcr hap hah]

include hcp hcr hap hah in
theorem box_eq (i : Fin 2048) (k : Fin 2) : boxK cp cr ap ah i k = boxR cp cr ap ah i k := by
  unfold boxK boxR
  rw [aaSum_eq ap ah, caBox_eq cp cr ap ah hcp hcr hap hah]

end Arrays2

/-- On finite inputs the two arrangements are one function. -/
theorem GK_eq_GR (cp : (⟨2, ![4096, 2]⟩ : Shape).Idx → EReal) (cr : (⟨1, ![4096]⟩ : Shape).Idx → EReal)
    (ap ah : (⟨2, ![2048, 2]⟩ : Shape).Idx → EReal)
    (hcp : ∀ j, ∃ x : ℝ, cp j = (x : EReal)) (hcr : ∀ j, ∃ x : ℝ, cr j = (x : EReal))
    (hap : ∀ j, ∃ x : ℝ, ap j = (x : EReal)) (hah : ∀ j, ∃ x : ℝ, ah j = (x : EReal)) :
    GK cp cr ap ah = GR cp cr ap ah := by
  funext j
  unfold GK GR
  split
  · exact circle_eq cp cr ap ah hcp hcr hap hah _ _
  · exact box_eq cp cr ap ah hcp hcr hap hah _ _

end Cert.Collide

end
-- ==== Proof.Finite.lean ====
/-
  From the precondition to "every input entry is a real number".

  The precondition says that the predicate "every entry of each of the four arrays has magnitude below +∞", printed as
  four reductions by "and" joined by "and", is 1 on every device. A conjunction that is 1 has both conjuncts 1; a
  reduction by "and" over all axes that is 1 met a 1 at every index; and at one entry x the comparison max x (−x) < ⊤
  on the extended reals excludes x = ⊤ (its magnitude is ⊤) and x = ⊥ (its magnitude is ⊤ too), so x is a real.
-/
import proofs.«147085_j58935541236175_2_alg».proof.Defs
import proofs.«147085_j58935541236175_2_alg».proof.Proof.Gen.Pre_finite_inputs
import Idealize.ShloMosaic.Lib.ReduceAll
import Idealize.ShloMosaic.Lib.ValueIdx
import Idealize.ShloMosaic.PureOps.Ideal.Laws

noncomputable section

namespace Cert.Collide

open Idealize.ShloMosaic Idealize.ShloMosaic.ValueIdx Idealize.SL.Sem
open Cert.Pre_finite_inputs (S_ S4096x2 S4096 S2048x2)

/-- The scalar shape has one index. -/
instance : Subsingleton S_.Idx := ⟨fun a b => funext fun d => d.elim0⟩

/-- An extended real whose magnitude compares below the +∞ word is a real. -/
theorem real_of_abs_lt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have htop : Ideal.ofBits .f32 0x7F800000#32 = ⊤ := by simp [Ideal.ofBits, Ideal.ieee]
  change Ideal.cmp .olt (max x (-x)) (Ideal.ofBits .f32 0x7F800000#32) = 1#1 at h
  rw [htop] at h
  induction x using EReal.rec with
  | bot => simp [Ideal.cmp] at h
  | coe r => exact ⟨r, rfl⟩
  | top => simp [Ideal.cmp] at h

/-- The printed predicate is 1 only when every entry of the four arrays is a real. -/
theorem real_of_fn [Cert.Pre_finite_inputs.Facts] (a0 : FVec Ideal S4096x2 .f32) (a1 : FVec Ideal S4096 .f32)
    (a2 a3 : FVec Ideal S2048x2 .f32) (e : Cert.Pre_finite_inputs.fn (F := Ideal) a0 a1 a2 a3 ix0 = 1#1) :
    (∀ j, ∃ x : ℝ, a0 j = (x : EReal)) ∧ (∀ j, ∃ x : ℝ, a1 j = (x : EReal)) ∧ (∀ j, ∃ x : ℝ, a2 j = (x : EReal))
      ∧ (∀ j, ∃ x : ℝ, a3 j = (x : EReal)) := by
  dsimp only [Cert.Pre_finite_inputs.fn, Cert.Pre_finite_inputs.fn_part1, andi] at e
  rw [IntOp.andi_eq_one, IntOp.andi_eq_one, IntOp.andi_eq_one] at e
  obtain ⟨⟨⟨e0, e1⟩, e2⟩, e3⟩ := e
  exact ⟨fun j => real_of_abs_lt _ (Host.reduce_andi_all _ _ _ _ _ e0 j),
    fun j => real_of_abs_lt _ (Host.reduce_andi_all _ _ _ _ _ e1 j),
    fun j => real_of_abs_lt _ (Host.reduce_andi_all _ _ _ _ _ e2 j),
    fun j => real_of_abs_lt _ (Host.reduce_andi_all _ _ _ _ _ e3 j)⟩

/-- Under the precondition every entry of the four argument arrays, on every device, is a real. -/
theorem finite_of_pre [hPre_finite_inputs : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ j, ∃ x : ℝ, m ((c.tc : Thread Cert.KernelIdeal.nD Cert.KernelIdeal.τ).loc Cert.KernelIdeal.main_arg0) j = (x : EReal))
    ∧ (∀ j, ∃ x : ℝ, m ((c.tc : Thread Cert.KernelIdeal.nD Cert.KernelIdeal.τ).loc Cert.KernelIdeal.main_arg1) j = (x : EReal))
    ∧ (∀ j, ∃ x : ℝ, m ((c.tc : Thread Cert.KernelIdeal.nD Cert.KernelIdeal.τ).loc Cert.KernelIdeal.main_arg2) j = (x : EReal))
    ∧ (∀ j, ∃ x : ℝ, m ((c.tc : Thread Cert.KernelIdeal.nD Cert.KernelIdeal.τ).loc Cert.KernelIdeal.main_arg3) j = (x : EReal)) :=
  real_of_fn _ _ _ _ (congrFun (h c) ix0)

end Cert.Collide

end
-- ==== Proof.lean ====
/-
  Pairwise collision resolution of 4096 circles and 2048 boxes: the tiled three-pass program against the whole-array one.

  Both programs move every body by the sum of the pushes from the bodies it overlaps: circle against circle along the
  line of centres, box against box along the axis of least overlap, circle against box along the offset from the box's
  closest point (equal and opposite on the box). The tiled program does this in three passes over blocks of 128 bodies;
  it forms a distance as d² · (d²)^(-1/2) from one reciprocal square root, multiplies the scalar factor into each component
  afterwards, and accumulates the boxes' share of the circle–box pushes in 32 partial sums which the closing host
  operations add. The whole-array program takes √d², divides each component by it, and sums once.

  On the extended reals, with every input entry finite, the two agree: every intermediate quantity is then a real number,
  d² > ε ≥ 0 wherever a push is not masked to zero, there d² · (√d²)⁻¹ = √d² and (½ · pen · (√d²)⁻¹) · d = ½ · pen · (d / √d²), and
  negation and regrouping pass through finite sums of reals. Finiteness of the inputs is what the precondition states,
  and it is used exactly there.

  The frames are the programs' runs with their results forgotten; the idealization rewrote nothing, so there is nothing to
  preserve.
-/
import proofs.«147085_j58935541236175_2_alg».proof.Defs
import proofs.«147085_j58935541236175_2_alg».proof.Proof.Gen.Kernel
import proofs.«147085_j58935541236175_2_alg».proof.Proof.Gen.KernelIdeal
import proofs.«147085_j58935541236175_2_alg».proof.Proof.Gen.ReferenceIdeal
import proofs.«147085_j58935541236175_2_alg».proof.Proof.Gen.Pre_finite_inputs
import proofs.«147085_j58935541236175_2_alg».proof.Proof.Gen.ReferenceIdeal.Run
import proofs.«147085_j58935541236175_2_alg».proof.Proof.Gen.ReferenceIdeal.Read
import proofs.«147085_j58935541236175_2_alg».proof.Proof.KernelFrame
import proofs.«147085_j58935541236175_2_alg».proof.Proof.KernelIdealRun
import proofs.«147085_j58935541236175_2_alg».proof.Proof.KernelValue
import proofs.«147085_j58935541236175_2_alg».proof.Proof.RefValue
import proofs.«147085_j58935541236175_2_alg».proof.Proof.Algebra
import proofs.«147085_j58935541236175_2_alg».proof.Proof.Finite
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel := fun m ρ _ => Cert.Kernel.GenP.frame m ρ

/-- So does the program read on the extended reals. -/
theorem frame_ideal : Cert.frame_KernelIdeal := fun m ρ _ => Cert.KernelIdeal.GenP.frame m ρ

/-- The whole-array program runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments, both programs end with the same array of moved bodies: the tiled
    program's result is the first arrangement of the collision step, the whole-array program's the second, and on finite
    inputs the two arrangements are one function. -/
theorem algebraic : Cert.algebraic_KernelIdeal_ReferenceIdeal := by
  intro m ρ m' ρ' hpre hagree
  refine ⟨fun c => Cert.Collide.GK
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨(h c).1.trans (Cert.KernelIdeal.GenP.kernel_value m ρ c), (h c).2⟩)
      (Cert.KernelIdeal.GenP.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := Cert.Collide.finite_of_pre m hpre c
    rw [Cert.ReferenceIdeal.Read.val_main_v147_eq, Cert.RefValue.ref_eq_GR, (hagree c).1, (hagree c).2.1,
      (hagree c).2.2.1, (hagree c).2.2.2]
    exact (Cert.Collide.GK_eq_GR _ _ _ _ h0 h1 h2 h3).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
